-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x200 : Shape := ⟨2, ![16384, 200]⟩
abbrev S1000000x32 : Shape := ⟨2, ![1000000, 32]⟩
abbrev S32x1 : Shape := ⟨2, ![32, 1]⟩
abbrev S1 : Shape := ⟨1, ![1]⟩
abbrev S_ : Shape := ⟨0, ![]⟩

class Facts : Prop where
  bcast_S_S1000000x32 : S_.BroadcastsInDim S1000000x32 (![] : Fin 0 → Fin S1000000x32.rank)
  reducesTo_S1000000x32_S_d0_1 : S1000000x32.ReducesTo [0, 1] S_
  h_S_ : 0 < S_.numel
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S16384x200 : S_.BroadcastsInDim S16384x200 (![] : Fin 0 → Fin S16384x200.rank)
  reducesTo_S16384x200_S_d0_1 : S16384x200.ReducesTo [0, 1] S_

variable [Facts]

def fn_part1 {F : FTy → Type} [FloatOps F] (main_arg0 : IVec S16384x200 32) (main_v13 : IVec S_ 1) (main_v15 : IVec S16384x200 1) (main_c_5 : IVec S_ 32) : IVec S_ 1 :=
  let main_v16 : IVec S16384x200 32 := broadcastInDim S16384x200 ![] bcast_S_S16384x200 main_c_5
  let main_v17 : IVec S16384x200 1 := cmpi .sle main_arg0 main_v16
  let main_v18 : IVec S16384x200 1 := andi main_v15 main_v17
  let main_c_6 : IVec S_ 1 := constantI S_ 1 1#1
  let main_v19 : IVec S_ 1 := (fun x v => Host.reduce IntOp.andi x v reducesTo_S16384x200_S_d0_1 h_S_) main_v18 main_c_6
  let main_v20 : IVec S_ 1 := andi main_v13 main_v19
  main_v20

def fn {F : FTy → Type} [FloatOps F] (main_arg0 : IVec S16384x200 32) (main_arg1 : FVec F S1000000x32 .f32) (main_arg2 : FVec F S32x1 .f32) (main_arg3 : FVec F S1 .f32) : IVec S_ 1 :=
  let main_v0 : FVec F S1000000x32 .f32 := Host.absf main_arg1
  let main_cst : FVec F S_ .f32 := constant S_ .f32 0x7F800000#32
  let main_v1 : FVec F S1000000x32 .f32 := broadcastInDim S1000000x32 ![] bcast_S_S1000000x32 main_cst
  let main_v2 : IVec S1000000x32 1 := cmpf .olt main_v0 main_v1
  let main_c : IVec S_ 1 := constantI S_ 1 1#1
  let main_v3 : IVec S_ 1 := (fun x v => Host.reduce IntOp.andi x v reducesTo_S1000000x32_S_d0_1 h_S_) main_v2 main_c
  let main_v4 : FVec F S32x1 .f32 := Host.absf main_arg2
  let main_cst_0 : FVec F S_ .f32 := constant S_ .f32 0x7F800000#32
  let main_v5 : FVec F S32x1 .f32 := broadcastInDim S32x1 ![] bcast_S_S32x1 main_cst_0
  let main_v6 : IVec S32x1 1 := cmpf .olt main_v4 main_v5
  let main_c_1 : IVec S_ 1 := constantI S_ 1 1#1
  let main_v7 : IVec S_ 1 := (fun x v => Host.reduce IntOp.andi x v reducesTo_S32x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_c_4 : IVec S_ 32 := constantI S_ 32 0#32
  let main_v14 : IVec S16384x200 32 := broadcastInDim S16384x200 ![] bcast_S_S16384x200 main_c_4
  let main_v15 : IVec S16384x200 1 := cmpi .sge main_arg0 main_v14
  let main_c_5 : IVec S_ 32 := constantI S_ 32 999999#32
  fn_part1 (F := F) main_arg0 main_v13 main_v15 main_c_5
-- ==== Kernel.lean ====
abbrev S16384x200 : Shape := ⟨2, ![16384, 200]⟩
abbrev S1000000x32 : Shape := ⟨2, ![1000000, 32]⟩
abbrev S32x1 : Shape := ⟨2, ![32, 1]⟩
abbrev S1 : Shape := ⟨1, ![1]⟩
abbrev S1x32 : Shape := ⟨2, ![1, 32]⟩
abbrev S1x1 : Shape := ⟨2, ![1, 1]⟩
abbrev S1000000 : Shape := ⟨1, ![1000000]⟩
abbrev S40960x32 : Shape := ⟨2, ![40960, 32]⟩
abbrev S40960 : Shape := ⟨1, ![40960]⟩
abbrev S32x128 : Shape := ⟨2, ![32, 128]⟩
abbrev S40960x128 : Shape := ⟨2, ![40960, 128]⟩
abbrev S320x128x128 : Shape := ⟨3, ![320, 128, 128]⟩
abbrev S320x128 : Shape := ⟨2, ![320, 128]⟩
abbrev S3276800 : Shape := ⟨1, ![3276800]⟩
abbrev S25600 : Shape := ⟨1, ![25600]⟩
abbrev S2 : Shape := ⟨1, ![2]⟩
abbrev S_ : Shape := ⟨0, ![]⟩

abbrev nBuf : Table → Nat
  | .hbm => 10
  | .local .tc .vmem => 6
  | .local .scVector .vmem => 4
  | _ => 0

abbrev bufTy : (tb : Table) → Fin (nBuf tb) → BufTy
  | .hbm, ⟨0, _⟩ => ⟨S16384x200, .i32⟩
  | .hbm, ⟨1, _⟩ => ⟨S1000000x32, .f32⟩
  | .hbm, ⟨2, _⟩ => ⟨S32x1, .f32⟩
  | .hbm, ⟨3, _⟩ => ⟨S1, .f32⟩
  | .hbm, ⟨4, _⟩ => ⟨S1x32, .f32⟩
  | .hbm, ⟨5, _⟩ => ⟨S1x1, .f32⟩
  | .hbm, ⟨6, _⟩ => ⟨S1000000, .f32⟩
  | .hbm, ⟨7, _⟩ => ⟨S3276800, .i32⟩
  | .hbm, ⟨8, _⟩ => ⟨S3276800, .f32⟩
  | .hbm, ⟨9, _⟩ => ⟨S16384x200, .f32⟩
  | .local .tc .vmem, ⟨0, _⟩ => ⟨S40960x32, .f32⟩
  | .local .tc .vmem, ⟨1, _⟩ => ⟨S40960x32, .f32⟩
  | .local .tc .vmem, ⟨2, _⟩ => ⟨S1x32, .f32⟩
  | .local .tc .vmem, ⟨3, _⟩ => ⟨S1x1, .f32⟩
  | .local .tc .vmem, ⟨4, _⟩ => ⟨S40960, .f32⟩
  | .local .tc .vmem, ⟨5, _⟩ => ⟨S40960, .f32⟩
  | .local .scVector .vmem, ⟨0, _⟩ => ⟨S25600, .i32⟩
  | .local .scVector .vmem, ⟨1, _⟩ => ⟨S25600, .i32⟩
  | .local .scVector .vmem, ⟨2, _⟩ => ⟨S25600, .f32⟩
  | .local .scVector .vmem, ⟨3, _⟩ => ⟨S25600, .f32⟩
  | _, _ => ⟨S16384x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v2_scv : Ref sig .scVector := ⟨.hbm, 6, rfl⟩
abbrev main_v3_scv : Ref sig .scVector := ⟨.hbm, 7, rfl⟩
abbrev main_v4_scv : Ref sig .scVector := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S40960x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S40960 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v2 : BitVec 32 := Scalar.muli v1 c102400_i32
  let v3 : BitVec 32 := Scalar.addi v2 c0_i32
  ![v3.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S32x1_S1x32 : S32x1.ShapeCasts S1x32
  shapeCasts_S1_S1x1 : S1.ShapeCasts S1x1
  inb_S40960x32_S40960x32_0_0 : ∀ a, (![0, 0] : Fin 2 → Nat) a + S40960x32.size a ≤ S40960x32.size a
  h_S40960x32 : 0 < S40960x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S40960x32 : S1x32.Broadcasts S40960x32
  iota_S40960x128_d0_w32 : S40960x128.Iotas .tc 32 [0]
  iota_S40960x128_d1_w32 : S40960x128.Iotas .tc 32 [1]
  shapeCasts_S40960x128_S320x128x128 : S40960x128.ShapeCasts S320x128x128
  reduces_S320x128x128_S320x128 : S320x128x128.Reduces [1] S320x128
  shapeCasts_S320x128_S40960 : S320x128.ShapeCasts S40960
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S40960_S40960_0 : ∀ a, (![0] : Fin 1 → Nat) a + S40960.size a ≤ S40960.size a
  h_S40960 : 0 < S40960.numel
  shapeCasts_S16384x200_S3276800 : S16384x200.ShapeCasts S3276800
  inb_S2_S1_0 : ∀ a, (![0] : Fin 1 → Nat) a + S1.size a ≤ S2.size a
  squeezes_S1_S_ : S1.Squeezes S_
  inb_S2_S1_1 : ∀ a, (![1] : Fin 1 → Nat) a + S1.size a ≤ S2.size a
  inb_S1000000_S1000000_0 : ∀ a, (![0] : Fin 1 → Nat) a + S1000000.size a ≤ S1000000.size a
  gathers_S1000000_S25600 : S1000000.Gathers 0 S25600
  shapeCasts_S3276800_S16384x200 : S3276800.ShapeCasts S16384x200
  dot_S40960x32_S32x128_S40960x128_1_0_0_1_n_n_wf : DotDims.WF S40960x32 S32x128 S40960x128 [1] [0] [0] [1] [] []
  hcc1_scratch4 : 6 + S2.numel ≤ 12
  hcc1_scratch5 : 8 + S2.numel ≤ 12
  hcc1_scratch6 : 10 + S2.numel ≤ 12
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S40960x32.size a < S1000000x32.size a
  hwx0_0 : ∀ i : grid0.Coords, EltTy.bits .f32 = 32 ∨ (Rect.unit (s := S1000000x32) (fun a => cc0_transform_0 i a * S40960x32.size a) (fun a => (Pipeline.Clip.of (cc0_transform_0 i a) (S40960x32.size a) (S1000000x32.size a)).extent (S40960x32.size a)) fun a => Pipeline.Clip.inb (Pipeline.Clip.ok_of (hstart0_0 i a))).WholeWords (EltTy.packing .f32)
  hwxs0_0 : ∀ i : grid0.Coords, EltTy.bits .f32 = 32 ∨ (Rect.unit (s := S40960x32) (fun _ => 0) (fun a => (Pipeline.Clip.of (cc0_transform_0 i a) (S40960x32.size a) (S1000000x32.size a)).extent (S40960x32.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x32.size a ≤ S1x32.size a
  hwx0_1 : ∀ i : grid0.Coords, EltTy.bits .f32 = 32 ∨ (Rect.block (s := S1x32) S1x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S40960.size a < S1000000.size a
  hwx0_3 : ∀ i : grid0.Coords, EltTy.bits .f32 = 32 ∨ (Rect.unit (s := S1000000) (fun a => cc0_transform_3 i a * S40960.size a) (fun a => (Pipeline.Clip.of (cc0_transform_3 i a) (S40960.size a) (S1000000.size a)).extent (S40960.size a)) fun a => Pipeline.Clip.inb (Pipeline.Clip.ok_of (hstart0_3 i a))).WholeWords (EltTy.packing .f32)
  hwxs0_3 : ∀ i : grid0.Coords, EltTy.bits .f32 = 32 ∨ (Rect.unit (s := S40960) (fun _ => 0) (fun a => (Pipeline.Clip.of (cc0_transform_3 i a) (S40960.size a) (S1000000.size a)).extent (S40960.size a)) fun a => (Nat.zero_add _).trans_le (Pipeline.Clip.extent_le (Pipeline.Clip.ok_of (hstart0_3 i a)))).WholeWords (EltTy.packing .f32)
  hcore1 : grid1.bound 0 ≤ τ.nSC
  hsub1 : grid1.bound 1 ≤ τ.nSub
  k1_off1_inb : ∀ i : grid1.Coords, ∀ (r : Fin 4), ∀ a, (k1_off1 i (BitVec.ofNat 32 (25600 * r.val))) a + S25600.size a ≤ S3276800.size a

variable [Facts₀]

abbrev cc1_scratch4 : DmaSems sig S2 := SemArray.consecutive 6 S2 hcc1_scratch4
abbrev cc1_scratch5 : DmaSems sig S2 := SemArray.consecutive 8 S2 hcc1_scratch5
abbrev cc1_scratch6 : DmaSems sig S2 := SemArray.consecutive 10 S2 hcc1_scratch6
def dot_S40960x32_S32x128_S40960x128_1_0_0_1_n_n : DotDims S40960x32 S32x128 S40960x128 where
  lhsContracting := [1]
  rhsContracting := [0]
  lhsNonContracting := [0]
  rhsNonContracting := [1]
  lhsBatch := []
  rhsBatch := []
  wf := dot_S40960x32_S32x128_S40960x128_1_0_0_1_n_n_wf

abbrev win0_0 : Pipeline.Window sig grid0 :=
  Pipeline.Window.ofSpecClip (Memref.whole main_arg1) S40960x32.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S1x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v2) S40960.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x200 : Shape := ⟨2, ![16384, 200]⟩
abbrev S1000000x32 : Shape := ⟨2, ![1000000, 32]⟩
abbrev S32x1 : Shape := ⟨2, ![32, 1]⟩
abbrev S1 : Shape := ⟨1, ![1]⟩
abbrev S_ : Shape := ⟨0, ![]⟩
abbrev S16384x200x1 : Shape := ⟨3, ![16384, 200, 1]⟩
abbrev S1x1x1 : Shape := ⟨3, ![1, 1, 1]⟩
abbrev S16384x200x32 : Shape := ⟨3, ![16384, 200, 32]⟩

abbrev nBuf : Space → Nat
  | .hbm => 32
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S1000000x32, .f32⟩
  | .hbm, ⟨2, _⟩ => ⟨S32x1, .f32⟩
  | .hbm, ⟨3, _⟩ => ⟨S1, .f32⟩
  | .hbm, ⟨4, _⟩ => ⟨S_, .i32⟩
  | .hbm, ⟨5, _⟩ => ⟨S16384x200, .i32⟩
  | .hbm, ⟨6, _⟩ => ⟨S16384x200, .i1⟩
  | .hbm, ⟨7, _⟩ => ⟨S_, .i32⟩
  | .hbm, ⟨8, _⟩ => ⟨S16384x200, .i32⟩
  | .hbm, ⟨9, _⟩ => ⟨S16384x200, .i32⟩
  | .hbm, ⟨10, _⟩ => ⟨S16384x200, .i32⟩
  | .hbm, ⟨11, _⟩ => ⟨S16384x200x1, .i32⟩
  | .hbm, ⟨12, _⟩ => ⟨S1, .i32⟩
  | .hbm, ⟨13, _⟩ => ⟨S_, .i32⟩
  | .hbm, ⟨14, _⟩ => ⟨S16384x200x1, .i32⟩
  | .hbm, ⟨15, _⟩ => ⟨S16384x200x1, .i1⟩
  | .hbm, ⟨16, _⟩ => ⟨S1x1x1, .i32⟩
  | .hbm, ⟨17, _⟩ => ⟨S16384x200x1, .i32⟩
  | .hbm, ⟨18, _⟩ => ⟨S16384x200x1, .i1⟩
  | .hbm, ⟨19, _⟩ => ⟨S16384x200x1, .i1⟩
  | .hbm, ⟨20, _⟩ => ⟨S_, .i1⟩
  | .hbm, ⟨21, _⟩ => ⟨S16384x200, .i1⟩
  | .hbm, ⟨22, _⟩ => ⟨S16384x200x32, .f32⟩
  | .hbm, ⟨23, _⟩ => ⟨S16384x200x32, .i1⟩
  | .hbm, ⟨24, _⟩ => ⟨S_, .f32⟩
  | .hbm, ⟨25, _⟩ => ⟨S16384x200x32, .f32⟩
  | .hbm, ⟨26, _⟩ => ⟨S16384x200x32, .f32⟩
  | .hbm, ⟨27, _⟩ => ⟨S16384x200x1, .f32⟩
  | .hbm, ⟨28, _⟩ => ⟨S1x1x1, .f32⟩
  | .hbm, ⟨29, _⟩ => ⟨S16384x200x1, .f32⟩
  | .hbm, ⟨30, _⟩ => ⟨S16384x200x1, .f32⟩
  | .hbm, ⟨31, _⟩ => ⟨S16384x200, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩

abbrev nD : Nat := 1
abbrev τ : Topo := Topo.v7x

variable {F : FTy → Type} [FloatOps F]

class Facts₀ : Prop where
  bcast_S_S16384x200 : S_.BroadcastsInDim S16384x200 (![] : Fin 0 → Fin S16384x200.rank)
  bcast_S16384x200_S16384x200x1_0_1 : S16384x200.BroadcastsInDim S16384x200x1 (![0, 1] : Fin 2 → Fin S16384x200x1.rank)
  bcast_S_S16384x200x1 : S_.BroadcastsInDim S16384x200x1 (![] : Fin 0 → Fin S16384x200x1.rank)
  bcast_S1_S1x1x1_2 : S1.BroadcastsInDim S1x1x1 (![2] : Fin 1 → Fin S1x1x1.rank)
  bcast_S1x1x1_S16384x200x1_0_1_2 : S1x1x1.BroadcastsInDim S16384x200x1 (![0, 1, 2] : Fin 3 → Fin S16384x200x1.rank)
  reducesTo_S16384x200x1_S16384x200_d2 : S16384x200x1.ReducesTo [2] S16384x200
  h_S_ : 0 < S_.numel
  bcast_S16384x200_S16384x200x32_0_1 : S16384x200.BroadcastsInDim S16384x200x32 (![0, 1] : Fin 2 → Fin S16384x200x32.rank)
  bcast_S_S16384x200x32 : S_.BroadcastsInDim S16384x200x32 (![] : Fin 0 → Fin S16384x200x32.rank)
  shapeCasts_S16384x200x1_S16384x200 : S16384x200x1.ShapeCasts S16384x200
  gather_S1000000x32_S16384x200x1_S16384x200x32_2_0_n_n_0_2_132_wf : GatherDims.WF S1000000x32 S16384x200x1 S16384x200x32 [2] [0] [] [0] [] 2 ![1, 32]
  dot_S16384x200x32_S32x1_S16384x200x1_2_0_01_1_n_n_wf : DotDims.WF S16384x200x32 S32x1 S16384x200x1 [2] [0] [0, 1] [1] [] []

variable [Facts₀]

def gather_S1000000x32_S16384x200x1_S16384x200x32_2_0_n_n_0_2_132 : GatherDims S1000000x32 S16384x200x1 S16384x200x32 where
  offsetDims := [2]
  collapsedSliceDims := [0]
  operandBatchingDims := []
  startIndicesBatchingDims := []
  startIndexMap := [0]
  indexVectorDim := 2
  sliceSizes := ![1, 32]
  wf := gather_S1000000x32_S16384x200x1_S16384x200x32_2_0_n_n_0_2_132_wf
def dot_S16384x200x32_S32x1_S16384x200x1_2_0_01_1_n_n : DotDims S16384x200x32 S32x1 S16384x200x1 where
  lhsContracting := [2]
  rhsContracting := [0]
  lhsNonContracting := [0, 1]
  rhsNonContracting := [1]
  lhsBatch := []
  rhsBatch := []
  wf := dot_S16384x200x32_S32x1_S16384x200x1_2_0_01_1_n_n_wf

class Facts : Prop extends Facts₀ where

variable [Facts]
-- ==== Proof.KIBase.lean ====
/-
  The idealized kernel as the launch theorem of its second processor sees it: the program's table of
  SparseCore calls, its body table, and the ghost state the proof runs over — the launch handshakes' rounds,
  the rounds of the staging cells of the one pipelined call on the first processor, and the counters of the
  gather kernel's own copies.
-/
import proofs.«206189_g37357625540624_cont_8to1_b_987_36_alg».proof.Defs
import Idealize.ShloMosaic.Lib.SparseCore.Launch
import Idealize.ShloMosaic.Lib.StableHlo.Run
import Idealize.ShloMosaic.Lib.Pipeline.Kit
import Idealize.ShloMosaic.Lib.Tactic
import proofs.«206189_g37357625540624_cont_8to1_b_987_36_alg».proof.Proof.Gen.KernelIdeal
import proofs.«206189_g37357625540624_cont_8to1_b_987_36_alg».proof.Proof.Gen.KernelIdeal.Skeleton
import proofs.«206189_g37357625540624_cont_8to1_b_987_36_alg».proof.Proof.Gen.KernelIdeal.Launch
import proofs.«206189_g37357625540624_cont_8to1_b_987_36_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the copies' counters -/

abbrev UH : Type := URounds (GSem nD τ sig) ℕ
abbrev UR : Type := URounds (GSem nD τ sig) Unit
abbrev UU : Type := UH × (UR × Counters)

/-- The handshakes' rounds: the left factor. -/
abbrev EH : Emb UH (MT nD τ sig (HIx 1) (Elt F) ℕ UU ℕ) := embL

/-- The staging cells' rounds: the left factor of the right factor; the counters beside them are found by instance. -/
def ER : Emb UR (MT nD τ sig (HIx 1) (Elt F) ℕ UU ℕ) :=
  (Emb.inl : Emb UR (UR × Counters)).trans (embR : Emb (UR × Counters) (MT nD τ sig (HIx 1) (Elt F) ℕ UU ℕ))

instance ER_landsIn : (ER : Emb UR (MT nD τ sig (HIx 1) (Elt F) ℕ UU ℕ)).LandsIn (upEmb : UEmb _ (MT nD τ sig (HIx 1) (Elt F) ℕ UU ℕ)) := by
  unfold ER; infer_instance

end Cert.Proof.KI

end
-- ==== Proof.KIRegionData.lean ====
/-
  The projection call on the first processor, as data for the pipeline rule: what each of its four windows'
  staging buffers holds before and after the body at each of the 25 grid points. Window 0 is a 40960-row block
  of the table (the last block reaches past the table's end: only its first 16960 rows are the table's), windows
  1 and 2 the weight row and the bias (the same block at every point), window 3 the 40960 projected rows the body
  writes, of which the write-back moves the rows inside the array.
-/
import proofs.«206189_g37357625540624_cont_8to1_b_987_36_alg».proof.Proof.KIBase
import Idealize.ShloMosaic.Lib.Pipeline.FrameBody
import Idealize.ShloMosaic.Lib.ValueIdx

set_option maxRecDepth 16384

noncomputable section

namespace Cert.Proof.KI

open Cert.KernelIdeal Cert.KernelIdeal.Gen

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-- Row `r` of the body's result reads row `r` of the table block and nothing else of it. -/
def RowLocal (F : FTy → Type) [FloatOps F] : Prop :=
  ∀ (a a' : Vec F S40960x32 .f32) (v1 : Vec F S1x32 .f32) (v17 : Vec F S1x1 .f32) (r : Fin 40960),
    (∀ k : Fin 32, a (ix2 r k) = a' (ix2 r k)) → k0_pay1 a v1 v17 (ix1 r) = k0_pay1 a' v1 v17 (ix1 r)

-- The first processor's arrays as the call finds them.
variable (Vr : (d : Dev nD) → (b : Ref sig .tc) → Buf (Elt F) ((d : Thread nD τ).loc b))

/-- The table's block at point `t`: its rows inside the table. -/
def b0 (d : Dev nD) (t : Fin cfg0.N) : (win0_0.xblock (grid0.coords t)).Idx → Elt F .f32 :=
  (win0_0.blk t).view.read (Elt F) (Vr d main_arg1)
/-- The weight row and the bias, the same at every point. -/
def b1 (d : Dev nD) (t : Fin cfg0.N) : (win0_1.xblock (grid0.coords t)).Idx → Elt F .f32 :=
  (win0_1.blk t).view.read (Elt F) (Vr d main_v0)
def b2 (d : Dev nD) (t : Fin cfg0.N) : (win0_2.xblock (grid0.coords t)).Idx → Elt F .f32 :=
  (win0_2.blk t).view.read (Elt F) (Vr d main_v1)

/-- The staging buffers after the body at point `t`, past the table's end filled with the zero word. -/
def x0 (d : Dev nD) (t : Fin cfg0.N) : S40960x32.Idx → Elt F .f32 :=
  win0_0.fill (grid0.coords t) (fun _ => Scalar.ofBits .f32 0#32) (b0 Vr d t)
def x1 (d : Dev nD) (t : Fin cfg0.N) : S1x32.Idx → Elt F .f32 :=
  win0_1.fill (grid0.coords t) (fun _ => Scalar.ofBits .f32 0#32) (b1 Vr d t)
def x2 (d : Dev nD) (t : Fin cfg0.N) : S1x1.Idx → Elt F .f32 :=
  win0_2.fill (grid0.coords t) (fun _ => Scalar.ofBits .f32 0#32) (b2 Vr d t)
/-- The projected rows of the block. -/
def y3 (d : Dev nD) (t : Fin cfg0.N) : S40960.Idx → Elt F .f32 :=
  k0_pay1 (x0 Vr d t) (x1 Vr d t) (x2 Vr d t)

/-- The pipeline's proof data on device `d`: the arrays as found; the inputs' buffers at their blocks and the
    result's at the projected rows; nothing of the body's own; what the first processor owes the launch of the
    second, unchanged through the call, its recorded waits all at the kernels' own index. -/
def dats (_ : Fin 1) (d : Dev nD) : Dat τ (Elt F) (HIx 1) ℕ UU ℕ cfg0 d where
  A w := Vr d (Pipeline.arrRef spec0 w)
  after w t := match w with
    | ⟨0, _⟩ => x0 Vr d t
    | ⟨1, _⟩ => x1 Vr d t
    | ⟨2, _⟩ => x2 Vr d t
    | ⟨3, _⟩ => y3 Vr d t
  Φ _ := iprop(emp)
  q _ := fullShare
  owed _ := (K (F := F)).Otc d 0
  recorded _ := {p | p.2 = (none : HIx 1)}

theorem A_eq (d : Dev nD) (w : Fin cfg0.W) : (dats Vr 0 d).A w = Vr d (Pipeline.arrRef spec0 w) := by
  dsimp only [dats]

theorem after_0 (d : Dev nD) (t : Fin cfg0.N) : (dats Vr 0 d).after 0 t = x0 Vr d t := by dsimp only [dats]
theorem after_1 (d : Dev nD) (t : Fin cfg0.N) : (dats Vr 0 d).after 1 t = x1 Vr d t := by dsimp only [dats]
theorem after_2 (d : Dev nD) (t : Fin cfg0.N) : (dats Vr 0 d).after 2 t = x2 Vr d t := by dsimp only [dats]
theorem after_3 (d : Dev nD) (t : Fin cfg0.N) : (dats Vr 0 d).after 3 t = y3 Vr d t := by dsimp only [dats]

/-- The table's window is fetched at every point: its buffer holds the block on the rows inside the table and
    `e`, anything, past them. -/
theorem before_0 (d : Dev nD) (t : Fin cfg0.N) (e) :
    (dats Vr 0 d).before (0 : Fin 4) t e = win0_0.fill (grid0.coords t) e (b0 Vr d t) := by
  unfold Dat.before; rw [if_pos (fetch0_0 t)]; rfl

end Cert.Proof.KI

end
-- ==== Proof.KIRegionBody.lean ====
/-
  The projection call's body on four whole staging buffers: it reads the table block, the weight row and the
  bias, and overwrites the result buffer with the block's projected rows; the three inputs are left as found.
  Then what each window's buffer holds when the body is handed it at a grid point.
-/
import proofs.«206189_g37357625540624_cont_8to1_b_987_36_alg».proof.Proof.KIRegionData
import Idealize.ShloMosaic.Lib.Pipeline.Value
import Idealize.ShloMosaic.Lib.Ring

set_option maxRecDepth 16384

noncomputable section

namespace Cert.Proof.KI

open Cert.KernelIdeal Cert.KernelIdeal.Gen

open Idealize.ShloMosaic Idealize.ShloMosaic.TcCoe Idealize.ShloMosaic.ValueIdx Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [∀ e, Nonempty (Elt F e)]

local notation "𝕄" => MT nD τ sig (HIx 1) (Elt F) ℕ UU ℕ

/-! ## The body's accesses: each buffer whole -/

abbrev r0 : Rect S40960x32 := Rect.unit (s := S40960x32) ![0, 0] S40960x32.size inb_S40960x32_S40960x32_0_0
abbrev r1 : Rect S1x32 := Rect.unit (s := S1x32) ![0, 0] S1x32.size inb_S1x32_S1x32_0_0
abbrev r2 : Rect S1x1 := Rect.unit (s := S1x1) ![0, 0] S1x1.size inb_S1x1_S1x1_0_0
abbrev r3 : Rect S40960 := Rect.unit (s := S40960) ![0] S40960.size inb_S40960_S40960_0

/-- What the result's buffer holds after the body: its one store, of the projected rows of what the three loads read. -/
def out3 (x0 : Vec F S40960x32 .f32) (x1 : Vec F S1x32 .f32) (x2 : Vec F S1x1 .f32) : Vec F S40960 .f32 :=
  View.canon [⟨r3, k0_pay1 (View.ld x0 r0) (View.ld x1 r1) (View.ld x2 r2)⟩]

/-- The one store covers the buffer. -/
theorem cover3 (p0 : Vec F S40960 .f32) (y : S40960.Idx) :
    ∃ pc ∈ ([⟨r3, p0⟩] : List (View.Piece (Elt F) S40960 .f32)), y ∈ pc.1.set :=
  View.cover_of_tiled [⟨r3, p0⟩] S40960.size (by rfl) y

/-- Every access is of a whole buffer from offset zero, so the loads read the contents and the store leaves its payload. -/
theorem out3_eq (x0 : Vec F S40960x32 .f32) (x1 : Vec F S1x32 .f32) (x2 : Vec F S1x1 .f32) :
    out3 x0 x1 x2 = k0_pay1 x0 x1 x2 := by
  have hz1 : (![0] : Fin 1 → Nat) = fun _ => 0 := funext fun a => by fin_cases a; rfl
  have hz2 : (![0, 0] : Fin 2 → Nat) = fun _ => 0 := funext fun a => by fin_cases a <;> rfl
  unfold out3
  rw [View.canon_unit_zero hz1]
  rw [View.ld_unit_zero (S := S40960x32) hz2, View.ld_unit_zero (S := S1x32) hz2, View.ld_unit_zero (S := S1x1) hz2]

set_option maxHeartbeats 1000000 in
/-- The body on whole staging memrefs, the inputs' at contents `x0`, `x1`, `x2` and the result's at anything, runs
    to the continuation holding the inputs' as they were and the result's at `out3` of them. -/
theorem sound_kernel (c : Dev nD) (E : Set ℕ) (i : grid0.Coords)
    (arg1 : Memref sig .tc .vmem S40960x32 .f32) (harg1 : arg1.IsWhole) (arg2 : Memref sig .tc .vmem S1x32 .f32) (harg2 : arg2.IsWhole)
    (arg3 : Memref sig .tc .vmem S1x1 .f32) (harg3 : arg3.IsWhole) (arg4 : Memref sig .tc .vmem S40960 .f32) (harg4 : arg4.IsWhole)
    (x0 : Vec F S40960x32 .f32) (x1 : Vec F S1x32 .f32) (x2 : Vec F S1x1 .f32) (Kk : PUnit → sProp 𝕄) :
    iprop(owns (c : Thread nD τ) arg1 fullShare x0 ∗ owns (c : Thread nD τ) arg2 fullShare x1 ∗ owns (c : Thread nD τ) arg3 fullShare x2
        ∗ (∃ e, owns (c : Thread nD τ) arg4 fullShare e)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ Kk ⟨⟩))
      ⊢ wp frame (wpE (defs₀ (F := F)) Variants.none c none) E (cc0__proj_body i arg1 harg1 arg2 harg2 arg3 harg3 arg4 harg4) Kk := by
  simp only [cc0__proj_body_eq_skeleton]; unfold cc0__proj_body_skel
  unfold owns
  iintro ⟨⟨%f0, %hf0, H0⟩, ⟨%f1, %hf1, H1⟩, ⟨%f2, %hf2, H2⟩, ⟨%e3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## What the body finds in each window's buffer -/

variable (Vr : (d : Dev nD) → (b : Ref sig .tc) → Buf (Elt F) ((d : Thread nD τ).loc b))

/-- The result's window is never fetched. -/
theorem fetch0_3 : ∀ t : Fin cfg0.N, (cfg0.win 3).fetch t = false :=
  (by decide +kernel : ∀ t : Fin grid0.N, win0_3.fetch t = false)

/-- The body leaves the weight row's block in place, -/
theorem keep_1 (d : Dev nD) (t : Fin cfg0.N) :
    (cfg0.win 1).cut (cfg0.grid.coords t) ((dats Vr 0 d).after 1 t) = (dats Vr 0 d).blockOf 1 t := by
  rw [after_1]
  show win0_1.cut (grid0.coords t) (win0_1.fill (grid0.coords t) _ (b1 Vr d t)) = _
  rw [Window.cut_fill]
  unfold Dat.blockOf b1; rw [A_eq]
/-- and the bias's. -/
theorem keep_2 (d : Dev nD) (t : Fin cfg0.N) :
    (cfg0.win 2).cut (cfg0.grid.coords t) ((dats Vr 0 d).after 2 t) = (dats Vr 0 d).blockOf 2 t := by
  rw [after_2]
  show win0_2.cut (grid0.coords t) (win0_2.fill (grid0.coords t) _ (b2 Vr d t)) = _
  rw [Window.cut_fill]
  unfold Dat.blockOf b2; rw [A_eq]

/-- So the weight row's buffer holds the row at every point, fetched there or not (its block never moves), -/
theorem before_1 (d : Dev nD) (t : Fin cfg0.N) (e) : (dats Vr 0 d).before (1 : Fin 4) t e = x1 Vr d t :=
  ((dats Vr 0 d).before_in_eq_fetched 1 rfl (fun _ => rfl) (fun _ _ _ => rfl) (keep_1 Vr d) t e).trans
    (by unfold Dat.fetched Dat.blockOf x1 b1; rw [A_eq]; rfl)
/-- and the bias's the bias. -/
theorem before_2 (d : Dev nD) (t : Fin cfg0.N) (e) : (dats Vr 0 d).before (2 : Fin 4) t e = x2 Vr d t :=
  ((dats Vr 0 d).before_in_eq_fetched 2 rfl (fun _ => rfl) (fun _ _ _ => rfl) (keep_2 Vr d) t e).trans
    (by unfold Dat.fetched Dat.blockOf x2 b2; rw [A_eq]; rfl)

/-- The result's buffer is handed over at contents nothing names: it is never fetched and written back at every point. -/
theorem before_3 (d : Dev nD) (t : Fin cfg0.N) (e) : (dats Vr 0 d).before (3 : Fin 4) t e = e := by
  unfold Dat.before
  rw [if_neg (by rw [fetch0_3 t]; exact Bool.false_ne_true)]
  split
  · rfl
  · rw [if_pos (flush0_3 _)]

end Cert.Proof.KI

end
-- ==== Proof.KIRegionObl.lean ====
/-
  The projection call's body obligation at every grid point. The table's and the result's windows are stated on
  the rows inside their arrays only: the last block reaches past the table's end, its staging buffer holds there
  words nothing names, and the result rows inside the array do not depend on them because row `r` of the result
  reads the table block through row `r` alone.
-/
import proofs.«206189_g37357625540624_cont_8to1_b_987_36_alg».proof.Proof.KIRegionBody

set_option maxRecDepth 16384

noncomputable section

namespace Cert.Proof.KI

open Cert.KernelIdeal Cert.KernelIdeal.Gen

open Idealize.ShloMosaic Idealize.ShloMosaic.TcCoe Idealize.ShloMosaic.ValueIdx Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [∀ e, Nonempty (Elt F e)]

local notation "𝕄" => MT nD τ sig (HIx 1) (Elt F) ℕ UU ℕ

variable (Vr : (d : Dev nD) → (b : Ref sig .tc) → Buf (Elt F) ((d : Thread nD τ).loc b))

/-- A row the result's write-back moves is a row the table's fetch fills, in every column. -/
theorem moved_0_of_3 (t : Fin cfg0.N) (r : Fin 40960) (k : Fin 32)
    (hm : win0_3.moved (grid0.coords t) (ix1 r) = true) : win0_0.moved (grid0.coords t) (ix2 r k) = true := by
  have h3 := (win0_3.moved_iff (grid0.coords t) (ix1 r)).mp hm 0
  refine (win0_0.moved_iff (grid0.coords t) (ix2 r k)).mpr fun a => ?_
  match a with
  | ⟨0, _⟩ => exact h3
  | ⟨1, _⟩ => exact k.isLt

/-- The projected rows the body computes from a table buffer filled past the table's end with `e0` are, on the
    rows the write-back moves, those computed from the buffer filled with the zero word. -/
theorem y3_loose (hloc : RowLocal F) (d : Dev nD) (t : Fin cfg0.N) (e0 : S40960x32.Idx → Elt F .f32) :
    k0_pay1 (win0_0.fill (grid0.coords t) e0 (b0 Vr d t)) (x1 Vr d t) (x2 Vr d t)
      = win0_3.fill (grid0.coords t) (k0_pay1 (win0_0.fill (grid0.coords t) e0 (b0 Vr d t)) (x1 Vr d t) (x2 Vr d t))
          (win0_3.cut (grid0.coords t) (y3 Vr d t)) := by
  funext j
  obtain ⟨r, rfl⟩ : ∃ r : Fin 40960, j = ix1 r := ⟨j 0, eq_ix1 j⟩
  by_cases hm : win0_3.moved (grid0.coords t) (ix1 r) = true
  · have hx : win0_3.fill (grid0.coords t) (k0_pay1 (win0_0.fill (grid0.coords t) e0 (b0 Vr d t)) (x1 Vr d t) (x2 Vr d t))
        (win0_3.cut (grid0.coords t) (y3 Vr d t)) (ix1 r) = y3 Vr d t (ix1 r) := by
      unfold Window.fill; rw [dif_pos hm]
      show y3 Vr d t _ = y3 Vr d t (ix1 r)
      exact congrArg (y3 Vr d t) (funext fun a => by match a with | ⟨0, _⟩ => rfl)
    rw [hx]; unfold y3
    refine hloc _ _ _ _ r fun k => ?_
    have hm0 := moved_0_of_3 t r k hm
    unfold x0 Window.fill; rw [dif_pos hm0, dif_pos hm0]
  · exact (win0_3.fill_of_not_moved (grid0.coords t) _ _ hm).symm

/-- What the body is called with at point `t`, -/
def bodyPre (d : Dev nD) (t : Fin cfg0.N) : sProp 𝕄 :=
  iprop((dats Vr 0 d).Φ t.castSucc ∗ (dats Vr 0 d).owesAt (none : HIx 1) t.castSucc
    ∗ (∃ e, owns (d : Thread nD τ) (st0_0 t) fullShare ((dats Vr 0 d).before 0 t e))
    ∗ (∃ e, owns (d : Thread nD τ) (st0_1 t) fullShare ((dats Vr 0 d).before 1 t e))
    ∗ (∃ e, owns (d : Thread nD τ) (st0_2 t) fullShare ((dats Vr 0 d).before 2 t e))
    ∗ (∃ e, owns (d : Thread nD τ) (st0_3 t) fullShare ((dats Vr 0 d).before 3 t e)))

/-- and what it returns: the table's and the result's buffers stated on the rows their transfers move. -/
def bodyPost (d : Dev nD) (t : Fin cfg0.N) : sProp 𝕄 :=
  iprop((dats Vr 0 d).Φ t.succ ∗ (dats Vr 0 d).owesAt (none : HIx 1) t.succ
    ∗ (∃ e, owns (d : Thread nD τ) (st0_0 t) fullShare (win0_0.fill (grid0.coords t) e (win0_0.cut (grid0.coords t) ((dats Vr 0 d).after 0 t))))
    ∗ owns (d : Thread nD τ) (st0_1 t) fullShare ((dats Vr 0 d).after 1 t)
    ∗ owns (d : Thread nD τ) (st0_2 t) fullShare ((dats Vr 0 d).after 2 t)
    ∗ (∃ e, owns (d : Thread nD τ) (st0_3 t) fullShare (win0_3.fill (grid0.coords t) e (win0_3.cut (grid0.coords t) ((dats Vr 0 d).after 3 t)))))

/-- The body at any point. -/
theorem sound_body (hloc : RowLocal F) (d : Dev nD) (t : Fin cfg0.N) :
    bodyPre Vr d t ⊢ wp frame (wpE (defs₀ (F := F)) Variants.none d none) Set.univ (bodyAt0 t) (fun _ => bodyPost Vr d t) := by
  unfold bodyPre bodyPost bodyAt0
  rw [show (dats Vr 0 d).Φ t.succ = (dats Vr 0 d).Φ t.castSucc from rfl,
    show (dats Vr 0 d).owesAt (none : HIx 1) t.succ = (dats Vr 0 d).owesAt (none : HIx 1) t.castSucc from rfl,
    after_0, after_1, after_2, after_3]
  iintro ⟨HΦ, Ho, ⟨%e0, H0⟩, ⟨%e1, H1⟩, ⟨%e2, H2⟩, ⟨%e3, H3⟩⟩
  rw [before_0 Vr d t e0, before_1 Vr d t e1, before_2 Vr d t e2, before_3 Vr d t e3]
  iapply (sound_kernel d Set.univ (grid0.coords t) _ _ _ _ _ _ _ _ (win0_0.fill (grid0.coords t) e0 (b0 Vr d t)) (x1 Vr d t) (x2 Vr d t) _)
  isplitl [H0]; · iexact H0
  isplitl [H1]; · iexact H1
  isplitl [H2]; · iexact H2
  isplitl [H3]; · iexists e3; iexact H3
  iintro ⟨H0, H1, H2, H3⟩
  isplitl [HΦ]; · iexact HΦ
  isplitl [Ho]; · iexact Ho
  isplitl [H0]
  · iexists e0
    rw [show win0_0.cut (grid0.coords t) (x0 Vr d t) = b0 Vr d t from win0_0.cut_fill _ _ _]
    iexact H0
  isplitl [H1]; · iexact H1
  isplitl [H2]; · iexact H2
  iexists (k0_pay1 (win0_0.fill (grid0.coords t) e0 (b0 Vr d t)) (x1 Vr d t) (x2 Vr d t))
  rw [← y3_loose Vr hloc d t e0, ← out3_eq]
  iexact H3

/-- The pipeline rule's body obligation, at every point. -/
theorem body_obligation (hloc : RowLocal F) (d : Dev nD) :
    BodyObligationLoose (dats Vr 0 d) (defs₀ (F := F)) 𝒱₀ (none : HIx 1) Set.univ := fun t => by
  rw [bigSep_W0, bigSep_W0]
  exact sound_body Vr hloc d t

end Cert.Proof.KI

end
-- ==== Proof.KIRegionSeg.lean ====
/-
  The projection call as one step of the first processor's program: entered holding its four arrays and what the
  processor owes the launch of the second, it ends holding the arrays at what the 25 write-backs leave and the
  same debt. The call's own waits sit below everything owed, which is all at a later call's index.
-/
import proofs.«206189_g37357625540624_cont_8to1_b_987_36_alg».proof.Proof.KIRegionObl
import Idealize.ShloMosaic.Lib.Pipeline.Regions

set_option maxRecDepth 16384

noncomputable section

namespace Cert.Proof.KI

open Cert.KernelIdeal Cert.KernelIdeal.Gen

open Idealize.ShloMosaic Idealize.ShloMosaic.TcCoe Idealize.ShloMosaic.ValueIdx Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [∀ e, Nonempty (Elt F e)]

local notation "𝕄" => MT nD τ sig (HIx 1) (Elt F) ℕ UU ℕ

variable (Vr : (d : Dev nD) → (b : Ref sig .tc) → Buf (Elt F) ((d : Thread nD τ).loc b))

/-- The prefetched tables' admissible contents: the call has no table. -/
abbrev adm : (p : Fin 1) → (pcfgs (F := F) p).Adm := fun p => (cfgs p).toPCfg_adm

/-- The one pipeline's proof data. -/
def pdats : (p : Fin 1) → (d : Dev nD) → Dat τ (Elt F) (HIx 1) ℕ UU ℕ (Pipeline.pin (pcfgs (F := F)) adm p) d :=
  fun _ d => dats Vr 0 d

/-- Everything the first processor owes is owed at a later call's index. -/
theorem Otc_none (d : Dev nD) (n : ℕ) (g : GSem nD τ sig) : (K (F := F)).Otc d n g none = 0 := by
  by_contra h
  have := (K (F := F)).lev_of_Otc_pos (Nat.pos_of_ne_zero h); rw [SparseCore.Cfg.lev_none] at this; omega

/-- What the first processor owes through the call, its recorded waits all at the kernels' own index. -/
abbrev owesTc (d : Dev nD) : sProp 𝕄 :=
  iprop(∃ W, ⌜(K (F := F)).WBelow (T d) W 0⌝ ∗ owes (T d) ((K (F := F)).Otc d 0) W)

theorem owesAt_intro (d : Dev nD) (t : Fin (cfg0.N + 1)) : owesTc (F := F) d ⊢ ((dats Vr 0 d).owesAt (none : HIx 1) t : sProp 𝕄) := by
  unfold Pipeline.Dat.owesAt Pipeline.owesWithin Pipeline.Dat.bound
  iintro ⟨%W, %hW, HO⟩; iexists W; isplitr
  · ipureintro; intro p hp; left
    show p.2 = none
    cases h : p.2 with
    | none => rfl
    | some q =>
      have := hW p hp; rw [h] at this
      exact absurd this (Nat.not_le.mpr ((K (F := F)).lev_some_pos _ q))
  · iexact HO

theorem owesAt_elim (d : Dev nD) (t : Fin (cfg0.N + 1)) : ((dats Vr 0 d).owesAt (none : HIx 1) t : sProp 𝕄) ⊢ owesTc (F := F) d := by
  unfold Pipeline.Dat.owesAt Pipeline.owesWithin Pipeline.Dat.bound
  iintro ⟨%W, %hW, HO⟩; iexists W; isplitr
  · ipureintro; intro p hp
    rcases hW hp with h | ⟨w, s, rfl⟩
    · have h' : p.2 = none := h
      show (K (F := F)).lev _ p.2 ≤ 0; rw [h']; exact le_of_eq ((K (F := F)).lev_none _)
    · exact le_of_eq ((K (F := F)).lev_none _)
  · iexact HO

/-- The call's waits on its staging cells are admissible under that debt. -/
theorem hwaits (d : Dev nD) :
    (levAts (K (F := F)).L (K (F := F)).lev : sProp 𝕄) ⊢ Pipeline.cellsWaits (Pipeline.pin (pcfgs (F := F)) adm) (pdats Vr) (none : HIx 1) 0 d :=
  Pipeline.cellsWaits_intro _ _ _ 0 d fun w s t => (K (F := F)).mayWait_none _ (fun g => Otc_none d 0 g)

/-- The call has no prefetched table to hold. -/
theorem prefHeld_none (d : Dev nD) :
    (Pipeline.prefHeld (Ix := HIx 1) (Name := ℕ) (U := UU) (Lvl := ℕ) (Val := Elt F) (pcfgs (F := F) 0).pre d (fun _ => fullShare) (adm (F := F) 0).1 : sProp 𝕄) = BI.emp := by
  unfold Pipeline.prefHeld; exact bigSep_empty

/-- The call as a segment. -/
def regSeg (hloc : RowLocal F) :
    Pipeline.RegionSeg (pcfgs (F := F)) adm (pdats Vr) (none : HIx 1) defs₀ 𝒱₀ (K (F := F)).L (K (F := F)).lev (0 : Fin 1) where
  win := launch0.win.to₀
  block_pos := block_pos0
  stage_whole := stage_whole0
  K := PEmpty
  osem k := k.elim
  ho := Pipeline.OwnSemFacts.none _
  hbody d := body_obligation Vr hloc d
  hwaits d := hwaits Vr d
  pre d := iprop((dats Vr 0 d).arrays ((dats Vr 0 d).arrAt · 0) ∗ owesTc (F := F) d)
  post d := iprop((dats Vr 0 d).arrays ((dats Vr 0 d).arrAt · cfg0.N) ∗ owesTc (F := F) d)
  X _ := iprop(emp)
  Y _ := iprop(emp)
  Z _ := iprop(emp)
  hentry d := by
    rw [Pipeline.ownSems0_none, prefHeld_none]
    iintro ⟨⟨Ha, HO⟩, -, -⟩
    imodintro
    isplitl [Ha]; · iexact Ha
    isplitr; · iempintro
    isplitl [HO]; · iapply (owesAt_intro Vr d 0); iexact HO
    isplitr <;> iempintro
  hin d := by
    iintro -; iempintro
  hout d := by
    rw [Pipeline.ownSems0_none, scopedRest0_eq]
    iintro -
    isplitr; · iempintro
    isplitr <;> iempintro
  hexit d := by
    iintro ⟨Ha, HO, -, -⟩
    imodintro
    isplitl [Ha]; · iexact Ha
    iapply (owesAt_elim Vr d (Fin.last _)); iexact HO

end Cert.Proof.KI

end
-- ==== Proof.KIRegionStep.lean ====
/-
  The projection call met inside the program of both processors: the first processor's program reaches it as one
  instruction of the larger body table; a proof about it under the first processor's own table is a proof under
  the larger one, and under its own table the call is the pipeline rule's step from its segment.
-/
import proofs.«206189_g37357625540624_cont_8to1_b_987_36_alg».proof.Proof.KIRegionSeg

set_option maxRecDepth 16384

noncomputable section

namespace Cert.Proof.KI

open Cert.KernelIdeal Cert.KernelIdeal.Gen

open Idealize.ShloMosaic Idealize.ShloMosaic.TcCoe Idealize.ShloMosaic.ValueIdx Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [∀ e, Nonempty (Elt F e)]

local notation "𝕄" => MT nD τ sig (HIx 1) (Elt F) ℕ UU ℕ

variable (Vr : (d : Dev nD) → (b : Ref sig .tc) → Buf (Elt F) ((d : Thread nD τ).loc b))

/-- The staging cells of the one pipeline are pairwise distinct. -/
theorem phinj : Function.Injective (Pipeline.cellOf (nD := nD) (τ := τ) (Pipeline.pin (pcfgs (F := F)) adm)) := cellOf_inj

-- the rule's implicit arguments are found by unifying its conclusion with the goal, which takes unfolding plain
-- definitions in a metavariable's type
set_option backward.isDefEq.respectTransparency.types false in
/-- The call under the first processor's own body table: the pipeline rule's step from the segment. -/
theorem region_step_own (hloc : RowLocal F) (d : Dev nD) (Φ : PUnit → sProp 𝕄) :
    iprop(boundary (T d) ∗ (regSeg Vr hloc).pre d ∗ levAts (K (F := F)).L (K (F := F)).lev
        ∗ Pipeline.cellsGhost (Pipeline.pin (pcfgs (F := F)) adm) ER 0 d ∗ Pipeline.toksInit (Pipeline.pin (pcfgs (F := F)) adm) ER 0 d
        ∗ (iprop(boundary (T d) ∗ (regSeg Vr hloc).post d) -∗ Φ ⟨⟩))
      ⊢ wp frame (wpE (D (F := F)) 𝒱 (T d) none) Set.univ (Prog.lift (.customCall (Pipeline.entry (0 : Fin 1)) ())) Φ := by
  iintro ⟨Hb, Hpre, #Hlv, Hg, Ht, Hk⟩
  iapply (Pipeline.RegionSeg.wp (pcfgs (F := F)) adm (pdats Vr) (none : HIx 1) phinj ER defs₀ 𝒱₀ (K (F := F)).L (K (F := F)).lev
    (regSeg Vr hloc) d none (fun u hu => nomatch hu) (fun r => .ret r) Φ) $$ [Hb Hpre Hg Ht Hk]
  isplitl [Hk]
  · iintro H
    rw [wp_ret]; imodintro
    iapply Hk; iexact H
  isplitl [Hb]; · iexact Hb
  isplitl [Hpre]; · iexact Hpre
  isplitr; · iexact Hlv
  isplitl [Hg]; · iexact Hg
  iexact Ht

/-- The call as the program of both processors meets it: from the boundary, the segment's entry state, the level
    facts and the pipeline's ghost state, it runs to the boundary and the segment's exit state. -/
theorem region_step (hloc : RowLocal F) (d : Dev nD) (Φ : PUnit → sProp 𝕄) :
    iprop(boundary (T d) ∗ (regSeg Vr hloc).pre d ∗ levAts (K (F := F)).L (K (F := F)).lev
        ∗ Pipeline.cellsGhost (Pipeline.pin (pcfgs (F := F)) adm) ER 0 d ∗ Pipeline.toksInit (Pipeline.pin (pcfgs (F := F)) adm) ER 0 d
        ∗ (iprop(boundary (T d) ∗ (regSeg Vr hloc).post d) -∗ Φ ⟨⟩))
      ⊢ wp frame (wpE ((K (F := F)).defs (D (F := F))) 𝒱 (T d) none) Set.univ
          (Prog.lift (.customCall (SparseCore.inner (Pipeline.entry (0 : Fin 1))) ())) Φ :=
  (region_step_own Vr hloc d Φ).trans ((K (F := F)).wp_liftProg (D (F := F)) 𝒱 (T d) Set.univ none
    (Prog.lift (.customCall (Pipeline.entry (0 : Fin 1)) ())) Φ)

end Cert.Proof.KI

end
-- ==== Proof.Spec.lean ====
/-
  The function both programs compute, stated once over the argument arrays and over no program.
  A table of a million rows of 32 numbers is projected onto a weight vector: row `n` becomes the single
  number `Σ_k table[n,k]·W[k,0] + b[0]`. Entry `(i, j)` of the result is the projected row that the index
  word `q[i,j]` names. An index word is read as a natural number and kept inside the table; for the words the
  precondition admits (at most 999999) that is the word's own value.
-/
import Idealize.ShloMosaic.PureOps.Ideal
import Idealize.ShloMosaic.Lib.ValueIdx

noncomputable section

namespace Cert.Proof.Spec

open Idealize.ShloMosaic Idealize.ShloMosaic.ValueIdx

abbrev SQ : Shape := ⟨2, ![16384, 200]⟩
abbrev ST : Shape := ⟨2, ![1000000, 32]⟩
abbrev SW : Shape := ⟨2, ![32, 1]⟩
abbrev SB : Shape := ⟨1, ![1]⟩
abbrev SN : Shape := ⟨1, ![1000000]⟩

/-- Row `n` of the table projected onto the weights: `Σ_k table[n,k]·W[k,0] + b[0]`. -/
def proj (table : ST.Idx → EReal) (W : SW.Idx → EReal) (b : SB.Idx → EReal) (n : Fin 1000000) : EReal :=
  (∑ k : Fin 32, table (ix2 n k) * W (ix2 k (0 : Fin 1))) + b (ix1 (0 : Fin 1))

/-- The row an index word names: its value as a natural number, kept inside the table. -/
def row (w : BitVec 32) : Fin 1000000 := ⟨min w.toNat 999999, by omega⟩

theorem row_val {w : BitVec 32} (h : w.toNat < 1000000) : (row w).val = w.toNat := by
  show min w.toNat 999999 = w.toNat
  omega

/-- The projected table as an array of a million numbers. -/
def projArr (table : ST.Idx → EReal) (W : SW.Idx → EReal) (b : SB.Idx → EReal) : SN.Idx → EReal :=
  fun n => proj table W b (n 0)

/-- The result: entry `(i, j)` is the projected row named by `q[i,j]`. -/
def G (q : SQ.Idx → BitVec 32) (table : ST.Idx → EReal) (W : SW.Idx → EReal) (b : SB.Idx → EReal) : SQ.Idx → EReal :=
  fun ij => proj table W b (row (q ij))

end Cert.Proof.Spec

end
-- ==== Proof.KIPay.lean ====
import proofs.«206189_g37357625540624_cont_8to1_b_987_36_alg».proof.Proof.KIBase
import proofs.«206189_g37357625540624_cont_8to1_b_987_36_alg».proof.Proof.Spec
import Idealize.ShloMosaic.Lib.SparseCore.Stream

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tile, its arrays, its scratch and its semaphores, spelt as the body slices them -/

abbrev cV (i : grid1.Coords) : Fin τ.nSC := (i 0).castLE hcore1
abbrev sV (i : grid1.Coords) : Fin τ.nSub := (i 1).castLE hsub1

abbrev twM : Memref sig .scVector .hbm S1000000 .f32 := Memref.whole main_v2_scv
abbrev qfM : Memref sig .scVector .hbm S3276800 .i32 := Memref.whole main_v3_scv
abbrev outM : Memref sig .scVector .hbm S3276800 .f32 := Memref.whole main_v4_scv
abbrev ix0 : Memref sig .scVector .vmem S25600 .i32 := Memref.whole cc1_scratch0
abbrev ix1 : Memref sig .scVector .vmem S25600 .i32 := Memref.whole cc1_scratch1
abbrev vl0 : Memref sig .scVector .vmem S25600 .f32 := Memref.whole cc1_scratch2
abbrev vl1 : Memref sig .scVector .vmem S25600 .f32 := Memref.whole cc1_scratch3

/-- The whole table as the gather's source slices it. -/
abbrev twAll : Memref sig .scVector .hbm S1000000 .f32 := twM.slice (Rect.unit (s := S1000000) ![0] S1000000.size inb_S1000000_S1000000_0) (fun _ => rfl)

/-- Chunk `r` of the tile's words: 25600 words from `k1_off1 i (25600 r)`. -/
abbrev ch0 (i : grid1.Coords) : Rect S3276800 := Rect.unit (s := S3276800) (k1_off1 i 0#32) S25600.size (k1_off1_inb i 0)
abbrev ch1 (i : grid1.Coords) : Rect S3276800 := Rect.unit (s := S3276800) (k1_off1 i 25600#32) S25600.size (k1_off1_inb i 1)
abbrev ch2 (i : grid1.Coords) : Rect S3276800 := Rect.unit (s := S3276800) (k1_off1 i 51200#32) S25600.size (k1_off1_inb i 2)
abbrev ch3 (i : grid1.Coords) : Rect S3276800 := Rect.unit (s := S3276800) (k1_off1 i 76800#32) S25600.size (k1_off1_inb i 3)
abbrev qfC0 (i : grid1.Coords) : Memref sig .scVector .hbm S25600 .i32 := qfM.slice (ch0 i) (fun _ => rfl)
abbrev qfC1 (i : grid1.Coords) : Memref sig .scVector .hbm S25600 .i32 := qfM.slice (ch1 i) (fun _ => rfl)
abbrev qfC2 (i : grid1.Coords) : Memref sig .scVector .hbm S25600 .i32 := qfM.slice (ch2 i) (fun _ => rfl)
abbrev qfC3 (i : grid1.Coords) : Memref sig .scVector .hbm S25600 .i32 := qfM.slice (ch3 i) (fun _ => rfl)
abbrev outC0 (i : grid1.Coords) : Memref sig .scVector .hbm S25600 .f32 := outM.slice (ch0 i) (fun _ => rfl)
abbrev outC1 (i : grid1.Coords) : Memref sig .scVector .hbm S25600 .f32 := outM.slice (ch1 i) (fun _ => rfl)
abbrev outC2 (i : grid1.Coords) : Memref sig .scVector .hbm S25600 .f32 := outM.slice (ch2 i) (fun _ => rfl)
abbrev outC3 (i : grid1.Coords) : Memref sig .scVector .hbm S25600 .f32 := outM.slice (ch3 i) (fun _ => rfl)

abbrev isem0 : DmaSem sig := ((cc1_scratch4.slice (Rect.unit (s := S2) ![0] S1.size inb_S2_S1_0)).squeeze S_ squeezes_S1_S_).sem
abbrev isem1 : DmaSem sig := ((cc1_scratch4.slice (Rect.unit (s := S2) ![1] S1.size inb_S2_S1_1)).squeeze S_ squeezes_S1_S_).sem
abbrev gsem0 : DmaSem sig := ((cc1_scratch5.slice (Rect.unit (s := S2) ![0] S1.size inb_S2_S1_0)).squeeze S_ squeezes_S1_S_).sem
abbrev gsem1 : DmaSem sig := ((cc1_scratch5.slice (Rect.unit (s := S2) ![1] S1.size inb_S2_S1_1)).squeeze S_ squeezes_S1_S_).sem
abbrev ssem0 : DmaSem sig := ((cc1_scratch6.slice (Rect.unit (s := S2) ![0] S1.size inb_S2_S1_0)).squeeze S_ squeezes_S1_S_).sem
abbrev ssem1 : DmaSem sig := ((cc1_scratch6.slice (Rect.unit (s := S2) ![1] S1.size inb_S2_S1_1)).squeeze S_ squeezes_S1_S_).sem

/-! ## The arrays of the call and what each word of the result is -/

abbrev twLoc (d : Dev nD) : Loc nD τ sig := (SparseCore.T d).loc main_v2
abbrev qfLoc (d : Dev nD) : Loc nD τ sig := (SparseCore.T d).loc main_v3
abbrev outLoc (d : Dev nD) : Loc nD τ sig := (SparseCore.T d).loc main_v4

variable (tw : (d : Dev nD) → Buf (Elt F) (twLoc d)) (qf : (d : Dev nD) → Buf (Elt F) (qfLoc d))

/-- The gathered array: word `p` is the table's entry at the row the index word `qf[p]` names. -/
def gath (d : Dev nD) : Buf (Elt F) (outLoc d) :=
  fun p => tw d (ValueIdx.ix1 (Cert.Proof.Spec.row (qf d p)))

/-! ## The tiles' pieces: tile `(c, s)` owns four chunks of 25600 words, chunk `r` from word `204800 s + 102400 c + 25600 r` -/

def coordsV (c : Fin (grid1.bound 0)) (s : Fin (grid1.bound 1)) : grid1.Coords :=
  fun | 0 => c | 1 => s | ⟨_ + 2, h⟩ => absurd h (Nat.not_lt.2 (Nat.le_add_left _ _))

abbrev chR (L : grid1.Coords) (r : Fin 4) : Rect S3276800 :=
  Rect.unit (s := S3276800) (k1_off1 L (BitVec.ofNat 32 (25600 * r.val))) S25600.size (k1_off1_inb L r)

/-- The words of chunk `r` of tile `L`. -/
def pieceSet (L : grid1.Coords) (r : Fin 4) : Finset S3276800.Idx := (chR L r).set

theorem mem_pieceSet (L : grid1.Coords) (r : Fin 4) (p : S3276800.Idx) :
    p ∈ pieceSet L r ↔ 204800 * (L 1).val + 102400 * (L 0).val + 25600 * r.val ≤ (p 0).val
      ∧ (p 0).val < 204800 * (L 1).val + 102400 * (L 0).val + 25600 * r.val + 25600 := by
  unfold pieceSet chR
  rw [Rect.mem_set_unit, Fin.forall_fin_one, k1_off1_eq]
  exact Iff.rfl

/-- The pieces, indexed by (SparseCore, tile, chunk). -/
abbrev pieceAt (x : Fin 2 × Fin 16 × Fin 4) : Finset S3276800.Idx := pieceSet (coordsV x.1 x.2.1) x.2.2

theorem mem_pieceAt (x : Fin 2 × Fin 16 × Fin 4) (p : S3276800.Idx) :
    p ∈ pieceAt x ↔ 204800 * x.2.1.val + 102400 * x.1.val + 25600 * x.2.2.val ≤ (p 0).val
      ∧ (p 0).val < 204800 * x.2.1.val + 102400 * x.1.val + 25600 * x.2.2.val + 25600 :=
  mem_pieceSet (coordsV x.1 x.2.1) x.2.2 p

theorem pieces_disjoint : ∀ x ∈ (Finset.univ : Finset (Fin 2 × Fin 16 × Fin 4)), ∀ y ∈ (Finset.univ : Finset (Fin 2 × Fin 16 × Fin 4)),
    x ≠ y → Disjoint (pieceAt x) (pieceAt y) := by
  intro x _ y _ hxy
  refine Finset.disjoint_left.mpr fun p hx hy => hxy ?_
  have hx' := (mem_pieceAt x p).mp hx
  have hy' := (mem_pieceAt y p).mp hy
  obtain ⟨c, s, r⟩ := x
  obtain ⟨c', s', r'⟩ := y
  have hc := c.isLt; have hc' := c'.isLt; have hr := r.isLt; have hr' := r'.isLt
  simp only at hx' hy'
  have e1 : s.val = s'.val := by omega
  have e2 : c.val = c'.val := by omega
  have e3 : r.val = r'.val := by omega
  exact Prod.ext (Fin.ext e2) (Prod.ext (Fin.ext e1) (Fin.ext e3))

theorem pieces_cover : (Finset.univ : Finset (Fin 2 × Fin 16 × Fin 4)).biUnion pieceAt = Finset.univ := by
  ext p
  simp only [Finset.mem_biUnion, Finset.mem_univ, true_and, iff_true]
  have hp : (p 0).val < 3276800 := (p 0).isLt
  refine ⟨(⟨((p 0).val / 102400) % 2, by omega⟩, ⟨(p 0).val / 204800, by omega⟩, ⟨((p 0).val / 25600) % 4, by omega⟩), ?_⟩
  rw [mem_pieceAt]
  simp only
  omega

/-! ## The table's read shares: one per tile, the whole share halved between the SparseCores, each half cut in sixteen -/

def coreShare (c : Fin 2) : PosShare TreeShare := pieceOf fullShare 2 (by decide) c
def twShare (L : grid1.Coords) : PosShare TreeShare :=
  pieceOf (coreShare ⟨(L 0).val, (L 0).isLt⟩) 16 (by decide) ⟨(L 1).val, (L 1).isLt⟩

/-! ## What the handshakes carry -/

/-- Tile `L`'s share of the call: its four chunks of the index array, its four chunks of the result at `f`, its read share of the table. -/
def tileRes (d : Dev nD) (L : grid1.Coords) (f : Buf (Elt F) (outLoc d)) : sProp 𝕄 :=
  iprop((bigSep Finset.univ fun r : Fin 4 => qfLoc d ↦[pieceSet L r]{fullShare} qf d)
      ∗ (bigSep Finset.univ fun r : Fin 4 => outLoc d ↦[pieceSet L r]{fullShare} f)
      ∗ twLoc d ↦{twShare L} tw d)

/-- The call hands each SparseCore its sixteen tiles' shares, the result's pieces at whatever they hold; back come the
    same, the result's pieces at the gathered array. -/
def P : (K (F := F)).Pay (nD := nD) (Val := Elt F) (Name := ℕ) (U := UU) where
  st := fun q d c => match q with
    | 0 => bigSep Finset.univ fun i : Fin ((K (F := F)).nSub 0) => iprop(∃ f, tileRes tw qf d (coordsV ⟨c.val, c.isLt⟩ ⟨i.val, i.isLt⟩) f)
  dn := fun q d c => match q with
    | 0 => bigSep Finset.univ fun i : Fin ((K (F := F)).nSub 0) => tileRes tw qf d (coordsV ⟨c.val, c.isLt⟩ ⟨i.val, i.isLt⟩) (gath tw qf d)
  go := fun q d c i => match q with
    | 0 => iprop(∃ f, tileRes tw qf d (coordsV ⟨c.val, c.isLt⟩ ⟨i.val, i.isLt⟩) f)
  td := fun q d c i => match q with
    | 0 => tileRes tw qf d (coordsV ⟨c.val, c.isLt⟩ ⟨i.val, i.isLt⟩) (gath tw qf d)
  x := fun _ _ => iprop(emp)

instance tileRes_storable (d : Dev nD) (L : grid1.Coords) (f : Buf (Elt F) (outLoc d)) : BI.Storable (upEmb : UEmb _ 𝕄) (tileRes tw qf d L f) := by
  unfold tileRes; infer_instance

instance P_storable : (P (F := F) tw qf).IsStorable where
  st q d c := match q with
    | 0 => (inferInstance : BI.Storable (upEmb : UEmb _ 𝕄)
        (bigSep Finset.univ fun i : Fin ((K (F := F)).nSub 0) => iprop(∃ f, tileRes tw qf d (coordsV ⟨c.val, c.isLt⟩ ⟨i.val, i.isLt⟩) f)))
  dn q d c := match q with
    | 0 => (inferInstance : BI.Storable (upEmb : UEmb _ 𝕄)
        (bigSep Finset.univ fun i : Fin ((K (F := F)).nSub 0) => tileRes tw qf d (coordsV ⟨c.val, c.isLt⟩ ⟨i.val, i.isLt⟩) (gath tw qf d)))
  go q d c i := match q with
    | 0 => (inferInstance : BI.Storable (upEmb : UEmb _ 𝕄) iprop(∃ f, tileRes tw qf d (coordsV ⟨c.val, c.isLt⟩ ⟨i.val, i.isLt⟩) f))
  td q d c i := match q with
    | 0 => (inferInstance : BI.Storable (upEmb : UEmb _ 𝕄) (tileRes tw qf d (coordsV ⟨c.val, c.isLt⟩ ⟨i.val, i.isLt⟩) (gath tw qf d)))

/-- A SparseCore's operands are its tiles' shares and its results theirs: nothing to cut or join. -/
theorem vecSplit : (K (F := F)).VecSplit' (P tw qf) 0 := by
  intro d c
  show (bigSep Finset.univ fun i : Fin ((K (F := F)).nSub 0) => (P tw qf).go 0 d c i)
    ⊢ |={Set.univ}=> iprop((bigSep Finset.univ fun i : Fin ((K (F := F)).nSub 0) => (P tw qf).go 0 d c i)
        ∗ ((bigSep Finset.univ fun i : Fin ((K (F := F)).nSub 0) => (P tw qf).td 0 d c i)
            -∗ bigSep Finset.univ fun i : Fin ((K (F := F)).nSub 0) => (P tw qf).td 0 d c i))
  iintro H; imodintro
  isplitl [H]; · iexact H
  iintro H; iexact H

/-! ## The arrays cut into the tiles' shares, and joined again -/

/-- An array of 3276800 words held whole is its 128 chunks held apart, by SparseCore, tile and chunk. -/
theorem qf_split (d : Dev nD) (g : Buf (Elt F) (qfLoc d)) :
    (qfLoc d ↦{fullShare} g : sProp 𝕄)
      = bigSep Finset.univ fun c : Fin 2 => bigSep Finset.univ fun s : Fin 16 => bigSep Finset.univ fun r : Fin 4 =>
          qfLoc d ↦[pieceSet (coordsV c s) r]{fullShare} g := by
  rw [show (qfLoc d ↦{fullShare} g : sProp 𝕄) = qfLoc d ↦[(Finset.univ : Finset (Fin 2 × Fin 16 × Fin 4)).biUnion pieceAt]{fullShare} g by rw [pieces_cover],
    pointsTo_biUnion Finset.univ (ℓ := qfLoc d) pieceAt pieces_disjoint, bigSep_univ_prod]
  exact bigSep_congr fun c _ => bigSep_univ_prod _
theorem out_split (d : Dev nD) (g : Buf (Elt F) (outLoc d)) :
    (outLoc d ↦{fullShare} g : sProp 𝕄)
      = bigSep Finset.univ fun c : Fin 2 => bigSep Finset.univ fun s : Fin 16 => bigSep Finset.univ fun r : Fin 4 =>
          outLoc d ↦[pieceSet (coordsV c s) r]{fullShare} g := by
  rw [show (outLoc d ↦{fullShare} g : sProp 𝕄) = outLoc d ↦[(Finset.univ : Finset (Fin 2 × Fin 16 × Fin 4)).biUnion pieceAt]{fullShare} g by rw [pieces_cover],
    pointsTo_biUnion Finset.univ (ℓ := outLoc d) pieceAt pieces_disjoint, bigSep_univ_prod]
  exact bigSep_congr fun c _ => bigSep_univ_prod _
/-- The table held whole is its thirty-two read shares. -/
theorem tw_split (d : Dev nD) (g : Buf (Elt F) (twLoc d)) :
    (twLoc d ↦{fullShare} g : sProp 𝕄)
      = bigSep Finset.univ fun c : Fin 2 => bigSep Finset.univ fun s : Fin 16 => twLoc d ↦{twShare (coordsV c s)} g := by
  rw [pointsTo_piecesOf (Finset.univ) g (o := 2) (by decide) fullShare]
  exact bigSep_congr fun c _ => pointsTo_piecesOf (Finset.univ) g (o := 16) (by decide) (coreShare c)

theorem tiles_intro (d : Dev nD) (f : Buf (Elt F) (outLoc d)) :
    iprop((twLoc d ↦{fullShare} tw d) ∗ (qfLoc d ↦{fullShare} qf d) ∗ outLoc d ↦{fullShare} f)
      ⊢ bigSep Finset.univ fun c : Fin 2 => bigSep Finset.univ fun s : Fin 16 => tileRes tw qf d (coordsV c s) f := by
  unfold tileRes
  rw [tw_split, qf_split, out_split]
  simp only [bigSep_sep']
  iintro ⟨H3, H1, H2⟩
  isplitl [H1]; · iexact H1
  isplitl [H2]; · iexact H2
  iexact H3

theorem tiles_elim (d : Dev nD) (f : Buf (Elt F) (outLoc d)) :
    (bigSep Finset.univ fun c : Fin 2 => bigSep Finset.univ fun s : Fin 16 => tileRes tw qf d (coordsV c s) f)
      ⊢ iprop((twLoc d ↦{fullShare} tw d) ∗ (qfLoc d ↦{fullShare} qf d) ∗ outLoc d ↦{fullShare} f) := by
  unfold tileRes
  rw [tw_split, qf_split, out_split]
  simp only [bigSep_sep']
  iintro ⟨H1, H2, H3⟩
  isplitl [H3]; · iexact H3
  isplitl [H1]; · iexact H1
  iexact H2

theorem tile_ex (d : Dev nD) (L : grid1.Coords) (f : Buf (Elt F) (outLoc d)) : tileRes tw qf d L f ⊢ iprop(∃ f, tileRes tw qf d L f) := by
  iintro H; iexists f; iexact H

/-- The three arrays held whole are the call's operands: every tile's share, the result's pieces at what they hold. -/
theorem st0_intro (d : Dev nD) (f : Buf (Elt F) (outLoc d)) :
    iprop((twLoc d ↦{fullShare} tw d) ∗ (qfLoc d ↦{fullShare} qf d) ∗ outLoc d ↦{fullShare} f)
      ⊢ bigSep Finset.univ fun c : Fin ((K (F := F)).nCore 0) => (P tw qf).st 0 d c := by
  refine (tiles_intro tw qf d f).trans ?_
  show (bigSep Finset.univ fun c : Fin 2 => bigSep Finset.univ fun s : Fin 16 => tileRes tw qf d (coordsV c s) f)
    ⊢ bigSep Finset.univ fun c : Fin 2 => bigSep Finset.univ fun s : Fin 16 => iprop(∃ f, tileRes tw qf d (coordsV c s) f)
  exact bigSep_mono fun c _ => bigSep_mono fun s _ => tile_ex tw qf d (coordsV c s) f

/-- The call's results are the three arrays held whole, the result at the gathered array. -/
theorem dn0_elim (d : Dev nD) :
    (bigSep Finset.univ fun c : Fin ((K (F := F)).nCore 0) => (P tw qf).dn 0 d c)
      ⊢ iprop((twLoc d ↦{fullShare} tw d) ∗ (qfLoc d ↦{fullShare} qf d) ∗ outLoc d ↦{fullShare} gath tw qf d) :=
  tiles_elim tw qf d (gath tw qf d)

end Cert.Proof.KI

end
-- ==== Proof.KIMainVals.lean ====
/-
  The first processor's program, step by step, as what its ten arrays hold: the weight column recast as a row and
  the bias as a 1×1 array, the projected table the pipelined call leaves, the index array flattened, the gathered
  array, and the result recast to 16384×200.
-/
import proofs.«206189_g37357625540624_cont_8to1_b_987_36_alg».proof.Proof.KIRegionStep
import proofs.«206189_g37357625540624_cont_8to1_b_987_36_alg».proof.Proof.KIPay

set_option maxRecDepth 16384

noncomputable section

namespace Cert.Proof.KI

open Cert.KernelIdeal Cert.KernelIdeal.Gen

open Idealize.ShloMosaic Idealize.ShloMosaic.TcCoe Idealize.ShloMosaic.ValueIdx Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Pipeline (Dat Cfg Window cellOf)

variable {F : FTy → Type} [FloatOps F] [∀ e, Nonempty (Elt F e)]

local notation "𝕄" => MT nD τ sig (HIx 1) (Elt F) ℕ UU ℕ

variable (m : (ℓ : Loc nD τ sig) → Buf (Elt F) ℓ)

/-! ## The arrays and the four recasts -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

abbrev op1 : HloOp τ sig (Elt F) := StableHlo.reshape main_arg2 main_v0 rfl shapeCasts_S32x1_S1x32
abbrev op2 : HloOp τ sig (Elt F) := StableHlo.reshape main_arg3 main_v1 rfl shapeCasts_S1_S1x1
abbrev op3 : HloOp τ sig (Elt F) := StableHlo.reshape main_arg0 main_v3 rfl shapeCasts_S16384x200_S3276800
abbrev op4 : HloOp τ sig (Elt F) := StableHlo.reshape main_v4 main_v5 rfl shapeCasts_S3276800_S16384x200

/-- The launch contents. -/
def V0 (d : Dev nD) : Valuation τ sig (Elt F) := fun b => m (d, b)
/-- After the weight column is recast, -/
def W1 (d : Dev nD) : Valuation τ sig (Elt F) := (op1 (F := F)).result (V0 m d)
/-- and the bias. -/
def W2 (d : Dev nD) : Valuation τ sig (Elt F) := (op2 (F := F)).result (W1 m d)

/-- The first processor's arrays as the projection call finds them. -/
def Vr (d : Dev nD) (b : Ref sig .tc) : Buf (Elt F) ((d : Thread nD τ).loc b) := W2 m d (Proc.devRef .tc b)

/-- The projected table: what the call's 25 write-backs leave. -/
def twOut (d : Dev nD) : Buf (Elt F) (twLoc d) := (dats (Vr m) 0 d).arrAt 3 cfg0.N

/-- The index array flattened. -/
def W3 (d : Dev nD) : Valuation τ sig (Elt F) := (op3 (F := F)).result (V0 m d)
def qfIn (d : Dev nD) : Buf (Elt F) (qfLoc d) := W3 m d v3'

/-- The gathered array in place, -/
def W5 (d : Dev nD) : Valuation τ sig (Elt F) := Function.update (V0 m d) v4' (gath (twOut m) (qfIn m) d)
/-- and recast: the program's result. -/
def W6 (d : Dev nD) : Valuation τ sig (Elt F) := (op4 (F := F)).result (W5 m d)
abbrev resLoc (d : Dev nD) : Loc nD τ sig := (SparseCore.T d).loc main_v5
def resOut (d : Dev nD) : Buf (Elt F) (resLoc d) := W6 m d v5'

/-! ## What each step leaves where -/

theorem W1_a2 (d : Dev nD) : W1 m d a2' = m (d, a2') := StableHlo.reshape_result_ne' _ _ _ _ _ (by decide)
theorem W1_a3 (d : Dev nD) : W1 m d a3' = m (d, a3') := StableHlo.reshape_result_ne' _ _ _ _ _ (by decide)
theorem W1_v1 (d : Dev nD) : W1 m d v1' = m (d, v1') := StableHlo.reshape_result_ne' _ _ _ _ _ (by decide)
theorem W2_a3 (d : Dev nD) : W2 m d a3' = m (d, a3') := (StableHlo.reshape_result_ne' _ _ _ _ _ (by decide)).trans (W1_a3 m d)
theorem W2_a1 (d : Dev nD) : W2 m d a1' = m (d, a1') :=
  (StableHlo.reshape_result_ne' _ _ _ _ _ (by decide)).trans (StableHlo.reshape_result_ne' _ _ _ _ _ (by decide))
theorem W2_v0 (d : Dev nD) : W2 m d v0' = W1 m d v0' := StableHlo.reshape_result_ne' _ _ _ _ _ (by decide)
theorem W2_v2 (d : Dev nD) : W2 m d v2' = m (d, v2') :=
  (StableHlo.reshape_result_ne' _ _ _ _ _ (by decide)).trans (StableHlo.reshape_result_ne' _ _ _ _ _ (by decide))
theorem W3_a0 (d : Dev nD) : W3 m d a0' = m (d, a0') := StableHlo.reshape_result_ne' _ _ _ _ _ (by decide)
theorem W5_v4 (d : Dev nD) : W5 m d v4' = gath (twOut m) (qfIn m) d := Function.update_self _ _ _
theorem W5_v5 (d : Dev nD) : W5 m d v5' = m (d, v5') := Function.update_of_ne (show v5' ≠ v4' by decide) _ _

/-- A recast's two arrays, held. -/
theorem held_pair (d : Dev nD) (x y : DevRef τ sig) (h : x ≠ y) (W : Valuation τ sig (Elt F)) :
    (held (SparseCore.T d) {x, y} W : sProp 𝕄) = iprop(((d, x) ↦{fullShare} W x) ∗ ((d, y) ↦{fullShare} W y)) := by
  unfold held
  rw [SparseCore.bigSep_insert' (by rwa [Finset.mem_singleton]), bigSep_singleton]

end Cert.Proof.KI

end
-- ==== Proof.KIRegionIO.lean ====
/-
  The projection call's entry and exit states as plain facts about its four arrays: the table and the recast
  weights and bias go in and come back as they were (an input array is never written); the fourth array goes in
  at whatever it holds and comes back at the projected table.
-/
import proofs.«206189_g37357625540624_cont_8to1_b_987_36_alg».proof.Proof.KIMainVals

set_option maxRecDepth 16384

noncomputable section

namespace Cert.Proof.KI

open Cert.KernelIdeal Cert.KernelIdeal.Gen

open Idealize.ShloMosaic Idealize.ShloMosaic.TcCoe Idealize.ShloMosaic.ValueIdx Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F] [∀ e, Nonempty (Elt F e)]

local notation "𝕄" => MT nD τ sig (HIx 1) (Elt F) ℕ UU ℕ

variable (Vr : (d : Dev nD) → (b : Ref sig .tc) → Buf (Elt F) ((d : Thread nD τ).loc b))

/-- The pipeline's four arrays at contents `Fa`, one by one, each held whole and outright. -/
theorem arrays_pts (d : Dev nD) (Fa : (w : Fin cfg0.W) → Buf (Elt F) ((cfg0.win w).arr.view.loc (d.tc : Thread nD τ))) :
    ((dats Vr 0 d).arrays Fa : sProp 𝕄)
      = iprop((((d : Thread nD τ).loc main_arg1) ↦{fullShare} Fa 0) ∗ (((d : Thread nD τ).loc main_v0) ↦{fullShare} Fa 1)
          ∗ (((d : Thread nD τ).loc main_v1) ↦{fullShare} Fa 2) ∗ (((d : Thread nD τ).loc main_v2) ↦{fullShare} Fa 3)) := by
  rw [Pipeline.arrays_eq cfgs (fun _ => dats Vr 0) 0 d arr_whole0 (fun w => (dats Vr 0 d).share_full (fun _ => rfl) w) Fa, bigSep_W0]

/-- An input array is never written. -/
theorem arrAt_0 (d : Dev nD) (t : Nat) : (dats Vr 0 d).arrAt 0 t = Vr d main_arg1 :=
  ((dats Vr 0 d).arrAt_in 0 rfl t).trans (A_eq Vr d 0)
theorem arrAt_1 (d : Dev nD) (t : Nat) : (dats Vr 0 d).arrAt 1 t = Vr d main_v0 :=
  ((dats Vr 0 d).arrAt_in 1 rfl t).trans (A_eq Vr d 1)
theorem arrAt_2 (d : Dev nD) (t : Nat) : (dats Vr 0 d).arrAt 2 t = Vr d main_v1 :=
  ((dats Vr 0 d).arrAt_in 2 rfl t).trans (A_eq Vr d 2)
theorem arrAt_3_zero (d : Dev nD) : (dats Vr 0 d).arrAt 3 0 = Vr d main_v2 := A_eq Vr d 3

/-- Into the call: the four arrays at what the first processor holds, and what it owes. -/
theorem pre_intro (hloc : RowLocal F) (d : Dev nD) :
    iprop((((d : Thread nD τ).loc main_arg1) ↦{fullShare} Vr d main_arg1) ∗ (((d : Thread nD τ).loc main_v0) ↦{fullShare} Vr d main_v0)
        ∗ (((d : Thread nD τ).loc main_v1) ↦{fullShare} Vr d main_v1) ∗ (((d : Thread nD τ).loc main_v2) ↦{fullShare} Vr d main_v2)
        ∗ owesTc (F := F) d)
      ⊢ (regSeg Vr hloc).pre d := by
  show _ ⊢ iprop((dats Vr 0 d).arrays (fun w => (dats Vr 0 d).arrAt w 0) ∗ owesTc (F := F) d)
  rw [arrays_pts, arrAt_0, arrAt_1, arrAt_2, arrAt_3_zero]
  iintro ⟨H0, H1, H2, H3, HO⟩
  isplitl [H0 H1 H2 H3]
  · isplitl [H0]; · iexact H0
    isplitl [H1]; · iexact H1
    isplitl [H2]; · iexact H2
    iexact H3
  iexact HO

/-- Out of the call: the inputs as they were, the fourth array at what the write-backs leave, the same debt. -/
theorem post_elim (hloc : RowLocal F) (d : Dev nD) :
    (regSeg Vr hloc).post d
      ⊢ iprop((((d : Thread nD τ).loc main_arg1) ↦{fullShare} Vr d main_arg1) ∗ (((d : Thread nD τ).loc main_v0) ↦{fullShare} Vr d main_v0)
        ∗ (((d : Thread nD τ).loc main_v1) ↦{fullShare} Vr d main_v1)
        ∗ (((d : Thread nD τ).loc main_v2) ↦{fullShare} (dats Vr 0 d).arrAt 3 cfg0.N)
        ∗ owesTc (F := F) d) := by
  show iprop((dats Vr 0 d).arrays (fun w => (dats Vr 0 d).arrAt w cfg0.N) ∗ owesTc (F := F) d) ⊢ _
  rw [arrays_pts, arrAt_0, arrAt_1, arrAt_2]
  iintro ⟨⟨H0, H1, H2, H3⟩, HO⟩
  isplitl [H0]; · iexact H0
  isplitl [H1]; · iexact H1
  isplitl [H2]; · iexact H2
  isplitl [H3]; · iexact H3
  iexact HO

end Cert.Proof.KI

end
-- ==== Proof.KILaunch.lean ====
/-
  The launch: the ghost state dealt once (the handshakes' rounds to the launch theorem, the staging cells' rounds
  to the pipelined call, the copies' counters let go), and the first processor's program step by step: two recasts,
  the projection call, a third recast, the gather on the second processor, a last recast; then what the final
  memory holds.
-/
import proofs.«206189_g37357625540624_cont_8to1_b_987_36_alg».proof.Proof.KIRegionIO

set_option maxRecDepth 16384

noncomputable section

namespace Cert.Proof.KI

open Cert.KernelIdeal Cert.KernelIdeal.Gen

open Idealize.ShloMosaic Idealize.ShloMosaic.TcCoe Idealize.ShloMosaic.ValueIdx Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Pipeline (Dat Cfg Window cellOf)

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-- The gather call's payloads, at the projected table and the flattened index array the program computes before it. -/
abbrev PP : (K (F := F)).Pay (nD := nD) (Val := Elt F) (Name := ℕ) (U := UU) := P (twOut m) (qfIn m)

/-! ## The launch element -/

/-- The three factors of the ghost state, owned apart; the counters are let go. -/
theorem own_split (a : UH) (b : UR) (c : Counters) :
    (ownU (a, (b, c)) : sProp 𝕄) ⊢ iprop(BI.own (EH a) ∗ BI.own ((ER : Emb UR 𝕄) b)) := by
  iintro Hu
  ihave H := (ownU_pair _ _) $$ Hu
  icases H with ⟨HH, HR⟩
  ihave H2 := (own_pair_emb (embR : Emb (UR × Counters) 𝕄) b c) $$ HR
  icases H2 with ⟨HP, -⟩
  isplitl [HH]; · iexact HH
  unfold ER; iexact HP

def u₀ : UU := (initOf (K (F := F)).hsCells (K (F := F)).hsToks,
  (initOf (Pipeline.cells (Pipeline.pin (pcfgs (F := F)) adm) phinj) (Pipeline.launchToks (Pipeline.pin (pcfgs (F := F)) adm) phinj), 1))

/-- What the first processor's proof starts from on device `d`: the pipelined call's staging cells and duty tokens. -/
def G (d : Dev nD) : sProp 𝕄 :=
  iprop((bigSep Finset.univ fun p : Fin 1 => Pipeline.cellsGhost (Pipeline.pin (pcfgs (F := F)) adm) ER p d)
    ∗ (bigSep Finset.univ fun p : Fin 1 => Pipeline.toksInit (Pipeline.pin (pcfgs (F := F)) adm) ER p d))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PP m).x q thr) := by
  unfold u₀
  iintro Hu
  ihave H := (own_split _ _ _) $$ Hu
  icases H with ⟨HH, HP⟩
  imod (Pipeline.fund_ghost (Pipeline.pin (pcfgs (F := F)) adm) ER phinj) $$ HP with ⟨Hg, Ht⟩
  imodintro
  isplitl [HH]; · iexact HH
  isplitl [Hg Ht]
  · unfold G; rw [bigSep_sep']
    isplitl [Hg]; · iexact Hg
    iexact Ht
  rw [show (bigSep Finset.univ fun thr : Thread nD τ => bigSep Finset.univ fun q : Fin 1 => (PP m).x q thr) = (iprop(emp) : sProp 𝕄) from by
    show (bigSep Finset.univ fun _ : Thread nD τ => bigSep Finset.univ fun _ : Fin 1 => (iprop(emp) : sProp 𝕄)) = _
    rw [bigSep_congr fun _ _ => bigSep_emp' _, bigSep_emp']]
  iempintro

/-! ## The first processor's program -/

omit [FloatOps F] in
theorem unscopedBufs_eq (d : Dev nD) (W : (b : Ref sig .tc) → Buf (Elt F) ((d.tc : Thread nD τ).loc b)) :
    (unscopedBufs d W : sProp 𝕄)
      = iprop(((d, a0') ↦{fullShare} W main_arg0) ∗ ((d, a1') ↦{fullShare} W main_arg1) ∗ ((d, a2') ↦{fullShare} W main_arg2)
          ∗ ((d, a3') ↦{fullShare} W main_arg3) ∗ ((d, v0') ↦{fullShare} W main_v0) ∗ ((d, v1') ↦{fullShare} W main_v1)
          ∗ ((d, v2') ↦{fullShare} W main_v2) ∗ ((d, v3') ↦{fullShare} W main_v3) ∗ ((d, v4') ↦{fullShare} W main_v4)
          ∗ ((d, v5') ↦{fullShare} W main_v5)) := by
  unfold unscopedBufs
  rw [show (Finset.univ.filter fun b : Ref sig .tc => ¬ b.isScoped)
      = {main_arg0, main_arg1, main_arg2, main_arg3, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- What the first processor owes the launch of the second, taken out of its handshake state and put back. -/
theorem tcSt_owes (d : Dev nD) :
    (K (F := F)).tcSt EH d 0 ⊢ (iprop(owesTc (F := F) d ∗ (owesTc (F := F) d -∗ (K (F := F)).tcSt EH d 0)) : sProp 𝕄) := by
  unfold SparseCore.Cfg.tcSt
  iintro ⟨Ho, Hr⟩
  isplitl [Ho]; · iexact Ho
  iintro Ho
  isplitl [Ho]; · iexact Ho
  iexact Hr

/-- The level facts every thread consults. -/
theorem ctx_lev (κ : GSem nD τ sig → ℕ) :
    (K (F := F)).ctx EH (PP m) κ ⊢ (levAts (K (F := F)).L (K (F := F)).lev : sProp 𝕄) := by
  unfold SparseCore.Cfg.ctx
  iintro ⟨H, -⟩; iexact H

/-- What the program leaves the claim: the four arguments at their launch contents, the result at the recast gathered array. -/
abbrev FIN (d : Dev nD) : sProp 𝕄 :=
  iprop(((d, a0') ↦{fullShare} m (d, a0')) ∗ ((d, a1') ↦{fullShare} m (d, a1')) ∗ ((d, a2') ↦{fullShare} m (d, a2'))
    ∗ ((d, a3') ↦{fullShare} m (d, a3')) ∗ ((d, v5') ↦{fullShare} resOut m d))

/-! ### The projection call at the contents the program reaches it with -/

theorem Vr_a1 (d : Dev nD) : Vr m d main_arg1 = m (d, a1') := W2_a1 m d
theorem Vr_v0 (d : Dev nD) : Vr m d main_v0 = W1 m d v0' := W2_v0 m d
theorem Vr_v1 (d : Dev nD) : Vr m d main_v1 = W2 m d v1' := rfl
theorem Vr_v2 (d : Dev nD) : Vr m d main_v2 = m (d, v2') := W2_v2 m d

theorem region_main (hloc : RowLocal F) (d : Dev nD) (Φ : PUnit → sProp 𝕄) :
    iprop(boundary (SparseCore.T d) ∗ ((d, a1') ↦{fullShare} m (d, a1')) ∗ ((d, v0') ↦{fullShare} W1 m d v0') ∗ ((d, v1') ↦{fullShare} W2 m d v1')
        ∗ ((d, v2') ↦{fullShare} m (d, v2')) ∗ owesTc (F := F) d ∗ levAts (K (F := F)).L (K (F := F)).lev ∗ G (F := F) d
        ∗ (iprop(boundary (SparseCore.T d) ∗ ((d, a1') ↦{fullShare} m (d, a1')) ∗ ((d, v0') ↦{fullShare} W1 m d v0') ∗ ((d, v1') ↦{fullShare} W2 m d v1')
            ∗ ((d, v2') ↦{fullShare} twOut m d) ∗ owesTc (F := F) d) -∗ Φ ⟨⟩))
      ⊢ wp frame (wpE ((K (F := F)).defs (D (F := F))) 𝒱 (SparseCore.T d) none) Set.univ
          (Prog.lift (.customCall (SparseCore.inner (Pipeline.entry (0 : Fin 1))) ())) Φ := by
  have hpre := pre_intro (Vr m) hloc d
  have hpost := post_elim (Vr m) hloc d
  rw [Vr_a1, Vr_v0, Vr_v1, Vr_v2] at hpre
  rw [Vr_a1, Vr_v0, Vr_v1] at hpost
  rw [show G (F := F) d = iprop(Pipeline.cellsGhost (Pipeline.pin (pcfgs (F := F)) adm) ER 0 d ∗ Pipeline.toksInit (Pipeline.pin (pcfgs (F := F)) adm) ER 0 d) from by
    unfold G; rw [bigSep_univ_of_subsingleton (0 : Fin 1), bigSep_univ_of_subsingleton (0 : Fin 1)]]
  iintro ⟨Hb, H1, H2, H3, H4, HO, Hlv, ⟨Hg, Ht⟩, Hk⟩
  iapply (region_step (Vr m) hloc d Φ) $$ [Hb H1 H2 H3 H4 HO Hlv Hg Ht Hk]
  isplitl [Hb]; · iexact Hb
  isplitl [H1 H2 H3 H4 HO]
  · iapply hpre
    isplitl [H1]; · iexact H1
    isplitl [H2]; · iexact H2
    isplitl [H3]; · iexact H3
    isplitl [H4]; · iexact H4
    iexact HO
  isplitl [Hlv]; · iexact Hlv
  isplitl [Hg]; · iexact Hg
  isplitl [Ht]; · iexact Ht
  iintro ⟨Hb, Hp⟩
  ihave Hp' := hpost $$ Hp
  icases Hp' with ⟨H1, H2, H3, H4, HO⟩
  iapply Hk
  isplitl [Hb]; · iexact Hb
  isplitl [H1]; · iexact H1
  isplitl [H2]; · iexact H2
  isplitl [H3]; · iexact H3
  isplitl [H4]; · iexact H4
  iexact HO

/-! ### The whole program -/

theorem st0_eq (d : Dev nD) (f : Buf (Elt F) (outLoc d)) :
    iprop(((d, v2') ↦{fullShare} twOut m d) ∗ ((d, v3') ↦{fullShare} qfIn m d) ∗ ((d, v4') ↦{fullShare} f))
      ⊢ (bigSep Finset.univ fun c : Fin ((K (F := F)).nCore 0) => (PP m).st 0 d c : sProp 𝕄) :=
  st0_intro (twOut m) (qfIn m) d f

theorem dn0_eq (d : Dev nD) :
    (bigSep Finset.univ fun c : Fin ((K (F := F)).nCore 0) => (PP m).dn 0 d c : sProp 𝕄)
      ⊢ iprop(((d, v2') ↦{fullShare} twOut m d) ∗ ((d, v3') ↦{fullShare} qfIn m d) ∗ ((d, v4') ↦{fullShare} gath (twOut m) (qfIn m) d)) :=
  dn0_elim (twOut m) (qfIn m) d

theorem hmain (hloc : RowLocal F) (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ha2, Ha3, Hv0, Hv1, Hv2, Hv3, Hv4, Hv5⟩, -, -⟩, HG⟩
  ihave Hlv := (ctx_lev m κ) $$ Hctx
  ihave Hs := (tcSt_owes d) $$ Hst
  icases Hs with ⟨Howes, Hback⟩
  -- the weight column recast as a row
  iapply (wp_hlo_within 𝒱 (SparseCore.T d) none Set.univ (op := op1 (F := F)) (S := {a2', v0'}) (Finset.Subset.refl _) (V := V0 m d)) $$ [Hb Ha2 Hv0]
  · isplitl [Hb]; · iexact Hb
    rw [held_pair d a2' v0' (by decide)]
    isplitl [Ha2]; · iexact Ha2
    iexact Hv0
  iintro ⟨Hb, Hh⟩
  ihave Hh' := (Entails.of_eq (held_pair d a2' v0' (by decide) ((op1 (F := F)).result (V0 m d)))) $$ Hh
  icases Hh' with ⟨Ha2, Hv0⟩
  rw [wp_ret]; imodintro
  -- the bias recast as a 1×1 array
  iapply (wp_hlo_within 𝒱 (SparseCore.T d) none Set.univ (op := op2 (F := F)) (S := {a3', v1'}) (Finset.Subset.refl _) (V := W1 m d)) $$ [Hb Ha3 Hv1]
  · isplitl [Hb]; · iexact Hb
    rw [held_pair d a3' v1' (by decide), W1_a3, W1_v1]
    isplitl [Ha3]; · iexact Ha3
    iexact Hv1
  iintro ⟨Hb, Hh⟩
  ihave Hh' := (Entails.of_eq (held_pair d a3' v1' (by decide) ((op2 (F := F)).result (W1 m d)))) $$ Hh
  icases Hh' with ⟨Ha3, Hv1⟩
  rw [wp_ret]; imodintro
  -- the projection call
  iapply (region_main m hloc d _) $$ [Hb Ha1 Hv0 Hv1 Hv2 Howes Hlv HG Ha0 Ha2 Ha3 Hv3 Hv4 Hv5 Hback]
  isplitl [Hb]; · iexact Hb
  isplitl [Ha1]; · iexact Ha1
  isplitl [Hv0]; · iexact Hv0
  isplitl [Hv1]; · iexact Hv1
  isplitl [Hv2]; · iexact Hv2
  isplitl [Howes]; · iexact Howes
  isplitl [Hlv]; · iexact Hlv
  isplitl [HG]; · iexact HG
  iintro ⟨Hb, Ha1, Hv0, Hv1, Hv2, Howes⟩
  ihave Hst := Hback $$ Howes
  -- the index array flattened
  iapply (wp_hlo_within 𝒱 (SparseCore.T d) none Set.univ (op := op3 (F := F)) (S := {a0', v3'}) (Finset.Subset.refl _) (V := V0 m d)) $$ [Hb Ha0 Hv3]
  · isplitl [Hb]; · iexact Hb
    rw [held_pair d a0' v3' (by decide)]
    isplitl [Ha0]; · iexact Ha0
    iexact Hv3
  iintro ⟨Hb, Hh⟩
  ihave Hh' := (Entails.of_eq (held_pair d a0' v3' (by decide) ((op3 (F := F)).result (V0 m d)))) $$ Hh
  icases Hh' with ⟨Ha0, Hv3⟩
  rw [wp_ret]; imodintro
  -- the gather on the second processor
  iapply ((K (F := F)).wp_run (D (F := F)) 𝒱 (EH := EH) (P := PP m) κ d 0) $$ [Hst Hv2 Hv3 Hv4 Hb Ha0 Ha1 Ha2 Ha3 Hv0 Hv1 Hv5]
  isplitr; · iexact Hctx
  isplitl [Hst]; · iexact Hst
  isplitl [Hv2 Hv3 Hv4]
  · iapply (st0_eq m d _)
    isplitl [Hv2]; · iexact Hv2
    isplitl [Hv3]; · iexact Hv3
    iexact Hv4
  iintro ⟨Hst, Hdn⟩
  ihave Hdn' := (dn0_eq m d) $$ Hdn
  icases Hdn' with ⟨Hv2, Hv3, Hv4⟩
  -- the gathered array recast to the result
  iapply (wp_hlo_within 𝒱 (SparseCore.T d) none Set.univ (op := op4 (F := F)) (S := {v4', v5'}) (Finset.Subset.refl _) (V := W5 m d)) $$ [Hb Hv4 Hv5]
  · isplitl [Hb]; · iexact Hb
    rw [held_pair d v4' v5' (by decide), W5_v4, W5_v5]
    isplitl [Hv4]; · iexact Hv4
    iexact Hv5
  iintro ⟨Hb, Hh⟩
  ihave Hh' := (Entails.of_eq (held_pair d v4' v5' (by decide) ((op4 (F := F)).result (W5 m d)))) $$ Hh
  icases Hh' with ⟨Hv4, Hv5⟩
  rw [wp_ret]; imodintro; imodintro
  isplitl [Hst]; · iexact Hst
  isplitl [Ha0]; · rw [← W3_a0 m d]; iexact Ha0
  isplitl [Ha1]; · iexact Ha1
  isplitl [Ha2]; · rw [← W1_a2 m d]; iexact Ha2
  isplitl [Ha3]; · rw [← W2_a3 m d]; iexact Ha3
  iexact Hv5

/-! ## The final memory and the run -/

/-- What the final memory of device `d` holds: the four arguments as launched, the result at the recast gathered array. -/
def fq (d : Dev nD) (s' : Phys nD τ sig (Elt F)) : Prop :=
  s'.mem.mem (d, a0') = m (d, a0') ∧ s'.mem.mem (d, a1') = m (d, a1') ∧ s'.mem.mem (d, a2') = m (d, a2')
    ∧ s'.mem.mem (d, a3') = m (d, a3') ∧ s'.mem.mem (d, v5') = resOut m d

theorem hfin (d : Dev nD) (s' : Phys nD τ sig (Elt F)) : iprop(FIN m d ∗ SI s') ⊢ (⌜fq m d s'⌝ : sProp 𝕄) := by
  iintro ⟨⟨H0, H1, H2, H3, H5⟩, HSI⟩
  ihave H := (persistent_entails_right (SI_pointsTo_agree (st := s') (ℓ := (d, a0')) (I := Finset.univ) (q := fullShare) (f := m (d, a0')))) $$ [HSI H0]
  · isplitl [HSI] <;> iassumption
  icases H with ⟨%h0, HSI, -⟩
  ihave H := (persistent_entails_right (SI_pointsTo_agree (st := s') (ℓ := (d, a1')) (I := Finset.univ) (q := fullShare) (f := m (d, a1')))) $$ [HSI H1]
  · isplitl [HSI] <;> iassumption
  icases H with ⟨%h1, HSI, -⟩
  ihave H := (persistent_entails_right (SI_pointsTo_agree (st := s') (ℓ := (d, a2')) (I := Finset.univ) (q := fullShare) (f := m (d, a2')))) $$ [HSI H2]
  · isplitl [HSI] <;> iassumption
  icases H with ⟨%h2, HSI, -⟩
  ihave H := (persistent_entails_right (SI_pointsTo_agree (st := s') (ℓ := (d, a3')) (I := Finset.univ) (q := fullShare) (f := m (d, a3')))) $$ [HSI H3]
  · isplitl [HSI] <;> iassumption
  icases H with ⟨%h3, HSI, -⟩
  ihave H := (SI_pointsTo_agree (st := s') (ℓ := (d, v5')) (I := Finset.univ) (q := fullShare) (f := resOut m d)) $$ [HSI H5]
  · isplitl [HSI] <;> iassumption
  icases H with %h5
  ipureintro
  exact ⟨funext fun i => h0 i (Finset.mem_univ i), funext fun i => h1 i (Finset.mem_univ i), funext fun i => h2 i (Finset.mem_univ i),
    funext fun i => h3 i (Finset.mem_univ i), funext fun i => h5 i (Finset.mem_univ i)⟩

/-- The run's post: on every device the result at the recast gathered array and the four arguments unchanged. -/
def QC : PUnit × MemSt nD τ sig (Elt F) → Prop := fun r => ∀ c : Dev nD,
  r.2.mem (c, v5') = resOut m c ∧ r.2.mem (c, a0') = m (c, a0') ∧ r.2.mem (c, a1') = m (c, a1') ∧ r.2.mem (c, a2') = m (c, a2') ∧ r.2.mem (c, a3') = m (c, a3')

/-- From any memory with zero counters, given the body's row locality and one tile's task: every weakly fair execution of
    all the device's threads terminates, nothing faulting, with the result and the arguments as `QC` says. -/
theorem run_main (hloc : RowLocal F) (htile : (K (F := F)).TileObl (D (F := F)) 𝒱 (PP m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => htile)
    (fun q _ => match q with | 0 => SparseCore.Cfg.VecSplit.of_plain (vecSplit (twOut m) (qfIn m)))
    m ρ main (fun d => G (F := F) d) (FIN m) (u₀ (F := F)) (sep_elim_left.trans (hu₀ m)) (hmain m ρ hloc) (fq m) (hfin m) (QC m)
    (fun _ h c => ⟨(h c).2.2.2.2, (h c).1, (h c).2.1, (h c).2.2.1, (h c).2.2.2.1⟩)

end Cert.Proof.KI

end
-- ==== Proof.KIVal.lean ====
import proofs.«206189_g37357625540624_cont_8to1_b_987_36_alg».proof.Proof.Gen.KernelIdeal
import proofs.«206189_g37357625540624_cont_8to1_b_987_36_alg».proof.Proof.Spec
import Idealize.ShloMosaic.Lib.SparseCore.Stream

noncomputable section

namespace Cert.Proof.KI

open Cert.KernelIdeal Cert.KernelIdeal.Gen
open Idealize.ShloMosaic

variable {F : FTy → Type}

/-- An indexed copy of a rank-one table over a rank-one list: the word delivered at position `x` is the table's entry at the
    row the list's word at `x` names. -/
theorem gather_at (hg : S1000000.Gathers 0 S25600) (g : S1000000.Idx → Elt F .f32) (idc : S25600.Idx → Elt F .i32)
    (hn : S25600.numel = S25600.size hg.axis') (hin : ∀ x, (idc x).toNat < S1000000.size hg.axis) (x : S25600.Idx) :
    SparseCore.gatherPayload hg g (SparseCore.rows idc hn hin) x = g (ValueIdx.ix1 (⟨(idc x).toNat, hin x⟩ : Fin 1000000)) := by
  unfold SparseCore.gatherPayload
  congr 1
  funext b
  have hb : b = hg.axis := Subsingleton.elim (α := Fin 1) _ _
  subst hb
  rw [Shape.Gathers.idx_axis]
  have hx : S25600.rowMajor.symm ((x hg.axis').cast hn.symm) = x := by
    rw [Equiv.symm_apply_eq]
    apply Fin.ext
    rw [Shape.rowMajor_val_one]
    have : hg.axis' = (0 : Fin 1) := Subsingleton.elim (α := Fin 1) _ _
    exact congrArg (fun a => (x a).val) this
  unfold SparseCore.rows
  apply Fin.ext
  show (idc (S25600.rowMajor.symm ((x hg.axis').cast hn.symm))).toNat = (idc x).toNat
  rw [hx]

end Cert.Proof.KI

end
-- ==== Proof.KITile.lean ====
import proofs.«206189_g37357625540624_cont_8to1_b_987_36_alg».proof.Proof.KIPay
import proofs.«206189_g37357625540624_cont_8to1_b_987_36_alg».proof.Proof.KIVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (tw : (d : Dev nD) → Buf (Elt F) (twLoc d)) (qf : (d : Dev nD) → Buf (Elt F) (qfLoc d))

section Tile

variable (d : Dev nD) (L : grid1.Coords)

/-! ## The tile's pieces as its own memrefs address them -/

omit [FloatOps F] in
theorem chR_zero : chR L 0 = ch0 L := rfl
omit [FloatOps F] in
theorem chR_one : chR L 1 = ch1 L := rfl
omit [FloatOps F] in
theorem chR_two : chR L 2 = ch2 L := rfl
omit [FloatOps F] in
theorem chR_three : chR L 3 = ch3 L := rfl

omit [FloatOps F] in
theorem set_q (R : Rect S3276800) : ((View.whole (main_v3_scv : Ref sig .scVector)).slice R).set = R.set := by
  rw [View.set_slice]; exact Finset.map_refl
omit [FloatOps F] in
theorem set_o (R : Rect S3276800) : ((View.whole (main_v4_scv : Ref sig .scVector)).slice R).set = R.set := by
  rw [View.set_slice]; exact Finset.map_refl

omit [FloatOps F] in
theorem pts_q0 (f : Buf (Elt F) (qfLoc d)) :
    ((qfC0 L).view.loc (V d (cV L) (sV L)) ↦[(qfC0 L).view.set]{fullShare} f : sProp 𝕄) = qfLoc d ↦[pieceSet L 0]{fullShare} f := by
  show (qfLoc d ↦[((View.whole (main_v3_scv : Ref sig .scVector)).slice (ch0 L)).set]{fullShare} f : sProp 𝕄) = _
  rw [set_q]; rfl
omit [FloatOps F] in
theorem pts_q1 (f : Buf (Elt F) (qfLoc d)) :
    ((qfC1 L).view.loc (V d (cV L) (sV L)) ↦[(qfC1 L).view.set]{fullShare} f : sProp 𝕄) = qfLoc d ↦[pieceSet L 1]{fullShare} f := by
  show (qfLoc d ↦[((View.whole (main_v3_scv : Ref sig .scVector)).slice (ch1 L)).set]{fullShare} f : sProp 𝕄) = _
  rw [set_q]; rfl
omit [FloatOps F] in
theorem pts_q2 (f : Buf (Elt F) (qfLoc d)) :
    ((qfC2 L).view.loc (V d (cV L) (sV L)) ↦[(qfC2 L).view.set]{fullShare} f : sProp 𝕄) = qfLoc d ↦[pieceSet L 2]{fullShare} f := by
  show (qfLoc d ↦[((View.whole (main_v3_scv : Ref sig .scVector)).slice (ch2 L)).set]{fullShare} f : sProp 𝕄) = _
  rw [set_q]; rfl
omit [FloatOps F] in
theorem pts_q3 (f : Buf (Elt F) (qfLoc d)) :
    ((qfC3 L).view.loc (V d (cV L) (sV L)) ↦[(qfC3 L).view.set]{fullShare} f : sProp 𝕄) = qfLoc d ↦[pieceSet L 3]{fullShare} f := by
  show (qfLoc d ↦[((View.whole (main_v3_scv : Ref sig .scVector)).slice (ch3 L)).set]{fullShare} f : sProp 𝕄) = _
  rw [set_q]; rfl
omit [FloatOps F] in
theorem pts_o0 (f : Buf (Elt F) (outLoc d)) :
    ((outC0 L).view.loc (V d (cV L) (sV L)) ↦[(outC0 L).view.set]{fullShare} f : sProp 𝕄) = outLoc d ↦[pieceSet L 0]{fullShare} f := by
  show (outLoc d ↦[((View.whole (main_v4_scv : Ref sig .scVector)).slice (ch0 L)).set]{fullShare} f : sProp 𝕄) = _
  rw [set_o]; rfl
omit [FloatOps F] in
theorem pts_o1 (f : Buf (Elt F) (outLoc d)) :
    ((outC1 L).view.loc (V d (cV L) (sV L)) ↦[(outC1 L).view.set]{fullShare} f : sProp 𝕄) = outLoc d ↦[pieceSet L 1]{fullShare} f := by
  show (outLoc d ↦[((View.whole (main_v4_scv : Ref sig .scVector)).slice (ch1 L)).set]{fullShare} f : sProp 𝕄) = _
  rw [set_o]; rfl
omit [FloatOps F] in
theorem pts_o2 (f : Buf (Elt F) (outLoc d)) :
    ((outC2 L).view.loc (V d (cV L) (sV L)) ↦[(outC2 L).view.set]{fullShare} f : sProp 𝕄) = outLoc d ↦[pieceSet L 2]{fullShare} f := by
  show (outLoc d ↦[((View.whole (main_v4_scv : Ref sig .scVector)).slice (ch2 L)).set]{fullShare} f : sProp 𝕄) = _
  rw [set_o]; rfl
omit [FloatOps F] in
theorem pts_o3 (f : Buf (Elt F) (outLoc d)) :
    ((outC3 L).view.loc (V d (cV L) (sV L)) ↦[(outC3 L).view.set]{fullShare} f : sProp 𝕄) = outLoc d ↦[pieceSet L 3]{fullShare} f := by
  show (outLoc d ↦[((View.whole (main_v4_scv : Ref sig .scVector)).slice (ch3 L)).set]{fullShare} f : sProp 𝕄) = _
  rw [set_o]; rfl
omit [FloatOps F] in
theorem pts_tw (q : PosShare TreeShare) (f : Buf (Elt F) (twLoc d)) :
    (twM.view.loc (V d (cV L) (sV L)) ↦{q} f : sProp 𝕄) = twLoc d ↦{q} f := rfl
omit [FloatOps F] in
theorem pts_ix0 (f : Buf (Elt F) ((V d (cV L) (sV L)).loc cc1_scratch0)) :
    (ix0.view.loc (V d (cV L) (sV L)) ↦{fullShare} f : sProp 𝕄) = (V d (cV L) (sV L)).loc cc1_scratch0 ↦{fullShare} f := rfl
omit [FloatOps F] in
theorem pts_ix1 (f : Buf (Elt F) ((V d (cV L) (sV L)).loc cc1_scratch1)) :
    (ix1.view.loc (V d (cV L) (sV L)) ↦{fullShare} f : sProp 𝕄) = (V d (cV L) (sV L)).loc cc1_scratch1 ↦{fullShare} f := rfl
omit [FloatOps F] in
theorem pts_vl0 (f : Buf (Elt F) ((V d (cV L) (sV L)).loc cc1_scratch2)) :
    (vl0.view.loc (V d (cV L) (sV L)) ↦{fullShare} f : sProp 𝕄) = (V d (cV L) (sV L)).loc cc1_scratch2 ↦{fullShare} f := rfl
omit [FloatOps F] in
theorem pts_vl1 (f : Buf (Elt F) ((V d (cV L) (sV L)).loc cc1_scratch3)) :
    (vl1.view.loc (V d (cV L) (sV L)) ↦{fullShare} f : sProp 𝕄) = (V d (cV L) (sV L)).loc cc1_scratch3 ↦{fullShare} f := rfl

omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-! ## The tile's own semaphores and scratch -/

abbrev cell (sm : DmaSem sig) : GSem nD τ sig := (V d (cV L) (sV L), .dma sm)

omit [FloatOps F] in
theorem cell_ne {a b : DmaSem sig} (h : a ≠ b) : cell d L a ≠ cell d L b :=
  fun e => h (SemLoc.dma.inj (Prod.mk.inj e).2)

omit [FloatOps F] in
/-- The six semaphores of the kernel are among the tile's own: they are them, at zero, and the rest. -/
theorem ownSems0_V :
    (ownSems0 (V d (cV L) (sV L)) : sProp 𝕄)
      = iprop(semVal (cell d L isem0) 0 ∗ semVal (cell d L isem1) 0 ∗ semVal (cell d L gsem0) 0 ∗ semVal (cell d L gsem1) 0 ∗ semVal (cell d L ssem0) 0 ∗ semVal (cell d L ssem1) 0
          ∗ bigSep (((((((ownCells (V d (cV L) (sV L))).erase (cell d L isem0)).erase (cell d L isem1)).erase (cell d L gsem0)).erase (cell d L gsem1)).erase (cell d L ssem0)).erase (cell d L ssem1)) fun g => semVal g 0) := by
  unfold SparseCore.Cfg.ownSems0
  rw [SparseCore.bigSep_erase' ((mem_ownCells (g := cell d L isem0)).mpr ⟨rfl, by show (SemLoc.dma isem0 : SemLoc sig).isScoped .scVector = true; decide⟩),
    SparseCore.bigSep_erase' (Finset.mem_erase.mpr ⟨cell_ne d L (show (isem1 : DmaSem sig) ≠ isem0 by decide), (mem_ownCells (g := cell d L isem1)).mpr ⟨rfl, by show (SemLoc.dma isem1 : SemLoc sig).isScoped .scVector = true; decide⟩⟩),
    SparseCore.bigSep_erase' (Finset.mem_erase.mpr ⟨cell_ne d L (show (gsem0 : DmaSem sig) ≠ isem1 by decide), Finset.mem_erase.mpr ⟨cell_ne d L (show (gsem0 : DmaSem sig) ≠ isem0 by decide), (mem_ownCells (g := cell d L gsem0)).mpr ⟨rfl, by show (SemLoc.dma gsem0 : SemLoc sig).isScoped .scVector = true; decide⟩⟩⟩),
    SparseCore.bigSep_erase' (Finset.mem_erase.mpr ⟨cell_ne d L (show (gsem1 : DmaSem sig) ≠ gsem0 by decide), Finset.mem_erase.mpr ⟨cell_ne d L (show (gsem1 : DmaSem sig) ≠ isem1 by decide), Finset.mem_erase.mpr ⟨cell_ne d L (show (gsem1 : DmaSem sig) ≠ isem0 by decide), (mem_ownCells (g := cell d L gsem1)).mpr ⟨rfl, by show (SemLoc.dma gsem1 : SemLoc sig).isScoped .scVector = true; decide⟩⟩⟩⟩),
    SparseCore.bigSep_erase' (Finset.mem_erase.mpr ⟨cell_ne d L (show (ssem0 : DmaSem sig) ≠ gsem1 by decide), Finset.mem_erase.mpr ⟨cell_ne d L (show (ssem0 : DmaSem sig) ≠ gsem0 by decide), Finset.mem_erase.mpr ⟨cell_ne d L (show (ssem0 : DmaSem sig) ≠ isem1 by decide), Finset.mem_erase.mpr ⟨cell_ne d L (show (ssem0 : DmaSem sig) ≠ isem0 by decide), (mem_ownCells (g := cell d L ssem0)).mpr ⟨rfl, by show (SemLoc.dma ssem0 : SemLoc sig).isScoped .scVector = true; decide⟩⟩⟩⟩⟩),
    SparseCore.bigSep_erase' (Finset.mem_erase.mpr ⟨cell_ne d L (show (ssem1 : DmaSem sig) ≠ ssem0 by decide), Finset.mem_erase.mpr ⟨cell_ne d L (show (ssem1 : DmaSem sig) ≠ gsem1 by decide), Finset.mem_erase.mpr ⟨cell_ne d L (show (ssem1 : DmaSem sig) ≠ gsem0 by decide), Finset.mem_erase.mpr ⟨cell_ne d L (show (ssem1 : DmaSem sig) ≠ isem1 by decide), Finset.mem_erase.mpr ⟨cell_ne d L (show (ssem1 : DmaSem sig) ≠ isem0 by decide), (mem_ownCells (g := cell d L ssem1)).mpr ⟨rfl, by show (SemLoc.dma ssem1 : SemLoc sig).isScoped .scVector = true; decide⟩⟩⟩⟩⟩⟩)]

omit [FloatOps F] in
/-- The four scratch buffers are among the tile's own: they are them, at some contents, and the rest. -/
theorem ownBufs_V :
    (ownBufs (V d (cV L) (sV L)) : sProp 𝕄)
      = iprop((∃ f, (V d (cV L) (sV L)).loc cc1_scratch0 ↦{fullShare} f) ∗ (∃ f, (V d (cV L) (sV L)).loc cc1_scratch1 ↦{fullShare} f) ∗ (∃ f, (V d (cV L) (sV L)).loc cc1_scratch2 ↦{fullShare} f) ∗ (∃ f, (V d (cV L) (sV L)).loc cc1_scratch3 ↦{fullShare} f)
          ∗ bigSep (((((ownRefs (τ := τ) (.scVector (cV L) (sV L))).erase ((Proc.scVector (cV L) (sV L)).devRef cc1_scratch0)).erase ((Proc.scVector (cV L) (sV L)).devRef cc1_scratch1)).erase ((Proc.scVector (cV L) (sV L)).devRef cc1_scratch2)).erase ((Proc.scVector (cV L) (sV L)).devRef cc1_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (sV L)) (b := ((Proc.scVector (cV L) (sV L)).devRef cc1_scratch0)) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV L) (sV L)) (b := ((Proc.scVector (cV L) (sV L)).devRef cc1_scratch1)) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV L) (sV L)) (b := ((Proc.scVector (cV L) (sV L)).devRef cc1_scratch2)) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector (cV L) (sV L)) (b := ((Proc.scVector (cV L) (sV L)).devRef cc1_scratch3)) rfl⟩⟩⟩)]

/-! ## The index words a gather reads are rows of the table -/

omit [FloatOps F] in
/-- A scratch held whole, read after a copy over all of it, holds the copy's payload. -/
theorem whole_rw (b : Ref sig .scVector) (a w : BufTy.Contents (Elt F) b.ty) :
    View.read (Elt F) (Memref.whole b).view (View.write (Elt F) (Memref.whole b).view a w Finset.univ) = w :=
  (View.read_whole _ _).trans (View.write_whole_univ _ _ _)

omit [FloatOps F] in
/-- What a copy of any 25600 words of the index array leaves in the first index scratch names rows of the table. -/
theorem ix0_inb (hr : ∀ d p, (qf d p).toNat < 1000000) (a : Buf (Elt F) ((V d (cV L) (sV L)).loc cc1_scratch0))
    (off : Fin 1 → ℕ) (inb : ∀ a, off a + S25600.size a ≤ S3276800.size a) :
    ∀ x : S25600.Idx, (View.read (Elt F) ix0.view (View.write (Elt F) ix0.view a
      (ReadAs.same.apply (View.read (Elt F) (qfM.slice (Rect.unit (s := S3276800) off S25600.size inb) (fun _ => rfl)).view (qf d))) Finset.univ) x).toNat < 1000000 := by
  intro x
  have h1 := whole_rw (F := F) (cc1_scratch0 : Ref sig .scVector) a
    (ReadAs.same.apply (View.read (Elt F) (qfM.slice (Rect.unit (s := S3276800) off S25600.size inb) (fun _ => rfl)).view (qf d)))
  exact lt_of_eq_of_lt (congrArg BitVec.toNat ((congrFun h1 x).trans ((View.read_apply _ _).trans (cast_eq _ _)))) (hr d _)
omit [FloatOps F] in
/-- The same for the second index scratch. -/
theorem ix1_inb (hr : ∀ d p, (qf d p).toNat < 1000000) (a : Buf (Elt F) ((V d (cV L) (sV L)).loc cc1_scratch1))
    (off : Fin 1 → ℕ) (inb : ∀ a, off a + S25600.size a ≤ S3276800.size a) :
    ∀ x : S25600.Idx, (View.read (Elt F) ix1.view (View.write (Elt F) ix1.view a
      (ReadAs.same.apply (View.read (Elt F) (qfM.slice (Rect.unit (s := S3276800) off S25600.size inb) (fun _ => rfl)).view (qf d))) Finset.univ) x).toNat < 1000000 := by
  intro x
  have h1 := whole_rw (F := F) (cc1_scratch1 : Ref sig .scVector) a
    (ReadAs.same.apply (View.read (Elt F) (qfM.slice (Rect.unit (s := S3276800) off S25600.size inb) (fun _ => rfl)).view (qf d)))
  exact lt_of_eq_of_lt (congrArg BitVec.toNat ((congrFun h1 x).trans ((View.read_apply _ _).trans (cast_eq _ _)))) (hr d _)

/-! ## What each chunk of the result holds -/

omit [FloatOps F] in
/-- The table read through the slice that is all of it is the table. -/
theorem twAll_read (j : S1000000.Idx) : View.read (Elt F) twAll.view (tw d) j = tw d j := by
  refine (View.read_apply _ _).trans ((cast_eq _ _).trans (congrArg (tw d) ?_))
  funext a; apply Fin.ext
  show (![0] : Fin 1 → ℕ) a + 1 * (j a).val = (j a).val
  have ha : a = 0 := Subsingleton.elim (α := Fin 1) _ _
  subst ha; simp

omit [FloatOps F] in
/-- Slot 0: what the value scratch hands the store-out after a gather through the index scratch just loaded with 25600 words
    of the index array from `off`: at position `x`, the table's entry at the row the word at `off + x` names. -/
theorem slot_val0 (hr : ∀ d p, (qf d p).toNat < 1000000) (off : Fin 1 → ℕ) (inb : ∀ a, off a + S25600.size a ≤ S3276800.size a)
    (a : Buf (Elt F) ((V d (cV L) (sV L)).loc cc1_scratch0)) (fv : Buf (Elt F) ((V d (cV L) (sV L)).loc cc1_scratch2))
    (hg : S1000000.Gathers 0 S25600) (hn : S25600.numel = S25600.size hg.axis')
    (hin : ∀ x, (View.read (Elt F) ix0.view (View.write (Elt F) ix0.view a
      (ReadAs.same.apply (View.read (Elt F) (qfM.slice (Rect.unit (s := S3276800) off S25600.size inb) (fun _ => rfl)).view (qf d))) Finset.univ) x).toNat < S1000000.size hg.axis)
    (x : S25600.Idx) :
    ReadAs.same.apply (View.read (Elt F) vl0.view (View.write (Elt F) vl0.view fv
      (SparseCore.gatherPayload hg (View.read (Elt F) twAll.view (tw d)) (SparseCore.rows (View.read (Elt F) ix0.view (View.write (Elt F) ix0.view a
        (ReadAs.same.apply (View.read (Elt F) (qfM.slice (Rect.unit (s := S3276800) off S25600.size inb) (fun _ => rfl)).view (qf d))) Finset.univ)) hn hin))
      Finset.univ)) x
      = tw d (ValueIdx.ix1 (⟨(qf d ((Rect.unit (s := S3276800) off S25600.size inb).emb x)).toNat, hr d _⟩ : Fin 1000000)) := by
  have h1 := whole_rw (F := F) (cc1_scratch2 : Ref sig .scVector) fv
    (SparseCore.gatherPayload hg (View.read (Elt F) twAll.view (tw d)) (SparseCore.rows (View.read (Elt F) ix0.view (View.write (Elt F) ix0.view a
        (ReadAs.same.apply (View.read (Elt F) (qfM.slice (Rect.unit (s := S3276800) off S25600.size inb) (fun _ => rfl)).view (qf d))) Finset.univ)) hn hin))
  have h2 := whole_rw (F := F) (cc1_scratch0 : Ref sig .scVector) a
    (ReadAs.same.apply (View.read (Elt F) (qfM.slice (Rect.unit (s := S3276800) off S25600.size inb) (fun _ => rfl)).view (qf d)))
  have h3 : View.read (Elt F) ix0.view (View.write (Elt F) ix0.view a
      (ReadAs.same.apply (View.read (Elt F) (qfM.slice (Rect.unit (s := S3276800) off S25600.size inb) (fun _ => rfl)).view (qf d))) Finset.univ) x
      = qf d ((Rect.unit (s := S3276800) off S25600.size inb).emb x) :=
    (congrFun h2 x).trans ((View.read_apply _ _).trans (cast_eq _ _))
  refine (congrFun h1 x).trans ((gather_at hg _ _ hn hin x).trans ((twAll_read tw d _).trans ?_))
  have key : ∀ (A B : ℕ) (hA : A < 1000000) (hB : B < 1000000), A = B →
      tw d (ValueIdx.ix1 (⟨A, hA⟩ : Fin 1000000)) = tw d (ValueIdx.ix1 (⟨B, hB⟩ : Fin 1000000)) := by
    intro A B hA hB e; subst e; rfl
  exact key _ _ _ _ (congrArg BitVec.toNat h3)

omit [FloatOps F] in
/-- Slot 1: what the value scratch hands the store-out after a gather through the index scratch just loaded with 25600 words
    of the index array from `off`: at position `x`, the table's entry at the row the word at `off + x` names. -/
theorem slot_val1 (hr : ∀ d p, (qf d p).toNat < 1000000) (off : Fin 1 → ℕ) (inb : ∀ a, off a + S25600.size a ≤ S3276800.size a)
    (a : Buf (Elt F) ((V d (cV L) (sV L)).loc cc1_scratch1)) (fv : Buf (Elt F) ((V d (cV L) (sV L)).loc cc1_scratch3))
    (hg : S1000000.Gathers 0 S25600) (hn : S25600.numel = S25600.size hg.axis')
    (hin : ∀ x, (View.read (Elt F) ix1.view (View.write (Elt F) ix1.view a
      (ReadAs.same.apply (View.read (Elt F) (qfM.slice (Rect.unit (s := S3276800) off S25600.size inb) (fun _ => rfl)).view (qf d))) Finset.univ) x).toNat < S1000000.size hg.axis)
    (x : S25600.Idx) :
    ReadAs.same.apply (View.read (Elt F) vl1.view (View.write (Elt F) vl1.view fv
      (SparseCore.gatherPayload hg (View.read (Elt F) twAll.view (tw d)) (SparseCore.rows (View.read (Elt F) ix1.view (View.write (Elt F) ix1.view a
        (ReadAs.same.apply (View.read (Elt F) (qfM.slice (Rect.unit (s := S3276800) off S25600.size inb) (fun _ => rfl)).view (qf d))) Finset.univ)) hn hin))
      Finset.univ)) x
      = tw d (ValueIdx.ix1 (⟨(qf d ((Rect.unit (s := S3276800) off S25600.size inb).emb x)).toNat, hr d _⟩ : Fin 1000000)) := by
  have h1 := whole_rw (F := F) (cc1_scratch3 : Ref sig .scVector) fv
    (SparseCore.gatherPayload hg (View.read (Elt F) twAll.view (tw d)) (SparseCore.rows (View.read (Elt F) ix1.view (View.write (Elt F) ix1.view a
        (ReadAs.same.apply (View.read (Elt F) (qfM.slice (Rect.unit (s := S3276800) off S25600.size inb) (fun _ => rfl)).view (qf d))) Finset.univ)) hn hin))
  have h2 := whole_rw (F := F) (cc1_scratch1 : Ref sig .scVector) a
    (ReadAs.same.apply (View.read (Elt F) (qfM.slice (Rect.unit (s := S3276800) off S25600.size inb) (fun _ => rfl)).view (qf d)))
  have h3 : View.read (Elt F) ix1.view (View.write (Elt F) ix1.view a
      (ReadAs.same.apply (View.read (Elt F) (qfM.slice (Rect.unit (s := S3276800) off S25600.size inb) (fun _ => rfl)).view (qf d))) Finset.univ) x
      = qf d ((Rect.unit (s := S3276800) off S25600.size inb).emb x) :=
    (congrFun h2 x).trans ((View.read_apply _ _).trans (cast_eq _ _))
  refine (congrFun h1 x).trans ((gather_at hg _ _ hn hin x).trans ((twAll_read tw d _).trans ?_))
  have key : ∀ (A B : ℕ) (hA : A < 1000000) (hB : B < 1000000), A = B →
      tw d (ValueIdx.ix1 (⟨A, hA⟩ : Fin 1000000)) = tw d (ValueIdx.ix1 (⟨B, hB⟩ : Fin 1000000)) := by
    intro A B hA hB e; subst e; rfl
  exact key _ _ _ _ (congrArg BitVec.toNat h3)

omit [FloatOps F] in
/-- A chunk of the result written whole with words that are the table's entries at the rows the index words of the same chunk
    name holds the gathered array there. -/
theorem piece_val (hr : ∀ d p, (qf d p).toNat < 1000000) (off : Fin 1 → ℕ) (inb : ∀ a, off a + S25600.size a ≤ S3276800.size a)
    (fo : Buf (Elt F) (outLoc d)) (w : S25600.Idx → Elt F .f32)
    (hw : ∀ x, w x = tw d (ValueIdx.ix1 (⟨(qf d ((Rect.unit (s := S3276800) off S25600.size inb).emb x)).toNat, hr d _⟩ : Fin 1000000))) :
    ∀ i ∈ (Rect.unit (s := S3276800) off S25600.size inb).set,
      (outM.slice (Rect.unit (s := S3276800) off S25600.size inb) (fun _ => rfl)).view.writes (Elt F) fo [⟨Rect.whole S25600, w⟩] i = gath tw qf d i := by
  intro i hi
  rw [← Rect.map_emb_univ, Finset.mem_map] at hi
  obtain ⟨x, -, rfl⟩ := hi
  rw [View.writes_singleton]
  have e : (((outM.slice (Rect.unit (s := S3276800) off S25600.size inb) (fun _ => rfl)).view.slice (Rect.whole S25600)).emb x : S3276800.Idx)
      = (Rect.unit (s := S3276800) off S25600.size inb).emb x := by
    show (Rect.unit (s := S3276800) off S25600.size inb).emb ((Rect.whole S25600).emb x) = _
    rw [Rect.emb_whole_apply]
  have h1 := View.write_emb_of_mem (v := (outM.slice (Rect.unit (s := S3276800) off S25600.size inb) (fun _ => rfl)).view.slice (Rect.whole S25600))
    (Val := Elt F) fo w (M := Finset.univ) (x := x) (Finset.mem_univ x)
  rw [e] at h1
  refine h1.trans ((cast_eq _ _).trans ((hw x).trans ?_))
  unfold gath
  exact congrArg (fun n : Fin 1000000 => tw d (ValueIdx.ix1 n)) (Fin.ext (Cert.Proof.Spec.row_val (hr d _)).symm)

/-! ## One indexed copy and its wait -/

/-- The gather of the table's rows named by an index scratch into a value scratch, then its wait: from a read share of the
    table, the two scratches whole, the semaphore at zero and index words that name rows, to the value scratch written with
    the rows the words name, everything else back and the wait recorded. The rows' credits sum to the value scratch's own. -/
theorem gather_step {α : Type} (ix : Memref sig .scVector .vmem S25600 .i32) (vl : Memref sig .scVector .vmem S25600 .f32)
    (hix : ix.view.set = Finset.univ) (hvl : vl.view.set = Finset.univ)
    (hcr : ∀ s' : Shape, sig.dmaCredit .scVector (Kind.scVector.table .vmem) vl.view.buf s' .f32 = s'.numel * EltTy.f32.bits)
    {hp : (V d (cV L) (sV L)).2.kind = Kind.scVector} {hg : S1000000.Gathers 0 S25600} {hn : S25600.numel = S25600.size hg.axis'} {sem : DmaSem sig}
    {hsrc : twAll.view.WordExact} {he : EltTy.f32.bits = 32} {hsp : Space.hbm = .hbm ∨ Space.hbm = .shared} {hr' : S1000000.StreamRows 0}
    {hsrc' : twAll.view.WordExact} {hdst' : vl.view.WordExact}
    (q : PosShare TreeShare) (g : Buf (Elt F) (twLoc d)) (fi : Buf (Elt F) (ix.view.loc (V d (cV L) (sV L)))) (fv : Buf (Elt F) (vl.view.loc (V d (cV L) (sV L))))
    (hin : ∀ x, (ix.view.read (Elt F) fi x).toNat < S1000000.size hg.axis)
    (O : CellTallies nD τ sig (HIx 1)) (W : Waits sig (HIx 1))
    (k : PUnit → Prog (TpuEff nD τ sig (Elt F) Λ₀ (V d (cV L) (sV L)).2) α) (Q : α → sProp 𝕄) :
    iprop((Transfers.MayWaits (V d (cV L) (sV L)) (default : HIx 1) O : sProp 𝕄) ∗ (twLoc d ↦{q} g)
        ∗ (vl.view.loc (V d (cV L) (sV L)) ↦{fullShare} fv) ∗ (ix.view.loc (V d (cV L) (sV L)) ↦{fullShare} fi)
        ∗ semVal (V d (cV L) (sV L), SemLoc.dma sem) 0 ∗ owes (V d (cV L) (sV L)) O W)
      ⊢ iprop((iprop((twLoc d ↦{q} g)
              ∗ (vl.view.loc (V d (cV L) (sV L)) ↦{fullShare}
                  vl.view.write (Elt F) fv (SparseCore.gatherPayload hg (twAll.view.read (Elt F) (g)) (SparseCore.rows (ix.view.read (Elt F) fi) hn hin)) Finset.univ)
              ∗ (ix.view.loc (V d (cV L) (sV L)) ↦{fullShare} fi)
              ∗ semVal (V d (cV L) (sV L), SemLoc.dma sem) 0 ∗ owes (V d (cV L) (sV L)) O (insert (SemLoc.dma sem, (default : HIx 1)) W))
            -∗ wp frame (wpE (defs₀ (F := F)) 𝒱₀ (V d (cV L) (sV L)) none) Set.univ (k ⟨⟩) Q)
          -∗ wp frame (wpE (defs₀ (F := F)) 𝒱₀ (V d (cV L) (sV L)) none) Set.univ
              (SparseCore.enqueueIndirectGather hp twAll vl hg ix hn sem hsrc he hsp hr' >>= fun _ =>
                SparseCore.waitIndirectGather sem twAll vl hsrc' hdst' >>= k) Q) := by
  iintro ⟨#Hmw, Htw, Hv, Hi, Hsem, HO⟩ Hk
  ihave Htw' := (Entails.of_eq (pts_tw (F := F) d L q (g)).symm) $$ Htw
  ihave Hsp := (pointsTo_split_subset (q := q) (f := g) (S := Finset.univ) (Finset.subset_univ twAll.view.set)).1 $$ Htw'
  icases Hsp with ⟨Hts, Htr⟩
  ihave Hv' := (Entails.of_eq (show (vl.view.loc (V d (cV L) (sV L)) ↦{fullShare} fv : sProp 𝕄)
      = vl.view.loc (V d (cV L) (sV L)) ↦[vl.view.set]{fullShare} fv by rw [hvl])) $$ Hv
  ihave Hi' := (Entails.of_eq (show (ix.view.loc (V d (cV L) (sV L)) ↦{fullShare} fi : sProp 𝕄)
      = ix.view.loc (V d (cV L) (sV L)) ↦[ix.view.set]{fullShare} fi by rw [hix])) $$ Hi
  iapply (SparseCore.wp_indirectGatherLocal countersEmb 𝒱₀ (V d (cV L) (sV L)) none (hg := hg) (default : HIx 1) vl.view.dmaCredit
      (SparseCore.sum_rowCredit_eq_dmaCredit vl hg.axis' hcr) (by decide) hin) $$ [Hts Hv' Hi' Hsem]
  · isplitl [Hts]; · iexact Hts
    isplitl [Hv']; · iexact Hv'
    isplitl [Hi']; · iexact Hi'
    iexact Hsem
  iintro Hfl
  iapply (Transfers.wp_waitLocalO countersEmb 𝒱₀ (V d (cV L) (sV L)) none (default : HIx 1) (rfl : vl.view.dmaCredit = _)) $$ [Hfl HO]
  · isplitl [Hfl]; · iexact Hfl
    isplitl [HO]; · iexact HO
    iapply (Transfers.MayWaits.elim (SemLoc.dma sem)) $$ Hmw
  iintro ⟨⟨Hv', Hts, Hi'⟩, Hsem, HO⟩
  iapply Hk
  ihave Htw' := (pointsTo_split_subset (q := q) (f := g) (S := Finset.univ) (Finset.subset_univ twAll.view.set)).2 $$ [Hts Htr]
  · isplitl [Hts] <;> iassumption
  isplitl [Htw']; · iapply (Entails.of_eq (pts_tw (F := F) d L q (g))); iexact Htw'
  isplitl [Hv']
  · iapply (Entails.of_eq (show (vl.view.loc (V d (cV L) (sV L)) ↦[vl.view.set]{fullShare} _ : sProp 𝕄)
      = vl.view.loc (V d (cV L) (sV L)) ↦{fullShare} _ by rw [hvl])); iexact Hv'
  isplitl [Hi']
  · iapply (Entails.of_eq (show (ix.view.loc (V d (cV L) (sV L)) ↦[ix.view.set]{fullShare} fi : sProp 𝕄)
      = ix.view.loc (V d (cV L) (sV L)) ↦{fullShare} fi by rw [hix])); iexact Hi'
  isplitl [Hsem]; · iexact Hsem
  iexact HO

set_option maxHeartbeats 8000000 in
/-- The task on tile `L`: four chunks, each loaded into an index scratch, gathered through it into a value scratch, stored out;
    each chunk of the result then holds the gathered array's words. -/
theorem tile_body (hF : (K (F := F)).Facts) (hr : ∀ d p, (qf d p).toNat < 1000000) (O : CellTallies nD τ sig (HIx 1)) (W : Waits sig (HIx 1)) (hO : ∀ g, O g none = 0) :
    iprop(levAts (K (F := F)).L (K (F := F)).lev ∗ emp ∗ (∃ f, tileRes tw qf d L f)
        ∗ scopedBufs (V d (cV L) (sV L)) ∗ scopedSems0 (V d (cV L) (sV L)) ∗ owes (V d (cV L) (sV L)) O W)
      ⊢ wp frame (wpE (defs₀ (F := F)) 𝒱₀ (V d (cV L) (sV L)) none) Set.univ
          (cc1_gather_k L twM (Memref.isWhole_whole _) qfM (Memref.isWhole_whole _) outM (Memref.isWhole_whole _)
            ix0 (Memref.isWhole_whole _) ix1 (Memref.isWhole_whole _) vl0 (Memref.isWhole_whole _) vl1 (Memref.isWhole_whole _) cc1_scratch4 cc1_scratch5 cc1_scratch6)
          fun _ => iprop(tileRes tw qf d L (gath tw qf d) ∗ scopedBufs (V d (cV L) (sV L)) ∗ scopedSems0 (V d (cV L) (sV L))
            ∗ ∃ W', ⌜∀ p ∈ W', p ∈ W ∨ p.2 = none⌝ ∗ owes (V d (cV L) (sV L)) O W') := by
  simp only [cc1_gather_k_eq_skeleton]; unfold cc1_gather_k_skel
  rw [(K (F := F)).scopedBufs_V hF d (cV L) (sV L), SparseCore.Cfg.scopedSems0_V (Val := Elt F) d (cV L) (sV L), ownSems0_V, ownBufs_V]
  unfold tileRes
  simp only [bigSep_fin4]
  iintro ⟨#Hlv, -, ⟨%fo, ⟨Hq0, Hq1, Hq2, Hq3⟩, ⟨Ho0, Ho1, Ho2, Ho3⟩, Htw⟩, ⟨⟨%a0, Hi0⟩, ⟨%a1, Hi1⟩, ⟨%b0, Hv0⟩, ⟨%b1, Hv1⟩, Hbufs⟩, ⟨Hs0, Hs1, Hg0, Hg1, Ht0, Ht1, Hsems⟩, HO⟩
  ihave Hmw := (show levAts (K (F := F)).L (K (F := F)).lev ⊢ Transfers.MayWaits (V d (cV L) (sV L)) (default : HIx 1) O from
    (K (F := F)).mayWaits_none (thr := V d (cV L) (sV L)) hO) $$ Hlv
  ihave Hq0' := (Entails.of_eq (pts_q0 (F := F) d L _).symm) $$ Hq0
  ihave Hq1' := (Entails.of_eq (pts_q1 (F := F) d L _).symm) $$ Hq1
  ihave Hq2' := (Entails.of_eq (pts_q2 (F := F) d L _).symm) $$ Hq2
  ihave Hq3' := (Entails.of_eq (pts_q3 (F := F) d L _).symm) $$ Hq3
  ihave Ho0' := (Entails.of_eq (pts_o0 (F := F) d L _).symm) $$ Ho0
  ihave Ho1' := (Entails.of_eq (pts_o1 (F := F) d L _).symm) $$ Ho1
  ihave Ho2' := (Entails.of_eq (pts_o2 (F := F) d L _).symm) $$ Ho2
  ihave Ho3' := (Entails.of_eq (pts_o3 (F := F) d L _).symm) $$ Ho3
  ihave Hi0' := (Entails.of_eq (pts_ix0 (F := F) d L _).symm) $$ Hi0
  ihave Hi1' := (Entails.of_eq (pts_ix1 (F := F) d L _).symm) $$ Hi1
  ihave Hv0' := (Entails.of_eq (pts_vl0 (F := F) d L _).symm) $$ Hv0
  ihave Hv1' := (Entails.of_eq (pts_vl1 (F := F) d L _).symm) $$ Hv1
  have hin0 := ix0_inb qf d L hr
  have hin1 := ix1_inb qf d L hr
  sl_exec
  iapply (gather_step d L ix0 vl0 (View.set_whole _) (View.set_whole _) (fun _ => rfl) _ (tw d) _ _ (hin0 _ _ _) O _ _ _) $$ [Htw Hv0' Hi0' Hg0 HO]
  · isplitr; · iexact Hmw
    isplitl [Htw]; · iexact Htw
    isplitl [Hv0']; · iexact Hv0'
    isplitl [Hi0']; · iexact Hi0'
    isplitl [Hg0]; · iexact Hg0
    iexact HO
  iintro ⟨Htw, Hv0', Hi0', Hg0, HO⟩
  sl_exec
  iapply (gather_step d L ix1 vl1 (View.set_whole _) (View.set_whole _) (fun _ => rfl) _ (tw d) _ _ (hin1 _ _ _) O _ _ _) $$ [Htw Hv1' Hi1' Hg1 HO]
  · isplitr; · iexact Hmw
    isplitl [Htw]; · iexact Htw
    isplitl [Hv1']; · iexact Hv1'
    isplitl [Hi1']; · iexact Hi1'
    isplitl [Hg1]; · iexact Hg1
    iexact HO
  iintro ⟨Htw, Hv1', Hi1', Hg1, HO⟩
  sl_exec
  iapply (gather_step d L ix0 vl0 (View.set_whole _) (View.set_whole _) (fun _ => rfl) _ (tw d) _ _ (hin0 _ _ _) O _ _ _) $$ [Htw Hv0' Hi0' Hg0 HO]
  · isplitr; · iexact Hmw
    isplitl [Htw]; · iexact Htw
    isplitl [Hv0']; · iexact Hv0'
    isplitl [Hi0']; · iexact Hi0'
    isplitl [Hg0]; · iexact Hg0
    iexact HO
  iintro ⟨Htw, Hv0', Hi0', Hg0, HO⟩
  sl_exec
  iapply (gather_step d L ix1 vl1 (View.set_whole _) (View.set_whole _) (fun _ => rfl) _ (tw d) _ _ (hin1 _ _ _) O _ _ _) $$ [Htw Hv1' Hi1' Hg1 HO]
  · isplitr; · iexact Hmw
    isplitl [Htw]; · iexact Htw
    isplitl [Hv1']; · iexact Hv1'
    isplitl [Hi1']; · iexact Hi1'
    isplitl [Hg1]; · iexact Hg1
    iexact HO
  iintro ⟨Htw, Hv1', Hi1', Hg1, HO⟩
  sl_exec
  sl_step
  isplitl [Hq0' Hq1' Hq2' Hq3' Ho0' Ho1' Ho2' Ho3' Htw]
  · isplitl [Hq0' Hq1' Hq2' Hq3']
    · isplitl [Hq0']; · iapply (Entails.of_eq (pts_q0 (F := F) d L _)); iexact Hq0'
      isplitl [Hq1']; · iapply (Entails.of_eq (pts_q1 (F := F) d L _)); iexact Hq1'
      isplitl [Hq2']; · iapply (Entails.of_eq (pts_q2 (F := F) d L _)); iexact Hq2'
      iapply (Entails.of_eq (pts_q3 (F := F) d L _)); iexact Hq3'
    isplitl [Ho0' Ho1' Ho2' Ho3']
    · isplitl [Ho0']; · iapply (Entails.of_eq ((pts_o0 (F := F) d L _).trans (pointsTo_congr
        (piece_val tw qf d hr (k1_off1 L 0#32) (k1_off1_inb L 0) fo _ (fun x => slot_val0 tw qf d L hr (k1_off1 L 0#32) (k1_off1_inb L 0) _ _ _ _ _ x))))); iexact Ho0'
      isplitl [Ho1']; · iapply (Entails.of_eq ((pts_o1 (F := F) d L _).trans (pointsTo_congr
        (piece_val tw qf d hr (k1_off1 L 25600#32) (k1_off1_inb L 1) fo _ (fun x => slot_val1 tw qf d L hr (k1_off1 L 25600#32) (k1_off1_inb L 1) _ _ _ _ _ x))))); iexact Ho1'
      isplitl [Ho2']; · iapply (Entails.of_eq ((pts_o2 (F := F) d L _).trans (pointsTo_congr
        (piece_val tw qf d hr (k1_off1 L 51200#32) (k1_off1_inb L 2) fo _ (fun x => slot_val0 tw qf d L hr (k1_off1 L 51200#32) (k1_off1_inb L 2) _ _ _ _ _ x))))); iexact Ho2'
      iapply (Entails.of_eq ((pts_o3 (F := F) d L _).trans (pointsTo_congr
        (piece_val tw qf d hr (k1_off1 L 76800#32) (k1_off1_inb L 3) fo _ (fun x => slot_val1 tw qf d L hr (k1_off1 L 76800#32) (k1_off1_inb L 3) _ _ _ _ _ x))))); iexact Ho3'
    iexact Htw
  isplitl [Hi0' Hi1' Hv0' Hv1' Hbufs]
  · isplitl [Hi0']; · iexists _; iapply (Entails.of_eq (pts_ix0 (F := F) d L _)); iexact Hi0'
    isplitl [Hi1']; · iexists _; iapply (Entails.of_eq (pts_ix1 (F := F) d L _)); iexact Hi1'
    isplitl [Hv0']; · iexists _; iapply (Entails.of_eq (pts_vl0 (F := F) d L _)); iexact Hv0'
    isplitl [Hv1']; · iexists _; iapply (Entails.of_eq (pts_vl1 (F := F) d L _)); iexact Hv1'
    iexact Hbufs
  isplitl [Hs0 Hs1 Hg0 Hg1 Ht0 Ht1 Hsems]
  · isplitl [Hs0]; · iexact Hs0
    isplitl [Hs1]; · iexact Hs1
    isplitl [Hg0]; · iexact Hg0
    isplitl [Hg1]; · iexact Hg1
    isplitl [Ht0]; · iexact Ht0
    isplitl [Ht1]; · iexact Ht1
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-! ## The launch theorem's obligation -/

theorem defs₀_vector (c : Fin τ.nSC) (s : Fin τ.nSub) :
    defs₀ (F := F) (.scVector c s) 1 ⟨⟩
      = SparseCore.onTile hcore1 hsub1 (fun c s => cc1_gather_k (coordsV c s)
          twM (Memref.isWhole_whole _) qfM (Memref.isWhole_whole _) outM (Memref.isWhole_whole _)
          ix0 (Memref.isWhole_whole _) ix1 (Memref.isWhole_whole _) vl0 (Memref.isWhole_whole _) vl1 (Memref.isWhole_whole _)
          cc1_scratch4 cc1_scratch5 cc1_scratch6) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hr : ∀ d p, (qf d p).toNat < 1000000) : (K (F := F)).TileObl (D (F := F)) 𝒱 (P tw qf) v₀ 0 := by
  intro d c i O W hO _ _
  -- this kernel owes nothing for a protocol of its own
  simp only [show (P tw qf).ox = fun _ _ => 0 from rfl, add_zero]
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body tw qf d (coordsV ⟨_, hc.1⟩ ⟨_, hc.2⟩) hF hr O W hO).trans (wp_mono frame _ _ fun _ => obl_post)

end Cert.Proof.KI

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.TwMatmul.lean ====
/-
  The first contraction of the projection: a 40960 x 32 block times the 32 x 128 matrix of ones, into a zero
  accumulator. Every lane of row r then holds the same number, the sum over k of the block's entries (r, k):
  the textbook contraction, with each factor from the right operand equal to one.
-/
import proofs.«206189_g37357625540624_cont_8to1_b_987_36_alg».proof.Proof.Gen.KernelIdeal.Skeleton
import proofs.«206189_g37357625540624_cont_8to1_b_987_36_alg».proof.Proof.LibMatmul
import Idealize.ShloMosaic.Lib.IdealHost

noncomputable section

namespace Cert.Proof.TwMatmul

open Cert.KernelIdeal Cert.KernelIdeal.Gen Idealize.ShloMosaic Idealize.ShloMosaic.ValueIdx

/-- Entry (r, l) of the product with the all-ones matrix is the r-th row sum, whatever the lane l:
    each term a(r, k) * 1 is a(r, k) on the extended reals. -/
theorem matmul_ones_apply (a : FVec Ideal S40960x32 .f32) (r : Fin 40960) (l : Fin 128) :
    matmul dot_S40960x32_S32x128_S40960x128_1_0_0_1_n_n none a
        (broadcast S32x128 (Scalar.ofBits (F := Ideal) .f32 0x3F800000#32))
        (constant (F := Ideal) S40960x128 .f32 0x00000000#32) (ix2 r l)
      = ∑ k : Fin 32, a (ix2 r k) := by
  refine (Cert.MatmulAt.matmul_zero_plain_apply dot_S40960x32_S32x128_S40960x128_1_0_0_1_n_n_wf none a
    (broadcast S32x128 (Scalar.ofBits (F := Ideal) .f32 0x3F800000#32)) r l).trans ?_
  refine Finset.sum_congr rfl fun k _ => ?_
  show a (ix2 r k) * Ideal.ofBits .f32 0x3F800000#32 = a (ix2 r k)
  rw [Ideal.ofBits_one_f32, mul_one]

end Cert.Proof.TwMatmul

end
-- ==== Proof.TwDiag.lean ====
/-
  The diagonal mask of the projection. On the 40960 x 128 grid of (row, lane) pairs the kernel compares the row number
  with its low seven bits kept (row AND 127, that is row mod 128) against the lane number: the mask is set exactly at the
  pairs (r, l) with r mod 128 = l, one lane in each row.
-/
import proofs.«206189_g37357625540624_cont_8to1_b_987_36_alg».proof.Proof.Gen.KernelIdeal.Skeleton
import Idealize.ShloMosaic.Lib.ValueIdx

noncomputable section

namespace Cert.Proof.TwDiag

open Cert.KernelIdeal Cert.KernelIdeal.Gen Idealize.ShloMosaic Idealize.ShloMosaic.ValueIdx

/-- The row counter at (r, l) is the word of r. -/
theorem iota_row_apply (h : S40960x128.Iotas .tc 32 [0]) (r : Fin 40960) (l : Fin 128) :
    iota .tc S40960x128 32 [0] h (ix2 r l) = BitVec.ofNat 32 r.val := by
  show BitVec.ofNat 32 (0 * 40960 + r.val) = BitVec.ofNat 32 r.val
  rw [Nat.zero_mul, Nat.zero_add]

/-- The lane counter at (r, l) is the word of l. -/
theorem iota_lane_apply (h : S40960x128.Iotas .tc 32 [1]) (r : Fin 40960) (l : Fin 128) :
    iota .tc S40960x128 32 [1] h (ix2 r l) = BitVec.ofNat 32 l.val := by
  show BitVec.ofNat 32 (0 * 128 + l.val) = BitVec.ofNat 32 l.val
  rw [Nat.zero_mul, Nat.zero_add]

/-- Keeping the low seven bits of the word of a row number below 2^32 gives the word of the number mod 128. -/
theorem and_127 (n : Nat) (hn : n < 40960) : (BitVec.ofNat 32 n) &&& 127#32 = BitVec.ofNat 32 (n % 128) := by
  apply BitVec.eq_of_toNat_eq
  rw [BitVec.toNat_and, BitVec.toNat_ofNat, BitVec.toNat_ofNat, BitVec.toNat_ofNat]
  have h1 : n % 2 ^ 32 = n := Nat.mod_eq_of_lt (by omega)
  have h2 : n % 128 % 2 ^ 32 = n % 128 := Nat.mod_eq_of_lt (by omega)
  have h3 : 127 % 2 ^ 32 = 2 ^ 7 - 1 := by norm_num
  rw [h1, h2, h3, Nat.and_two_pow_sub_one_eq_mod]

/-- Two words of numbers below 2^32 are the same word exactly when the numbers are equal. -/
theorem ofNat_eq_iff (a b : Nat) (ha : a < 2 ^ 32) (hb : b < 2 ^ 32) :
    BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · intro h; rw [h]

/-- THE MASK AT (r, l): set exactly when r mod 128 = l. -/
theorem diag_mask_apply (h0 : S40960x128.Iotas .tc 32 [0]) (h1 : S40960x128.Iotas .tc 32 [1])
    (r : Fin 40960) (l : Fin 128) :
    cmpi .eq (andi (iota .tc S40960x128 32 [0] h0) (broadcast S40960x128 127#32)) (iota .tc S40960x128 32 [1] h1)
        (ix2 r l)
      = if r.val % 128 = l.val then 1#1 else 0#1 := by
  show IntOp.cmpi .eq (IntOp.andi (iota .tc S40960x128 32 [0] h0 (ix2 r l)) 127#32)
      (iota .tc S40960x128 32 [1] h1 (ix2 r l)) = _
  rw [iota_row_apply, iota_lane_apply]
  show BitVec.ofBool ((BitVec.ofNat 32 r.val &&& 127#32) == BitVec.ofNat 32 l.val) = _
  rw [and_127 r.val r.isLt]
  by_cases hrl : r.val % 128 = l.val
  · rw [if_pos hrl, hrl, beq_self_eq_true]; rfl
  · rw [if_neg hrl]
    have hne : BitVec.ofNat 32 (r.val % 128) ≠ BitVec.ofNat 32 l.val := fun he =>
      hrl ((ofNat_eq_iff _ _ (by omega) (by have := l.isLt; omega)).mp he)
    rw [beq_eq_false_iff_ne.mpr hne]; rfl

/-- A select under the mask, read at (r, l): the first operand on the diagonal r mod 128 = l, the second elsewhere. -/
theorem select_diag_apply {α : Type} (h0 : S40960x128.Iotas .tc 32 [0]) (h1 : S40960x128.Iotas .tc 32 [1])
    (a b : S40960x128.Idx → α) (r : Fin 40960) (l : Fin 128) :
    select (cmpi .eq (andi (iota .tc S40960x128 32 [0] h0) (broadcast S40960x128 127#32))
        (iota .tc S40960x128 32 [1] h1)) a b (ix2 r l)
      = if r.val % 128 = l.val then a (ix2 r l) else b (ix2 r l) := by
  refine (select_apply _ a b (ix2 r l)).trans ?_
  rw [diag_mask_apply h0 h1 r l]
  by_cases hrl : r.val % 128 = l.val
  · rw [if_pos hrl, if_pos hrl]; exact select_one _ _
  · rw [if_neg hrl, if_neg hrl]; exact select_zero _ _

end Cert.Proof.TwDiag

end
-- ==== Proof.TwLane.lean ====
/-
  The lane fold of the projection. A 40960 x 128 array m is recast as 320 x 128 x 128 (row 128 g + r' becomes the pair
  (g, r')), summed over the MIDDLE axis from the initial value zero, and the 320 x 128 result is recast as a vector of
  40960 entries (entry 128 g + l is (g, l)). Entry r of the vector is therefore the sum, over r' below 128, of
  m(128 (r / 128) + r', r mod 128): the recasts only rename positions (equal row-major positions), and the sum over one
  axis is the finite sum over that axis's coordinates.
-/
import proofs.«206189_g37357625540624_cont_8to1_b_987_36_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Proof.TwLane

open Cert.KernelIdeal Cert.KernelIdeal.Gen Idealize.ShloMosaic Idealize.ShloMosaic.ValueIdx

/-- Row 128 g + r' of the 40960-row array, as a row number. -/
abbrev rowOf (g : Fin 320) (r' : Fin 128) : Fin 40960 := ⟨128 * g.val + r'.val, by have := g.isLt; have := r'.isLt; omega⟩

/-- The group r / 128 of a row. -/
abbrev grp (r : Fin 40960) : Fin 320 := ⟨r.val / 128, by have := r.isLt; omega⟩

/-- The place r mod 128 of a row inside its group. -/
abbrev plc (r : Fin 40960) : Fin 128 := ⟨r.val % 128, by omega⟩

/-- The recast 40960 x 128 -> 320 x 128 x 128 at (g, r', l) reads the operand at (128 g + r', l). -/
theorem cast3_apply {α : Type} (x : S40960x128.Idx → α) (h : S40960x128.ShapeCasts S320x128x128)
    (g : Fin 320) (r' : Fin 128) (l : Fin 128) :
    shapeCast S320x128x128 x h (ix3 g r' l) = x (ix2 (rowOf g r') l) :=
  shapeCast_apply x h (ix3 g r' l) (ix2 (rowOf g r') l) (by
    rw [Shape.rowMajor_val_two, Shape.rowMajor_val_three]
    show (128 * g.val + r'.val) * 128 + l.val = (g.val * 128 + r'.val) * 128 + l.val
    omega)

/-- The recast 320 x 128 -> 40960 at r reads the operand at (r / 128, r mod 128). -/
theorem cast1_apply {α : Type} (x : S320x128.Idx → α) (h : S320x128.ShapeCasts S40960) (r : Fin 40960) :
    shapeCast S40960 x h (ix1 r) = x (ix2 (grp r) (plc r)) :=
  shapeCast_apply x h (ix1 r) (ix2 (grp r) (plc r)) (by
    rw [Shape.rowMajor_val_two, Shape.rowMajor_val_one]
    show r.val / 128 * 128 + r.val % 128 = r.val
    omega)

/-- The sum over the middle axis from the zero word, at (g, l): the finite sum over r' of the source at (g, r', l). -/
theorem midsum_apply (src : FVec Ideal S320x128x128 .f32) (h : S320x128x128.Reduces [1] S320x128)
    (hφ : FKind.Formats .f32) (hacc : (0x00000000#32 : BitVec 32) = FKind.add.neutral .f32 hφ)
    (g : Fin 320) (l : Fin 128) :
    multiReduction .add [1] S320x128 src 0x00000000#32 h hφ hacc (ix2 g l) = ∑ r' : Fin 128, src (ix3 g r' l) := by
  refine (Ideal.multiReduction_add_single src 0x00000000#32 h hφ hacc (ix2 g l)).trans ?_
  show ∑ r' : Fin 128, src (h.lift (ix2 g l) r') = ∑ r' : Fin 128, src (ix3 g r' l)
  refine Finset.sum_congr rfl fun r' _ => congrArg src ?_
  funext c
  match c with
  | ⟨0, _⟩ => rfl
  | ⟨1, _⟩ => rfl
  | ⟨2, _⟩ => rfl

/-- THE LANE FOLD AT r: recast, sum over the middle axis, recast back. -/
theorem lane_fold_apply (m : FVec Ideal S40960x128 .f32) (h3 : S40960x128.ShapeCasts S320x128x128)
    (hr : S320x128x128.Reduces [1] S320x128) (hφ : FKind.Formats .f32)
    (hacc : (0x00000000#32 : BitVec 32) = FKind.add.neutral .f32 hφ) (h1 : S320x128.ShapeCasts S40960) (r : Fin 40960) :
    shapeCast S40960 (multiReduction .add [1] S320x128 (shapeCast S320x128x128 m h3) 0x00000000#32 hr hφ hacc) h1 (ix1 r)
      = ∑ r' : Fin 128, m (ix2 (rowOf (grp r) r') (plc r)) := by
  refine (cast1_apply _ h1 r).trans ?_
  refine (midsum_apply _ hr hφ hacc (grp r) (plc r)).trans ?_
  exact Finset.sum_congr rfl fun r' _ => cast3_apply m h3 (grp r) r' (plc r)

end Cert.Proof.TwLane

end
-- ==== Proof.TwBlock.lean ====
/-
  The projection block at an entry. The block's arithmetic is: multiply a 40960 x 32 table block x entrywise by a weight
  row w broadcast over the rows, contract with the 32 x 128 matrix of ones into a zero accumulator (every lane of row r
  holds the row sum of x(r, k) w(0, k)), keep the lane r mod 128 of row r and put the literal zero elsewhere, fold the
  128 rows of each group of 128 into one row by a sum from zero, read the 320 x 128 result as 40960 entries, and add the
  bias. In the fold for entry r every term but one is the literal zero, and the one left is the row sum of row r:
  entry r is the sum over k of x(r, k) w(0, k), plus the bias. Only x * 1 = x, 0 + x = x and a finite sum with a single
  non-zero term are used; they hold on the extended reals with no finiteness assumption.
-/
import proofs.«206189_g37357625540624_cont_8to1_b_987_36_alg».proof.Proof.Gen.KernelIdeal.Skeleton
import proofs.«206189_g37357625540624_cont_8to1_b_987_36_alg».proof.Proof.TwMatmul
import proofs.«206189_g37357625540624_cont_8to1_b_987_36_alg».proof.Proof.TwDiag
import proofs.«206189_g37357625540624_cont_8to1_b_987_36_alg».proof.Proof.TwLane
import Idealize.ShloMosaic.Lib.ValueIdx
import Idealize.ShloMosaic.Lib.ValueLayout
import Idealize.ShloMosaic.Lib.Pipeline.Value
import Idealize.ShloMosaic.PureOps.Ideal.Laws

noncomputable section

namespace Cert.Proof.TwBlock

open Cert.KernelIdeal Cert.KernelIdeal.Gen Idealize.ShloMosaic Idealize.ShloMosaic.ValueIdx
open Cert.Proof.TwLane (rowOf grp plc)

/-- Row 128 (r / 128) + r mod 128 is row r. -/
theorem rowOf_grp_plc (r : Fin 40960) : rowOf (grp r) (plc r) = r :=
  Fin.ext (by show 128 * (r.val / 128) + r.val % 128 = r.val; omega)

/-- Row 128 g + r' has place r' in its group. -/
theorem rowOf_mod (g : Fin 320) (r' : Fin 128) : (rowOf g r').val % 128 = r'.val := by
  show (128 * g.val + r'.val) % 128 = r'.val
  have := r'.isLt; omega

/-- The weight row broadcast over the block's rows, at (r, k), is the weight at (0, k). -/
theorem weight_apply (w : Vec Ideal S1x32 .f32) (hc : S1x32.ShapeCasts S1x32) (hb : S1x32.Broadcasts S40960x32)
    (r : Fin 40960) (k : Fin 32) :
    broadcastTo S40960x32 (shapeCast S1x32 w hc) hb (ix2 r k) = w (ix2 (0 : Fin 1) k) := by
  refine (broadcastTo_1b_ab_apply (shapeCast S1x32 w hc) hb r k).trans ?_
  rw [shapeCast_self]

/-- The bias read at its one position. -/
theorem bias_apply (b : Vec Ideal S1x1 .f32) (h : ∀ a, (![0, 0] : Fin 2 → Nat) a < S1x1.size a) :
    extractAt ![0, 0] b h = b (ix2 (0 : Fin 1) (0 : Fin 1)) := by
  unfold extractAt
  refine congrArg b (funext fun a => ?_)
  match a with
  | ⟨0, _⟩ => rfl
  | ⟨1, _⟩ => rfl

/-- THE BLOCK AT ENTRY r: the weighted row sum of row r, plus the bias. -/
theorem pay_apply (v0 : Vec Ideal S40960x32 .f32) (v1 : Vec Ideal S1x32 .f32) (v17 : Vec Ideal S1x1 .f32) (r : Fin 40960) :
    k0_pay1 (F := Ideal) v0 v1 v17 (ix1 r)
      = (∑ k : Fin 32, v0 (ix2 r k) * v1 (ix2 (0 : Fin 1) k)) + v17 (ix2 (0 : Fin 1) (0 : Fin 1)) := by
  unfold k0_pay1
  dsimp only
  refine (addf_apply _ _ (ix1 r)).trans ?_
  refine congrArg₂ (· + ·) ?_ ?_
  · -- the folded, masked product
    refine (TwLane.lane_fold_apply _ _ _ _ _ _ r).trans ?_
    refine (Finset.sum_eq_single (plc r) ?_ ?_).trans ?_
    · -- off the diagonal: the literal zero
      intro r' _ hne
      refine (TwDiag.select_diag_apply _ _ _ _ (rowOf (grp r) r') (plc r)).trans ?_
      rw [rowOf_mod, if_neg (fun he => hne (Fin.ext he))]
      exact Ideal.ofBits_zero_f32
    · intro habs; exact absurd (Finset.mem_univ _) habs
    · -- on the diagonal: the row sum of row r
      refine (TwDiag.select_diag_apply _ _ _ _ (rowOf (grp r) (plc r)) (plc r)).trans ?_
      rw [rowOf_mod, if_pos rfl, rowOf_grp_plc]
      refine (TwMatmul.matmul_ones_apply _ r (plc r)).trans ?_
      refine Finset.sum_congr rfl fun k _ => ?_
      refine (mulf_apply _ _ (ix2 r k)).trans ?_
      rw [weight_apply]
  · -- the bias, broadcast
    exact bias_apply v17 _

end Cert.Proof.TwBlock

end
-- ==== Proof.TwLocal.lean ====
/-
  Row r of the projection block's result reads row r of the table block and nothing else of it. At the exact instance
  this is read off the closed form of the block at an entry: entry r is the weighted row sum of row r plus the bias, an
  expression in which only row r of the table block occurs.
-/
import proofs.«206189_g37357625540624_cont_8to1_b_987_36_alg».proof.Proof.KIRegionData
import proofs.«206189_g37357625540624_cont_8to1_b_987_36_alg».proof.Proof.TwBlock

noncomputable section

namespace Cert.Proof.TwLocal

open Cert.KernelIdeal Cert.KernelIdeal.Gen Idealize.ShloMosaic Idealize.ShloMosaic.ValueIdx

/-- Two table blocks that agree on row r give the same entry r, at the exact instance. -/
theorem rowLocal_ideal : Cert.Proof.KI.RowLocal Ideal := by
  intro a a' v1 v17 r hrow
  rw [TwBlock.pay_apply a v1 v17 r, TwBlock.pay_apply a' v1 v17 r]
  exact congrArg (· + v17 (ix2 (0 : Fin 1) (0 : Fin 1)))
    (Finset.sum_congr rfl fun k _ => by rw [hrow k])

end Cert.Proof.TwLocal

end
-- ==== Proof.KIRange.lean ====
/-
  A recast only re-indexes: every word of the flattened index array is a word of the index array itself. So whatever
  range the index words are known to lie in, the words the gather reads lie in it too.
-/
import proofs.«206189_g37357625540624_cont_8to1_b_987_36_alg».proof.Proof.KIMainVals

set_option maxRecDepth 16384

noncomputable section

namespace Cert.Proof.KI

open Cert.KernelIdeal Cert.KernelIdeal.Gen Idealize.ShloMosaic Idealize.ShloMosaic.TcCoe Idealize.ShloMosaic.ValueIdx

/-- Every word of the flattened index array is a word of the index array. -/
theorem qfIn_mem {F : FTy → Type} [FloatOps F] [∀ e, Nonempty (Elt F e)] (m : (ℓ : Loc nD τ sig) → Buf (Elt F) ℓ) (d : Dev nD)
    (p : S3276800.Idx) :
    ∃ ij : S16384x200.Idx, (qfIn m d : S3276800.Idx → BitVec 32) p = (m (d, a0') : S16384x200.Idx → BitVec 32) ij := by
  have h : (qfIn m d : S3276800.Idx → BitVec 32)
      = fun p => shapeCast S3276800 (m (d, a0') : S16384x200.Idx → BitVec 32) shapeCasts_S16384x200_S3276800 p := by
    unfold qfIn W3
    exact StableHlo.reshape_result' _ _ _ _ _
  rw [h]
  unfold shapeCast
  exact ⟨_, rfl⟩

end Cert.Proof.KI

end
-- ==== Proof.TwCover.lean ====
/-
  The block arithmetic of the projection's grid. The table has 1000000 rows and is cut into blocks of 40960 rows:
  25 blocks, numbered 0 to 24, block t starting at row 40960 t. The first 24 are whole; the last one is clipped to the
  16960 rows that are left (24 * 40960 + 16960 = 1000000). Every row n lies in exactly one block, block n / 40960, at
  place n mod 40960 inside it.
-/

namespace Cert.Proof.TwCover

/-- The number of rows of block t that lie inside the table. -/
def ext (t : Nat) : Nat := min 40960 (1000000 - 40960 * t)

/-- Block t covers row n: n lies in [40960 t, 40960 t + ext t). -/
def Covers (t n : Nat) : Prop := 40960 * t ≤ n ∧ n < 40960 * t + ext t

/-- The first 24 blocks are whole. -/
theorem ext_full (t : Nat) (ht : t < 24) : ext t = 40960 := by unfold ext; omega

/-- The last block is clipped to 16960 rows. -/
theorem ext_last : ext 24 = 16960 := by unfold ext; omega

/-- Past the last block nothing is left. -/
theorem ext_past (t : Nat) (ht : 25 ≤ t) : ext t = 0 := by unfold ext; omega

/-- A block never has more than 40960 rows. -/
theorem ext_le (t : Nat) : ext t ≤ 40960 := by unfold ext; omega

/-- A block that is one of the 25 is not empty. -/
theorem ext_pos (t : Nat) (ht : t < 25) : 0 < ext t := by unfold ext; omega

/-- A block ends inside the table. -/
theorem block_end_le (t : Nat) (ht : t < 25) : 40960 * t + ext t ≤ 1000000 := by unfold ext; omega

/-- A row's block is one of the 25. -/
theorem block_lt (n : Nat) (hn : n < 1000000) : n / 40960 < 25 := by omega

/-- A row is its block's start plus its place in the block. -/
theorem split (n : Nat) : n = 40960 * (n / 40960) + n % 40960 := by omega

/-- A row's place in its block is inside the block's clipped extent. -/
theorem place_lt_ext (n : Nat) (hn : n < 1000000) : n % 40960 < ext (n / 40960) := by unfold ext; omega

/-- A row's place in its block is below 40960. -/
theorem place_lt (n : Nat) : n % 40960 < 40960 := by omega

/-- A row is covered by its block. -/
theorem covers_block (n : Nat) (hn : n < 1000000) : Covers (n / 40960) n := by unfold Covers ext; omega

/-- A block that covers a row is the row's block. -/
theorem covers_unique (t n : Nat) (h : Covers t n) : t = n / 40960 := by unfold Covers ext at h; omega

/-- A covered row is a row of the table, and the covering block is one of the 25. -/
theorem covers_lt (t n : Nat) (h : Covers t n) : n < 1000000 ∧ t < 25 := by unfold Covers ext at h; omega

/-- Block t covers row n exactly when t is n / 40960 (for a row of the table). -/
theorem covers_iff (t n : Nat) (hn : n < 1000000) : Covers t n ↔ t = n / 40960 :=
  ⟨covers_unique t n, fun h => h ▸ covers_block n hn⟩

/-- Two blocks covering the same row are the same block. -/
theorem covers_inj (t t' n : Nat) (h : Covers t n) (h' : Covers t' n) : t = t' :=
  (covers_unique t n h).trans (covers_unique t' n h').symm

/-- A covered row sits at place n - 40960 t of block t, inside its extent. -/
theorem covers_place (t n : Nat) (h : Covers t n) : n - 40960 * t = n % 40960 ∧ n % 40960 < ext t := by
  unfold Covers ext at h; unfold ext; omega

/-- Row 40960 t + p with p inside block t's extent is covered by block t, and p is its place. -/
theorem covers_of_place (t p : Nat) (hp : p < ext t) :
    Covers t (40960 * t + p) ∧ (40960 * t + p) / 40960 = t ∧ (40960 * t + p) % 40960 = p := by
  unfold ext at hp; unfold Covers ext; omega

end Cert.Proof.TwCover
-- ==== Proof.TwArr.lean ====
/-
  From blocks to the array, for the projection's result. The call runs 25 grid points; point t stages block t of the table
  (40960 rows, the last block cut to the 16960 rows left in the table), the weight row and the bias, and writes back the
  part of its 40960 projected rows that lies inside the result array. What point t writes back is block t of ONE function
  of the arrays as the call finds them: row n of the result is the sum over k of table(n, k) * weight(0, k), plus the
  bias. A block's row r sits at row 40960 t + r of its array; the filler past the table's end is never read by a row
  inside the array. The 25 blocks cover the 1000000 rows (row n lies in block n / 40960), so the result array ends
  holding that function.
-/
import proofs.«206189_g37357625540624_cont_8to1_b_987_36_alg».proof.Proof.KIRegionData
import proofs.«206189_g37357625540624_cont_8to1_b_987_36_alg».proof.Proof.TwBlock
import proofs.«206189_g37357625540624_cont_8to1_b_987_36_alg».proof.Proof.TwCover
import Idealize.ShloMosaic.Lib.Pipeline.Value

set_option maxRecDepth 16384

noncomputable section

namespace Cert.Proof.TwArr

open Cert.KernelIdeal Cert.KernelIdeal.Gen Cert.Proof.KI Idealize.ShloMosaic Idealize.ShloMosaic.TcCoe Idealize.ShloMosaic.ValueIdx
open Idealize.ShloMosaic.Pipeline (Dat)

/-- The block indices of the four windows at a grid point, decided over the 25 points: the table's block and the result's
    block are block t along the rows; the weight row and the bias are always block 0. -/
theorem idx_facts : ∀ t : Fin cfg0.N,
    win0_3.index t (0 : Fin 1) = t.val
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The sizes of what each transfer moves at a grid point, decided over the 25 points: along the rows, the table's block
    and the result's block are cut to the rows left in the table, min 40960 (1000000 - 40960 t); the other extents are whole. -/
theorem ext_facts : ∀ t : Fin cfg0.N,
    win0_3.xsize (grid0.coords t) (0 : Fin 1) = min 40960 (1000000 - 40960 * t.val)
    ∧ win0_0.xsize (grid0.coords t) (0 : Fin 2) = min 40960 (1000000 - 40960 * t.val)
    ∧ win0_0.xsize (grid0.coords t) (1 : Fin 2) = 32
    ∧ win0_1.xsize (grid0.coords t) (0 : Fin 2) = 1 ∧ win0_1.xsize (grid0.coords t) (1 : Fin 2) = 32
    ∧ win0_2.xsize (grid0.coords t) (0 : Fin 2) = 1 ∧ win0_2.xsize (grid0.coords t) (1 : Fin 2) = 1 :=
  (by decide +kernel : ∀ t : Fin grid0.N, _)

variable (Vr : (d : Dev nD) → (b : Ref sig .tc) → Buf (Elt Ideal) ((d : Thread nD τ).loc b))

/-- The table, the weight row and the bias as the call finds them, read as arrays of extended reals. -/
abbrev tbl (d : Dev nD) : S1000000x32.Idx → EReal := Vr d main_arg1
abbrev wrow (d : Dev nD) : S1x32.Idx → EReal := Vr d main_v0
abbrev bias (d : Dev nD) : S1x1.Idx → EReal := Vr d main_v1

/-- The projected table: row n of the table against the weight row, plus the bias. -/
abbrev proj (d : Dev nD) : S1000000.Idx → EReal := fun n =>
  (∑ k : Fin 32, tbl Vr d (ix2 (n 0) k) * wrow Vr d (ix2 (0 : Fin 1) k)) + bias Vr d (ix2 (0 : Fin 1) (0 : Fin 1))

/-- A staging buffer filled with a fetched block reads the block wherever the transfer moved it. -/
theorem fill_apply {G : Pipeline.Grid} (w : Pipeline.Window sig G) {α : Type} (i : G.Coords) (dflt : w.block.Idx → α)
    (g : (w.xblock i).Idx → α) (j : w.block.Idx) (h : ∀ a, (j a).val < w.xsize i a) :
    w.fill i dflt g j = g (fun a => ⟨(j a).val, h a⟩) := by
  unfold Pipeline.Window.fill
  rw [dif_pos ((w.moved_iff i j).mpr h)]

/-- One row of one block: if the staged table block holds row n of the table at its row r, and the staged weight row and
    bias are the weight row and the bias, entry r of the block's result is entry n of the projected table. -/
theorem point_row (x0 : Vec Ideal S40960x32 .f32) (x1 : Vec Ideal S1x32 .f32) (x2 : Vec Ideal S1x1 .f32)
    (T : S1000000x32.Idx → EReal) (W : S1x32.Idx → EReal) (B : S1x1.Idx → EReal) (r : Fin 40960) (n : Fin 1000000)
    (h0 : ∀ k : Fin 32, x0 (ix2 r k) = T (ix2 n k)) (h1 : ∀ k : Fin 32, x1 (ix2 (0 : Fin 1) k) = W (ix2 (0 : Fin 1) k))
    (h2 : x2 (ix2 (0 : Fin 1) (0 : Fin 1)) = B (ix2 (0 : Fin 1) (0 : Fin 1))) :
    k0_pay1 (F := Ideal) x0 x1 x2 (ix1 r)
      = (∑ k : Fin 32, T (ix2 n k) * W (ix2 (0 : Fin 1) k)) + B (ix2 (0 : Fin 1) (0 : Fin 1)) := by
  rw [TwBlock.pay_apply x0 x1 x2 r, h2]
  exact congrArg (· + B (ix2 (0 : Fin 1) (0 : Fin 1))) (Finset.sum_congr rfl fun k _ => by rw [h0 k, h1 k])

/-- WHAT POINT t WRITES BACK is block t of the projected table. -/
theorem flushed_eq (d : Dev nD) (t : Fin cfg0.N) :
    (dats (F := Ideal) Vr 0 d).flushed 3 t = ((cfg0.win 3).blk t).view.read (Elt Ideal) (proj Vr d) := by
  show (cfg0.win 3).cut (grid0.coords t) ((dats (F := Ideal) Vr 0 d).after 3 t) = _
  rw [after_3]
  obtain ⟨i3, i00, i01, i10, i11, i20, i21⟩ := idx_facts t
  obtain ⟨e3, e00, e01, e10, e11, e20, e21⟩ := ext_facts t
  funext j
  have hj : (j 0).val < win0_3.xsize (grid0.coords t) (0 : Fin 1) := (j 0).isLt
  have hj' : (j 0).val < 40960 := by rw [e3] at hj; omega
  have ht : t.val < 25 := lt_of_lt_of_eq t.isLt N_0
  have hn : 40960 * t.val + (j 0).val < 1000000 := by rw [e3] at hj; omega
  show y3 Vr d t (win0_3.xinj (grid0.coords t) j) = proj Vr d (((cfg0.win 3).blk t).view.emb j)
  have hx : win0_3.xinj (grid0.coords t) j = ix1 (⟨(j 0).val, hj'⟩ : Fin 40960) := by
    funext a; match a with | ⟨0, _⟩ => rfl
  have hemb : ((cfg0.win 3).blk t).view.emb j = ix1 (⟨40960 * t.val + (j 0).val, hn⟩ : Fin 1000000) := by
    funext a; apply Fin.ext
    match a with
    | ⟨0, _⟩ =>
      show win0_3.index t (0 : Fin 1) * 40960 + 1 * (j 0).val = 40960 * t.val + (j 0).val
      omega
  rw [hx, hemb]
  unfold y3
  refine point_row _ _ _ (tbl Vr d) (wrow Vr d) (bias Vr d) ⟨(j 0).val, hj'⟩ ⟨40960 * t.val + (j 0).val, hn⟩ ?_ ?_ ?_
  · -- the staged table block at its row r is the table's row 40960 t + r
    intro k
    unfold x0
    have hm : ∀ a, ((ix2 (⟨(j 0).val, hj'⟩ : Fin 40960) k : S40960x32.Idx) a).val < win0_0.xsize (grid0.coords t) a := by
      intro a
      match a with
      | ⟨0, _⟩ => show (j 0).val < win0_0.xsize (grid0.coords t) (0 : Fin 2); rw [e00, ← e3]; exact hj
      | ⟨1, _⟩ => show k.val < win0_0.xsize (grid0.coords t) (1 : Fin 2); rw [e01]; exact k.isLt
    refine (fill_apply win0_0 (grid0.coords t) _ (b0 Vr d t) _ hm).trans ?_
    show tbl Vr d ((win0_0.blk t).view.emb _) = tbl Vr d (ix2 _ k)
    refine congrArg (tbl Vr d) (funext fun a => Fin.ext ?_)
    match a with
    | ⟨0, _⟩ => show win0_0.index t (0 : Fin 2) * 40960 + 1 * (j 0).val = 40960 * t.val + (j 0).val; omega
    | ⟨1, _⟩ => show win0_0.index t (1 : Fin 2) * 32 + 1 * k.val = k.val; omega
  · -- the staged weight row is the weight row
    intro k
    unfold x1
    have hm : ∀ a, ((ix2 (0 : Fin 1) k : S1x32.Idx) a).val < win0_1.xsize (grid0.coords t) a := by
      intro a
      match a with
      | ⟨0, _⟩ => show 0 < win0_1.xsize (grid0.coords t) (0 : Fin 2); rw [e10]; exact Nat.one_pos
      | ⟨1, _⟩ => show k.val < win0_1.xsize (grid0.coords t) (1 : Fin 2); rw [e11]; exact k.isLt
    refine (fill_apply win0_1 (grid0.coords t) _ (b1 Vr d t) _ hm).trans ?_
    show wrow Vr d ((win0_1.blk t).view.emb _) = wrow Vr d (ix2 (0 : Fin 1) k)
    refine congrArg (wrow Vr d) (funext fun a => Fin.ext ?_)
    match a with
    | ⟨0, _⟩ => show win0_1.index t (0 : Fin 2) * 1 + 1 * 0 = 0; omega
    | ⟨1, _⟩ => show win0_1.index t (1 : Fin 2) * 32 + 1 * k.val = k.val; omega
  · -- the staged bias is the bias
    unfold x2
    have hm : ∀ a, ((ix2 (0 : Fin 1) (0 : Fin 1) : S1x1.Idx) a).val < win0_2.xsize (grid0.coords t) a := by
      intro a
      match a with
      | ⟨0, _⟩ => show 0 < win0_2.xsize (grid0.coords t) (0 : Fin 2); rw [e20]; exact Nat.one_pos
      | ⟨1, _⟩ => show 0 < win0_2.xsize (grid0.coords t) (1 : Fin 2); rw [e21]; exact Nat.one_pos
    refine (fill_apply win0_2 (grid0.coords t) _ (b2 Vr d t) _ hm).trans ?_
    show bias Vr d ((win0_2.blk t).view.emb _) = bias Vr d (ix2 (0 : Fin 1) (0 : Fin 1))
    refine congrArg (bias Vr d) (funext fun a => Fin.ext ?_)
    match a with
    | ⟨0, _⟩ => show win0_2.index t (0 : Fin 2) * 1 + 1 * 0 = 0; omega
    | ⟨1, _⟩ => show win0_2.index t (1 : Fin 2) * 1 + 1 * 0 = 0; omega

/-- An index of the result array is in point t's block iff its row is among the block's rows inside the array. -/
theorem mem_blk (t : Fin cfg0.N) (i : S1000000.Idx) :
    i ∈ ((cfg0.win 3).blk t).view.set ↔ ∀ a : Fin 1, win0_3.index t a * S40960.size a ≤ (i a).val
      ∧ (i a).val < win0_3.index t a * S40960.size a + win0_3.xsize (grid0.coords t) a := by
  show i ∈ ((View.whole main_v2).slice (win0_3.rect t)).set ↔ _
  rw [View.set_slice_whole, Rect.mem_set_unit]
  exact Iff.rfl

/-- Every row of the result array is in some point's block: row n in block n / 40960. -/
theorem cover (i : S1000000.Idx) :
    ∃ t : Fin cfg0.N, (cfg0.win 3).flush t = true ∧ i ∈ ((cfg0.win 3).blk t).view.set := by
  have hi : (i 0).val < 1000000 := (i 0).isLt
  have hlt : (i 0).val / 40960 < cfg0.N := lt_of_lt_of_eq (TwCover.block_lt _ hi) N_0.symm
  refine ⟨⟨(i 0).val / 40960, hlt⟩, flush0_3 _, ?_⟩
  rw [mem_blk]
  obtain ⟨i3, -⟩ := idx_facts ⟨(i 0).val / 40960, hlt⟩
  obtain ⟨e3, -⟩ := ext_facts ⟨(i 0).val / 40960, hlt⟩
  have hc := TwCover.covers_block (i 0).val hi
  unfold TwCover.Covers TwCover.ext at hc
  intro a
  match a with
  | ⟨0, _⟩ =>
    show win0_3.index ⟨(i 0).val / 40960, hlt⟩ (0 : Fin 1) * 40960 ≤ (i 0).val
      ∧ (i 0).val < win0_3.index ⟨(i 0).val / 40960, hlt⟩ (0 : Fin 1) * 40960
          + win0_3.xsize (grid0.coords ⟨(i 0).val / 40960, hlt⟩) (0 : Fin 1)
    rw [i3, e3]
    show (i 0).val / 40960 * 40960 ≤ (i 0).val
      ∧ (i 0).val < (i 0).val / 40960 * 40960 + min 40960 (1000000 - 40960 * ((i 0).val / 40960))
    omega

/-- THE RESULT ARRAY AFTER THE CALL is the projected table. -/
theorem tw_final (d : Dev nD) :
    (dats (F := Ideal) Vr 0 d).arrAt 3 cfg0.N
      = fun n : S1000000.Idx =>
          (∑ k : Fin 32, tbl Vr d (ix2 (n 0) k) * wrow Vr d (ix2 (0 : Fin 1) k)) + bias Vr d (ix2 (0 : Fin 1) (0 : Fin 1)) :=
  (dats (F := Ideal) Vr 0 d).arrAt_eq_of_cover 3 (proj Vr d) (fun t _ => flushed_eq Vr d t) cover

end Cert.Proof.TwArr

end
-- ==== Proof.KIValue.lean ====
/-
  The first processor's result, read entry by entry, is the specification. The program recasts the weight column as a
  row and the bias as a 1 x 1 array, projects the table (row n becomes the sum over k of table(n, k) * weight(k, 0), plus
  the bias), flattens the index array, gathers the projected rows the index words name, and recasts the gathered words
  as 16384 x 200. A recast keeps row-major positions: entry (i, j) of the result is the gathered word at 200 i + j, whose
  index word is q(i, j); so entry (i, j) is the projected row named by q(i, j).
-/
import proofs.«206189_g37357625540624_cont_8to1_b_987_36_alg».proof.Proof.KIMainVals
import proofs.«206189_g37357625540624_cont_8to1_b_987_36_alg».proof.Proof.TwArr
import proofs.«206189_g37357625540624_cont_8to1_b_987_36_alg».proof.Proof.Spec
import Idealize.ShloMosaic.Lib.ValueLayout
import Idealize.ShloMosaic.Lib.Pipeline.Value

set_option maxRecDepth 16384

noncomputable section

namespace Cert.Proof.KI

open Cert.KernelIdeal Cert.KernelIdeal.Gen Idealize.ShloMosaic Idealize.ShloMosaic.TcCoe Idealize.ShloMosaic.ValueIdx
open Idealize.ShloMosaic.Pipeline (Dat)

/-! ## The four recasts read at an entry -/

/-- The flat position of entry (i, j) of a 16384 x 200 array. -/
abbrev flat (i : Fin 16384) (j : Fin 200) : Fin 3276800 :=
  ⟨200 * i.val + j.val, by have := i.isLt; have := j.isLt; omega⟩

/-- A flat array of 3276800 entries recast as 16384 x 200 reads, at (i, j), the flat entry 200 i + j. -/
theorem unflatten_apply {α : Type} (x : S3276800.Idx → α) (h : S3276800.ShapeCasts S16384x200) (i : Fin 16384) (j : Fin 200) :
    shapeCast S16384x200 x h (ix2 i j) = x (ValueIdx.ix1 (flat i j)) :=
  shapeCast_apply x h (ix2 i j) (ValueIdx.ix1 (flat i j)) (by
    rw [Shape.rowMajor_val_one, Shape.rowMajor_val_two]
    show 200 * i.val + j.val = i.val * 200 + j.val
    omega)

/-- A 16384 x 200 array recast as flat reads, at the flat entry 200 i + j, the entry (i, j). -/
theorem flatten_apply {α : Type} (q : S16384x200.Idx → α) (h : S16384x200.ShapeCasts S3276800) (i : Fin 16384) (j : Fin 200) :
    shapeCast S3276800 q h (ValueIdx.ix1 (flat i j)) = q (ix2 i j) :=
  shapeCast_apply q h (ValueIdx.ix1 (flat i j)) (ix2 i j) (by
    rw [Shape.rowMajor_val_one, Shape.rowMajor_val_two]
    show i.val * 200 + j.val = 200 * i.val + j.val
    omega)

/-- A 32 x 1 column recast as a 1 x 32 row reads, at (0, k), the column's entry (k, 0). -/
theorem col_row_apply {α : Type} (w : S32x1.Idx → α) (h : S32x1.ShapeCasts S1x32) (k : Fin 32) :
    shapeCast S1x32 w h (ix2 (0 : Fin 1) k) = w (ix2 k (0 : Fin 1)) :=
  shapeCast_apply w h (ix2 (0 : Fin 1) k) (ix2 k (0 : Fin 1)) (by
    rw [Shape.rowMajor_val_two, Shape.rowMajor_val_two]
    show k.val * 1 + 0 = 0 * 32 + k.val
    omega)

/-- A one-entry vector recast as a 1 x 1 array reads its entry. -/
theorem one_apply {α : Type} (b : S1.Idx → α) (h : S1.ShapeCasts S1x1) :
    shapeCast S1x1 b h (ix2 (0 : Fin 1) (0 : Fin 1)) = b (ValueIdx.ix1 (0 : Fin 1)) :=
  shapeCast_a_1a_apply b h (0 : Fin 1) (0 : Fin 1)

variable (m : (ℓ : Loc nD τ sig) → Buf (Elt Ideal) ℓ)

/-! ## The arrays the call and the gather find -/

/-- The table as the call finds it is the table argument. -/
theorem tbl_eq (d : Dev nD) : TwArr.tbl (Vr m) d = (m (d, a1') : S1000000x32.Idx → EReal) := W2_a1 m d

/-- The weight row as the call finds it, at (0, k), is the weight column's entry (k, 0). -/
theorem wrow_apply (d : Dev nD) (k : Fin 32) :
    TwArr.wrow (Vr m) d (ix2 (0 : Fin 1) k) = (m (d, a2') : S32x1.Idx → EReal) (ix2 k (0 : Fin 1)) := by
  have h : TwArr.wrow (Vr m) d
      = fun p => shapeCast S1x32 (m (d, a2') : S32x1.Idx → EReal) shapeCasts_S32x1_S1x32 p := by
    show W2 m d v0' = _
    rw [W2_v0]
    unfold W1
    exact StableHlo.reshape_result' _ _ _ _ _
  rw [h]
  exact col_row_apply _ _ k

/-- The bias as the call finds it, at (0, 0), is the bias argument's entry. -/
theorem bias_apply (d : Dev nD) :
    TwArr.bias (Vr m) d (ix2 (0 : Fin 1) (0 : Fin 1)) = (m (d, a3') : S1.Idx → EReal) (ValueIdx.ix1 (0 : Fin 1)) := by
  have h : TwArr.bias (Vr m) d
      = fun p => shapeCast S1x1 (m (d, a3') : S1.Idx → EReal) shapeCasts_S1_S1x1 p := by
    show W2 m d v1' = _
    unfold W2
    refine (StableHlo.reshape_result' _ _ _ _ _).trans ?_
    rw [W1_a3]
    rfl
  rw [h]
  exact one_apply _ _

/-- The projected table the call leaves is the specification's. -/
theorem twOut_apply (d : Dev nD) (n : Fin 1000000) :
    (twOut (F := Ideal) m d : S1000000.Idx → EReal) (ValueIdx.ix1 n)
      = Spec.proj (m (d, a1')) (m (d, a2')) (m (d, a3')) n := by
  show (dats (F := Ideal) (Vr m) 0 d).arrAt 3 cfg0.N (ValueIdx.ix1 n) = _
  rw [TwArr.tw_final (Vr m) d]
  unfold Spec.proj
  show (∑ k : Fin 32, TwArr.tbl (Vr m) d (ix2 n k) * TwArr.wrow (Vr m) d (ix2 (0 : Fin 1) k))
      + TwArr.bias (Vr m) d (ix2 (0 : Fin 1) (0 : Fin 1)) = _
  rw [bias_apply, tbl_eq]
  exact congrArg (· + (m (d, a3') : S1.Idx → EReal) (ValueIdx.ix1 (0 : Fin 1)))
    (Finset.sum_congr rfl fun k _ => by rw [wrow_apply])

/-- The flattened index array, at the flat position of (i, j), is the index argument's entry (i, j). -/
theorem qfIn_apply (d : Dev nD) (i : Fin 16384) (j : Fin 200) :
    (qfIn (F := Ideal) m d : S3276800.Idx → BitVec 32) (ValueIdx.ix1 (flat i j)) = (m (d, a0') : S16384x200.Idx → BitVec 32) (ix2 i j) := by
  have h : (qfIn (F := Ideal) m d : S3276800.Idx → BitVec 32)
      = fun p => shapeCast S3276800 (m (d, a0') : S16384x200.Idx → BitVec 32) shapeCasts_S16384x200_S3276800 p := by
    unfold qfIn W3
    exact StableHlo.reshape_result' _ _ _ _ _
  rw [h]
  exact flatten_apply _ _ i j

/-- THE RESULT: entry (i, j) is the projected row the index word q(i, j) names. -/
theorem resOut_eq (d : Dev nD) :
    resOut (F := Ideal) m d = Cert.Proof.Spec.G (m (d, a0')) (m (d, a1')) (m (d, a2')) (m (d, a3')) := by
  have h : (resOut (F := Ideal) m d : S16384x200.Idx → EReal)
      = fun p => shapeCast S16384x200 (gath (twOut m) (qfIn m) d : S3276800.Idx → EReal) shapeCasts_S3276800_S16384x200 p := by
    unfold resOut W6
    refine (StableHlo.reshape_result' _ _ _ _ _).trans ?_
    rw [W5_v4]
    rfl
  refine h.trans ?_
  funext ij
  obtain ⟨i, j, rfl⟩ : ∃ (i : Fin 16384) (j : Fin 200), ij = ix2 i j := ⟨ij 0, ij 1, eq_ix2 ij⟩
  refine (unflatten_apply _ _ i j).trans ?_
  show (twOut (F := Ideal) m d : S1000000.Idx → EReal) (ValueIdx.ix1 (Spec.row ((qfIn (F := Ideal) m d : S3276800.Idx → BitVec 32) (ValueIdx.ix1 (flat i j))))) = _
  rw [qfIn_apply, twOut_apply]
  rfl

end Cert.Proof.KI

end
-- ==== Proof.PreRange.lean ====
/-
  The index range, read out of the precondition. The precondition is a conjunction (a chain of `and`s of one-bit
  words) whose last conjunct is `all (0 ≤ q ∧ q ≤ 999999)`, the comparisons signed. Only that last conjunct is read
  here, so the statement holds at every float instance: the float comparisons in the other conjuncts stay opaque.
  A signed 32-bit word between 0 and 999999 has that same value as a natural number, below a million.
-/
import proofs.«206189_g37357625540624_cont_8to1_b_987_36_alg».proof.Pre_input_domain
import proofs.«206189_g37357625540624_cont_8to1_b_987_36_alg».proof.Proof.Gen.Pre_input_domain
import Idealize.ShloMosaic.Lib.ReduceAll
import Idealize.ShloMosaic.Lib.ValueIdx

namespace Cert.Proof.PreRange

open Idealize.ShloMosaic Idealize.ShloMosaic.ValueIdx
open Cert.Pre_input_domain

/-- The rank-0 shape has one index. -/
instance : Subsingleton S_.Idx := ⟨fun a b => funext fun d => d.elim0⟩

/-- A signed 32-bit word `v` with `0 ≤ v ≤ 999999` is, as a natural number, below a million. -/
theorem toNat_lt_of_signed (v : BitVec 32) (h0 : (0#32).toInt ≤ v.toInt) (h1 : v.toInt ≤ (999999#32).toInt) :
    v.toNat < 1000000 := by
  have e0 : (0#32).toInt = 0 := by decide
  have e1 : (999999#32).toInt = 999999 := by decide
  rw [e0] at h0
  rw [e1] at h1
  have hlt := v.isLt
  rw [BitVec.toInt_eq_toNat_cond] at h0 h1
  split at h0 <;> omega

theorem range_of_pre {F : FTy → Type} [FloatOps F] [Cert.Pre_input_domain.Facts]
    (q : IVec Cert.Pre_input_domain.S16384x200 32) (t : FVec F Cert.Pre_input_domain.S1000000x32 .f32)
    (w : FVec F Cert.Pre_input_domain.S32x1 .f32) (b : FVec F Cert.Pre_input_domain.S1 .f32)
    (h : Cert.Pre_input_domain.fn (F := F) q t w b = fun _ => 1#1) : ∀ ij, (q ij).toNat < 1000000 := by
  intro ij
  have e := congrFun h ix0
  dsimp only [Cert.Pre_input_domain.fn, Cert.Pre_input_domain.fn_part1] at e
  -- the last conjunct of the chain: the reduction by `and` over all of `q`'s indices
  have e19 := (IntOp.andi_eq_one.1 e).2
  -- every element reduced is 1
  have e18 := Host.reduce_andi_all _ _ _ _ ix0 e19 ij
  obtain ⟨hge, hle⟩ := IntOp.andi_eq_one.1 e18
  exact toNat_lt_of_signed (q ij) (IntOp.cmpi_sge.1 hge) (IntOp.cmpi_sle.1 hle)

end Cert.Proof.PreRange
-- ==== Proof.RefOps.lean ====
/-
  The reference program as a straight line. Its entry function calls a helper that looks rows of the table up (and
  that helper calls the one-line `where` helper); a call is the callee's body run on the caller's buffers, so the
  whole program is one list of 28 array operations: the 23 of the look-up (the index wrapped from the end when
  negative, the in-range mask, the gather, the masked select), then the contraction with the weights, the bias
  broadcast twice, the sum and the reshape. Every weakly fair execution runs that list in order, so each buffer ends
  at the fold of the operations over what memory held at the start.
-/
import proofs.«206189_g37357625540624_cont_8to1_b_987_36_alg».proof.ReferenceIdeal
import proofs.«206189_g37357625540624_cont_8to1_b_987_36_alg».proof.Proof.Gen.ReferenceIdeal
import Idealize.ShloMosaic.Lib.StableHlo.Run

noncomputable section

namespace Cert.Proof.Ref

open Cert.ReferenceIdeal Idealize.ShloMosaic Idealize.ShloMosaic.TcCoe Idealize.SL.Sem
open Idealize.ShloMosaic.StableHlo
open Cert.ReferenceIdeal.Facts₀

variable {F : FTy → Type} [FloatOps F]

/-- The program's 28 operations in order: the look-up helper's (with the `where` helper's select in its place), then
    the entry function's own five. -/
abbrev ops : List (HloOp τ sig (Elt F)) :=
  [ TRef.nullary main_call0.c (constantI S_ 32 0#32),
    TRef.unary main_call0.c main_call0.v0 (broadcastInDim S16384x200 ![] bcast_S_S16384x200),
    TRef.binary (.of main_arg0) main_call0.v0 main_call0.v1 (cmpi .slt),
    TRef.nullary main_call0.c_0 (constantI S_ 32 1000000#32),
    TRef.unary main_call0.c_0 main_call0.v2 (broadcastInDim S16384x200 ![] bcast_S_S16384x200),
    TRef.binary (.of main_arg0) main_call0.v2 main_call0.v3 addi,
    TRef.ternary main_call0.v1 main_call0.v3 (.of main_arg0) main_call0.call0.v0 select,
    TRef.unary main_call0.call0.v0 main_call0.v5 (broadcastInDim S16384x200x1 ![0, 1] bcast_S16384x200_S16384x200x1_0_1),
    TRef.nullary main_call0.c_1 (constantI S1 32 999999#32),
    TRef.nullary main_call0.c_2 (constantI S_ 32 0#32),
    TRef.unary main_call0.c_2 main_call0.v6 (broadcastInDim S16384x200x1 ![] bcast_S_S16384x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x200x1 ![0, 1, 2] bcast_S1x1x1_S16384x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x200x1_S16384x200_d2 h_S_),
    TRef.binary (.of main_arg1) main_call0.v5 main_call0.v13 (fun x i => Host.gather gather_S1000000x32_S16384x200x1_S16384x200x32_2_0_n_n_0_2_132 x i),
    TRef.unary main_call0.v12 main_call0.v14 (broadcastInDim S16384x200x32 ![0, 1] bcast_S16384x200_S16384x200x32_0_1),
    TRef.nullary main_call0.cst (constant S_ .f32 0x7FC00000#32),
    TRef.unary main_call0.cst main_call0.v15 (broadcastInDim S16384x200x32 ![] bcast_S_S16384x200x32),
    TRef.ternary main_call0.v14 main_call0.v13 main_call0.v15 main_call0.v16 select,
    binary main_v0 main_arg2 main_v1 ((fun l r => Host.dotGeneral dot_S16384x200x32_S32x1_S16384x200x1_2_0_01_1_n_n none l r) : (⟨S16384x200x32, .f32⟩ : BufTy).Contents (Elt F) → (⟨S32x1, .f32⟩ : BufTy).Contents (Elt F) → (⟨S16384x200x1, .f32⟩ : BufTy).Contents (Elt F)),
    unary main_arg3 main_v2 (broadcastInDim S1x1x1 ![2] bcast_S1_S1x1x1_2 : (⟨S1, .f32⟩ : BufTy).Contents (Elt F) → (⟨S1x1x1, .f32⟩ : BufTy).Contents (Elt F)),
    unary main_v2 main_v3 (broadcastInDim S16384x200x1 ![0, 1, 2] bcast_S1x1x1_S16384x200x1_0_1_2 : (⟨S1x1x1, .f32⟩ : BufTy).Contents (Elt F) → (⟨S16384x200x1, .f32⟩ : BufTy).Contents (Elt F)),
    binary main_v1 main_v3 main_v4 (addf : (⟨S16384x200x1, .f32⟩ : BufTy).Contents (Elt F) → (⟨S16384x200x1, .f32⟩ : BufTy).Contents (Elt F) → (⟨S16384x200x1, .f32⟩ : BufTy).Contents (Elt F)),
    reshape main_v4 main_v5 rfl shapeCasts_S16384x200x1_S16384x200 ]

-- twenty-eight binds re-associated under the two helpers' bodies
set_option maxRecDepth 2048 in
/-- The entry function is that straight line: the helpers' bodies unfolded at their calls, then sequencing
    re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., unary_bufs_sub .., unary_bufs_sub .., binary_bufs_sub .., reshape_bufs_sub ..⟩

/-- From any memory with zero counters every weakly fair execution of the program terminates, and every buffer ends
    at the fold of the 28 operations over the contents memory held at the start. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.Ref

end
-- ==== Proof.RefTerm.lean ====
/-
  The reference's stages, each a pure function of the argument arrays: the index array with a negative word counted
  from the end (`wrapIdx`), the same with a trailing unit axis (`idx3`), the in-range mask (`mask`: 0 ≤ idx ≤ 999999,
  reduced by `and` over the unit axis), the gathered rows (`rows`), the rows with a quiet NaN where the mask is off
  (`taken`), and the result (`out`): the contraction of `taken` with the weights over the row axis, plus the bias
  broadcast, with the trailing unit axis dropped.
-/
import proofs.«206189_g37357625540624_cont_8to1_b_987_36_alg».proof.ReferenceIdeal
import proofs.«206189_g37357625540624_cont_8to1_b_987_36_alg».proof.Proof.Gen.ReferenceIdeal

noncomputable section

namespace Cert.Proof.Ref

open Cert.ReferenceIdeal Idealize.ShloMosaic
open Cert.ReferenceIdeal.Facts₀

variable {F : FTy → Type} [FloatOps F]

/-- The index array, a negative word counted from the end of the table: `select (q < 0) (q + 1000000) q`. -/
def wrapIdx (q : IVec S16384x200 32) : IVec S16384x200 32 :=
  select (cmpi .slt q (broadcastInDim S16384x200 ![] bcast_S_S16384x200 (constantI S_ 32 0#32)))
    (addi q (broadcastInDim S16384x200 ![] bcast_S_S16384x200 (constantI S_ 32 1000000#32))) q

/-- The wrapped indices with a trailing unit axis: the gather's start indices. -/
def idx3 (q : IVec S16384x200 32) : IVec S16384x200x1 32 :=
  broadcastInDim S16384x200x1 ![0, 1] bcast_S16384x200_S16384x200x1_0_1 (wrapIdx q)

/-- The in-range mask: `0 ≤ idx ∧ idx ≤ 999999` (signed), reduced by `and` over the unit axis from 1. -/
def mask (q : IVec S16384x200 32) : IVec S16384x200 1 :=
  Host.reduce IntOp.andi
    (andi (cmpi .sge (idx3 q) (broadcastInDim S16384x200x1 ![] bcast_S_S16384x200x1 (constantI S_ 32 0#32)))
      (cmpi .sle (idx3 q) (broadcastInDim S16384x200x1 ![0, 1, 2] bcast_S1x1x1_S16384x200x1_0_1_2
        (broadcastInDim S1x1x1 ![2] bcast_S1_S1x1x1_2 (constantI S1 32 999999#32)))))
    (constantI S_ 1 1#1) reducesTo_S16384x200x1_S16384x200_d2 h_S_

/-- The gathered rows: entry `(i, j, k)` is the table at row `idx3 (i, j, 0)` (clamped into the table), column `k`. -/
def rows (q : IVec S16384x200 32) (t : FVec F S1000000x32 .f32) : FVec F S16384x200x32 .f32 :=
  Host.gather gather_S1000000x32_S16384x200x1_S16384x200x32_2_0_n_n_0_2_132 t (idx3 q)

/-- The rows where the mask is on, the quiet NaN's word elsewhere. -/
def taken (q : IVec S16384x200 32) (t : FVec F S1000000x32 .f32) : FVec F S16384x200x32 .f32 :=
  select (broadcastInDim S16384x200x32 ![0, 1] bcast_S16384x200_S16384x200x32_0_1 (mask q)) (rows q t)
    (broadcastInDim S16384x200x32 ![] bcast_S_S16384x200x32 (constant S_ .f32 0x7FC00000#32))

/-- The result: `taken` contracted with the weights over the row axis, plus the bias, the unit axis dropped. -/
def out (q : IVec S16384x200 32) (t : FVec F S1000000x32 .f32) (w : FVec F S32x1 .f32) (b : FVec F S1 .f32) :
    FVec F S16384x200 .f32 :=
  fun i => shapeCast S16384x200
    (addf (Host.dotGeneral dot_S16384x200x32_S32x1_S16384x200x1_2_0_01_1_n_n none (taken q t) w)
      (broadcastInDim S16384x200x1 ![0, 1, 2] bcast_S1x1x1_S16384x200x1_0_1_2
        (broadcastInDim S1x1x1 ![2] bcast_S1_S1x1x1_2 b)))
    shapeCasts_S16384x200x1_S16384x200 i

end Cert.Proof.Ref

end
-- ==== Proof.LibTypedRefs.lean ====
/-
  Host operations over references that carry the type of the value they hold, read at that type.

  A typed reference names a buffer together with the fact that the buffer's type is a given one; an operation built
  over typed references moves its function to the buffers' own types along those facts.  Read back at the carried
  types the moves cancel: the contents of the result's buffer, at the result's type, are the operation's function of
  the operands' contents at theirs, and every other buffer keeps its contents.  The statements are for arbitrary typed
  references, so none of them looks a buffer's type up.
-/
import Idealize.ShloMosaic.Lib.StableHlo.Run

noncomputable section

namespace Cert.TypedRefs

open Idealize.ShloMosaic Idealize.ShloMosaic.StableHlo

variable {τ : Topo} {sig : RefSig} {Val : EltTy → Type}
variable {T Tx Ta Tb Tc Ty Tz : BufTy}

/-- The contents of a typed reference's buffer, at the carried type. -/
def get (x : TRef sig T) (V : Valuation τ sig Val) : T.Contents Val := x.ofBuf (V (Proc.devRef .tc x.ref))

theorem get_nullary (y : TRef sig Ty) (v : Ty.Contents Val) (V : Valuation τ sig Val) :
    get y ((no_index (TRef.nullary y v : HloOp τ sig Val)).result V) = v := by
  obtain ⟨ry, hy, hdy, huy⟩ := y; subst hy
  exact nullary_result' _ _ V

theorem get_unary (x : TRef sig Tx) (y : TRef sig Ty) (f : Tx.Contents Val → Ty.Contents Val) (V : Valuation τ sig Val) :
    get y ((no_index (TRef.unary x y f : HloOp τ sig Val)).result V) = f (get x V) := by
  obtain ⟨rx, hx, hdx, hux⟩ := x; obtain ⟨ry, hy, hdy, huy⟩ := y; subst hx; subst hy
  exact unary_result' _ _ _ V

theorem get_binary (a : TRef sig Ta) (b : TRef sig Tb) (y : TRef sig Ty)
    (f : Ta.Contents Val → Tb.Contents Val → Ty.Contents Val) (V : Valuation τ sig Val) :
    get y ((no_index (TRef.binary a b y f : HloOp τ sig Val)).result V) = f (get a V) (get b V) := by
  obtain ⟨ra, ha, hda, hua⟩ := a; obtain ⟨rb, hb, hdb, hub⟩ := b; obtain ⟨ry, hy, hdy, huy⟩ := y
  subst ha; subst hb; subst hy
  exact binary_result' _ _ _ _ V

theorem get_ternary (c : TRef sig Tc) (a : TRef sig Ta) (b : TRef sig Tb) (y : TRef sig Ty)
    (f : Tc.Contents Val → Ta.Contents Val → Tb.Contents Val → Ty.Contents Val) (V : Valuation τ sig Val) :
    get y ((no_index (TRef.ternary c a b y f : HloOp τ sig Val)).result V) = f (get c V) (get a V) (get b V) := by
  obtain ⟨rc, hc, hdc, huc⟩ := c; obtain ⟨ra, ha, hda, hua⟩ := a; obtain ⟨rb, hb, hdb, hub⟩ := b
  obtain ⟨ry, hy, hdy, huy⟩ := y
  subst hc; subst ha; subst hb; subst hy
  exact ternary_result' _ _ _ _ _ V

/-- A reshape: the same entries in row-major order (the change of element type is the identity). -/
theorem get_reshape (x : TRef sig Tx) (y : TRef sig Ty) (he : Tx.elt = Ty.elt) (hn : Tx.shape.ShapeCasts Ty.shape)
    (V : Valuation τ sig Val) :
    get y ((no_index (TRef.reshape x y he hn : HloOp τ sig Val)).result V)
      = fun i => he ▸ shapeCast Ty.shape (get x V) hn i := by
  obtain ⟨rx, hx, hdx, hux⟩ := x; obtain ⟨ry, hy, hdy, huy⟩ := y; subst hx; subst hy
  exact reshape_result' _ _ _ _ V

theorem get_nullary_ne (y : TRef sig Ty) (v : Ty.Contents Val) (V : Valuation τ sig Val) (z : TRef sig Tz)
    (h : z.ref ≠ y.ref) : get z ((no_index (TRef.nullary y v : HloOp τ sig Val)).result V) = get z V :=
  congrArg z.ofBuf (nullary_result_ne' _ _ V h)

theorem get_unary_ne (x : TRef sig Tx) (y : TRef sig Ty) (f : Tx.Contents Val → Ty.Contents Val) (V : Valuation τ sig Val)
    (z : TRef sig Tz) (h : z.ref ≠ y.ref) :
    get z ((no_index (TRef.unary x y f : HloOp τ sig Val)).result V) = get z V :=
  congrArg z.ofBuf (unary_result_ne' _ _ _ V h)

theorem get_binary_ne (a : TRef sig Ta) (b : TRef sig Tb) (y : TRef sig Ty)
    (f : Ta.Contents Val → Tb.Contents Val → Ty.Contents Val) (V : Valuation τ sig Val) (z : TRef sig Tz)
    (h : z.ref ≠ y.ref) : get z ((no_index (TRef.binary a b y f : HloOp τ sig Val)).result V) = get z V :=
  congrArg z.ofBuf (binary_result_ne' _ _ _ _ V h)

theorem get_ternary_ne (c : TRef sig Tc) (a : TRef sig Ta) (b : TRef sig Tb) (y : TRef sig Ty)
    (f : Tc.Contents Val → Ta.Contents Val → Tb.Contents Val → Ty.Contents Val) (V : Valuation τ sig Val)
    (z : TRef sig Tz) (h : z.ref ≠ y.ref) :
    get z ((no_index (TRef.ternary c a b y f : HloOp τ sig Val)).result V) = get z V :=
  congrArg z.ofBuf (ternary_result_ne' _ _ _ _ _ V h)

theorem get_reshape_ne (x : TRef sig Tx) (y : TRef sig Ty) (he : Tx.elt = Ty.elt) (hn : Tx.shape.ShapeCasts Ty.shape)
    (V : Valuation τ sig Val) (z : TRef sig Tz) (h : z.ref ≠ y.ref) :
    get z ((no_index (TRef.reshape x y he hn : HloOp τ sig Val)).result V) = get z V :=
  congrArg z.ofBuf (reshape_result_ne' _ _ _ _ V h)

end Cert.TypedRefs

end
-- ==== Proof.RefRun.lean ====
/-
  The reference's run, read back as the pure term `out` of its four argument arrays.

  The 28 operations are taken in two stretches. The first 23 are the look-up helper's: read through references that
  carry their value's type, each operation's result at its own buffer is its function of its operands' contents and
  every other buffer is left alone, so after them the helper's result buffer holds `taken` of the index and table
  arguments, and no argument buffer has changed. The last five are the entry function's own: the contraction with the
  weights, the bias broadcast twice, the sum, and the reshape that drops the unit axis; after them the result buffer
  holds `out`. Every weakly fair execution therefore ends with the result buffer at `out` of the arguments and the
  arguments unchanged.
-/
import proofs.«206189_g37357625540624_cont_8to1_b_987_36_alg».proof.Proof.RefOps
import proofs.«206189_g37357625540624_cont_8to1_b_987_36_alg».proof.Proof.RefTerm
import proofs.«206189_g37357625540624_cont_8to1_b_987_36_alg».proof.Proof.LibTypedRefs

noncomputable section

namespace Cert.Proof.Ref

open Cert.ReferenceIdeal Idealize.ShloMosaic Idealize.ShloMosaic.TcCoe Idealize.SL.Sem
open Idealize.ShloMosaic.StableHlo
open Cert.ReferenceIdeal.Facts₀
open Cert.TypedRefs

variable {F : FTy → Type} [FloatOps F]

/-- The look-up helper's 23 operations. -/
abbrev takeOps : List (HloOp τ sig (Elt F)) :=
  [ TRef.nullary main_call0.c (constantI S_ 32 0#32),
    TRef.unary main_call0.c main_call0.v0 (broadcastInDim S16384x200 ![] bcast_S_S16384x200),
    TRef.binary (.of main_arg0) main_call0.v0 main_call0.v1 (cmpi .slt),
    TRef.nullary main_call0.c_0 (constantI S_ 32 1000000#32),
    TRef.unary main_call0.c_0 main_call0.v2 (broadcastInDim S16384x200 ![] bcast_S_S16384x200),
    TRef.binary (.of main_arg0) main_call0.v2 main_call0.v3 addi,
    TRef.ternary main_call0.v1 main_call0.v3 (.of main_arg0) main_call0.call0.v0 select,
    TRef.unary main_call0.call0.v0 main_call0.v5 (broadcastInDim S16384x200x1 ![0, 1] bcast_S16384x200_S16384x200x1_0_1),
    TRef.nullary main_call0.c_1 (constantI S1 32 999999#32),
    TRef.nullary main_call0.c_2 (constantI S_ 32 0#32),
    TRef.unary main_call0.c_2 main_call0.v6 (broadcastInDim S16384x200x1 ![] bcast_S_S16384x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x200x1 ![0, 1, 2] bcast_S1x1x1_S16384x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x200x1_S16384x200_d2 h_S_),
    TRef.binary (.of main_arg1) main_call0.v5 main_call0.v13 (fun x i => Host.gather gather_S1000000x32_S16384x200x1_S16384x200x32_2_0_n_n_0_2_132 x i),
    TRef.unary main_call0.v12 main_call0.v14 (broadcastInDim S16384x200x32 ![0, 1] bcast_S16384x200_S16384x200x32_0_1),
    TRef.nullary main_call0.cst (constant S_ .f32 0x7FC00000#32),
    TRef.unary main_call0.cst main_call0.v15 (broadcastInDim S16384x200x32 ![] bcast_S_S16384x200x32),
    TRef.ternary main_call0.v14 main_call0.v13 main_call0.v15 main_call0.v16 select ]

/-- The entry function's own five operations. -/
abbrev mainOps : List (HloOp τ sig (Elt F)) :=
  [ binary main_v0 main_arg2 main_v1 ((fun l r => Host.dotGeneral dot_S16384x200x32_S32x1_S16384x200x1_2_0_01_1_n_n none l r) : (⟨S16384x200x32, .f32⟩ : BufTy).Contents (Elt F) → (⟨S32x1, .f32⟩ : BufTy).Contents (Elt F) → (⟨S16384x200x1, .f32⟩ : BufTy).Contents (Elt F)),
    unary main_arg3 main_v2 (broadcastInDim S1x1x1 ![2] bcast_S1_S1x1x1_2 : (⟨S1, .f32⟩ : BufTy).Contents (Elt F) → (⟨S1x1x1, .f32⟩ : BufTy).Contents (Elt F)),
    unary main_v2 main_v3 (broadcastInDim S16384x200x1 ![0, 1, 2] bcast_S1x1x1_S16384x200x1_0_1_2 : (⟨S1x1x1, .f32⟩ : BufTy).Contents (Elt F) → (⟨S16384x200x1, .f32⟩ : BufTy).Contents (Elt F)),
    binary main_v1 main_v3 main_v4 (addf : (⟨S16384x200x1, .f32⟩ : BufTy).Contents (Elt F) → (⟨S16384x200x1, .f32⟩ : BufTy).Contents (Elt F) → (⟨S16384x200x1, .f32⟩ : BufTy).Contents (Elt F)),
    reshape main_v4 main_v5 rfl shapeCasts_S16384x200x1_S16384x200 ]

/-- Running all 28 is running the first 23, then the last five. -/
theorem after_ops (V : Valuation τ sig (Elt F)) : after ops V = after mainOps (after takeOps V) := rfl

set_option maxRecDepth 4096 in
/-- After the helper's operations its result buffer holds `taken` of the index and table arguments. -/
theorem take_v0 (V : Valuation τ sig (Elt F)) :
    after takeOps V (main_v0 : DevRef τ sig) = taken (V (main_arg0 : DevRef τ sig)) (V (main_arg1 : DevRef τ sig)) := by
  show get main_call0.v16 (after takeOps V)
      = taken (get (TRef.of main_arg0 : TRef sig ⟨S16384x200, .i32⟩) V) (get (TRef.of main_arg1 : TRef sig ⟨S1000000x32, .f32⟩) V)
  simp (disch := decide) only [after_cons, after_nil, get_nullary, get_unary, get_binary, get_ternary,
    get_nullary_ne, get_unary_ne, get_binary_ne, get_ternary_ne]
  rfl

/-- The helper writes none of the argument buffers. -/
theorem take_arg0 (V : Valuation τ sig (Elt F)) :
    after takeOps V (main_arg0 : DevRef τ sig) = V (main_arg0 : DevRef τ sig) := by after_results
theorem take_arg1 (V : Valuation τ sig (Elt F)) :
    after takeOps V (main_arg1 : DevRef τ sig) = V (main_arg1 : DevRef τ sig) := by after_results
theorem take_arg2 (V : Valuation τ sig (Elt F)) :
    after takeOps V (main_arg2 : DevRef τ sig) = V (main_arg2 : DevRef τ sig) := by after_results
theorem take_arg3 (V : Valuation τ sig (Elt F)) :
    after takeOps V (main_arg3 : DevRef τ sig) = V (main_arg3 : DevRef τ sig) := by after_results

/-- After the entry function's five operations the result buffer holds the contraction of the helper's result with
    the weights, plus the bias broadcast, with the unit axis dropped. -/
theorem main_v5_eq (W : Valuation τ sig (Elt F)) :
    after mainOps W (main_v5 : DevRef τ sig)
      = fun i => shapeCast S16384x200
          (addf (Host.dotGeneral dot_S16384x200x32_S32x1_S16384x200x1_2_0_01_1_n_n none (W (main_v0 : DevRef τ sig)) (W (main_arg2 : DevRef τ sig)))
            (broadcastInDim S16384x200x1 ![0, 1, 2] bcast_S1x1x1_S16384x200x1_0_1_2
              (broadcastInDim S1x1x1 ![2] bcast_S1_S1x1x1_2 (W (main_arg3 : DevRef τ sig)))))
          shapeCasts_S16384x200x1_S16384x200 i := by
  after_results
  rfl

/-- The entry function's five operations write none of the argument buffers. -/
theorem main_arg0_eq (W : Valuation τ sig (Elt F)) :
    after mainOps W (main_arg0 : DevRef τ sig) = W (main_arg0 : DevRef τ sig) := by after_results
theorem main_arg1_eq (W : Valuation τ sig (Elt F)) :
    after mainOps W (main_arg1 : DevRef τ sig) = W (main_arg1 : DevRef τ sig) := by after_results
theorem main_arg2_eq (W : Valuation τ sig (Elt F)) :
    after mainOps W (main_arg2 : DevRef τ sig) = W (main_arg2 : DevRef τ sig) := by after_results
theorem main_arg3_eq (W : Valuation τ sig (Elt F)) :
    after mainOps W (main_arg3 : DevRef τ sig) = W (main_arg3 : DevRef τ sig) := by after_results

/-- The fold of the 28 operations at the result buffer is `out` of the argument buffers. -/
theorem out_eq (V : Valuation τ sig (Elt F)) :
    after ops V (main_v5 : DevRef τ sig)
      = out (V (main_arg0 : DevRef τ sig)) (V (main_arg1 : DevRef τ sig)) (V (main_arg2 : DevRef τ sig))
          (V (main_arg3 : DevRef τ sig)) := by
  rw [after_ops, main_v5_eq, take_v0, take_arg2, take_arg3]
  rfl

theorem arg0_eq (V : Valuation τ sig (Elt F)) :
    after ops V (main_arg0 : DevRef τ sig) = V (main_arg0 : DevRef τ sig) := by
  rw [after_ops, main_arg0_eq, take_arg0]
theorem arg1_eq (V : Valuation τ sig (Elt F)) :
    after ops V (main_arg1 : DevRef τ sig) = V (main_arg1 : DevRef τ sig) := by
  rw [after_ops, main_arg1_eq, take_arg1]
theorem arg2_eq (V : Valuation τ sig (Elt F)) :
    after ops V (main_arg2 : DevRef τ sig) = V (main_arg2 : DevRef τ sig) := by
  rw [after_ops, main_arg2_eq, take_arg2]
theorem arg3_eq (V : Valuation τ sig (Elt F)) :
    after ops V (main_arg3 : DevRef τ sig) = V (main_arg3 : DevRef τ sig) := by
  rw [after_ops, main_arg3_eq, take_arg3]

/-- Every weakly fair execution of the program terminates with the result buffer at `out` of the arguments and the
    arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5)
        = out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v5).trans (out_eq _), (h c main_arg0).trans (arg0_eq _),
      (h c main_arg1).trans (arg1_eq _), (h c main_arg2).trans (arg2_eq _), (h c main_arg3).trans (arg3_eq _)⟩)
    (run_main m ρ)

end Cert.Proof.Ref

end
-- ==== Proof.LibWrap.lean ====
/-
  Two facts about 32-bit index words. A number below 2^31 written as a 32-bit word reads back, signed, as itself. A word
  that is not negative is left alone by the host's "count a negative index from the end" step
  (select (t < 0) (t + K) t), whatever the extent K.
-/
import Idealize.ShloMosaic.PureOps.Ideal
import Idealize.ShloMosaic.Lib.Affine

namespace Cert.LibWrap

open Idealize.ShloMosaic

/-- A number below 2^31, as a 32-bit word, reads back signed as itself. -/
theorem toInt_ofNat_of_lt (n : ℕ) (h : n < 2147483648) : (BitVec.ofNat 32 n).toInt = (n : Int) := by
  have h2 : (BitVec.ofNat 32 n).toNat = n := by
    rw [BitVec.toNat_ofNat]
    exact Nat.mod_eq_of_lt (by omega)
  rw [BitVec.toInt_eq_toNat_cond, h2, if_pos (by omega)]

/-- A word that is not negative is not counted from the end. -/
theorem wrap_of_nonneg (t K : BitVec 32) (h0 : 0 ≤ t.toInt) :
    Scalar.select (IntOp.cmpi .slt t 0#32) (IntOp.addi t K) t = t := by
  have hn : ¬ (IntOp.cmpi .slt t 0#32 = 1#1) := by
    rw [IntOp.cmpi_slt]
    show ¬ (t.toInt < (0#32 : BitVec 32).toInt)
    simp
    exact h0
  unfold Scalar.select
  exact if_neg hn

end Cert.LibWrap
-- ==== Proof.RefIndex.lean ====
/-
  The index stages on words in range. For an index word `v` with `v.toNat < 1000000` (so `v` is not negative as a
  signed number): counting from the end leaves it alone, so the wrapped index is the word itself; both range tests
  hold, so the mask is 1 everywhere.
-/
import proofs.«206189_g37357625540624_cont_8to1_b_987_36_alg».proof.Proof.RefTerm
import proofs.«206189_g37357625540624_cont_8to1_b_987_36_alg».proof.Proof.LibWrap
import Idealize.ShloMosaic.Lib.ValueIdx
import Idealize.ShloMosaic.Lib.Pipeline.Value
import Idealize.ShloMosaic.Lib.Affine
import Idealize.ShloMosaic.PureOps.Reduce

noncomputable section

namespace Cert.Proof.Ref

open Cert.ReferenceIdeal Idealize.ShloMosaic Idealize.ShloMosaic.ValueIdx

/-- A 32-bit word below a million reads, signed, as its value as a natural number. -/
theorem toInt_of_range {v : BitVec 32} (h : v.toNat < 1000000) : v.toInt = (v.toNat : Int) := by
  rw [BitVec.toInt_eq_toNat_cond]
  split <;> omega

/-- The wrapped index at a position is the select of the position's word. -/
theorem wrapIdx_apply (q : IVec S16384x200 32) (ij : S16384x200.Idx) :
    wrapIdx q ij = Scalar.select (IntOp.cmpi .slt (q ij) 0#32) (IntOp.addi (q ij) 1000000#32) (q ij) := rfl

/-- In range the wrap is the identity. -/
theorem wrapIdx_of_range (q : IVec S16384x200 32) (ij : S16384x200.Idx) (h : (q ij).toNat < 1000000) :
    wrapIdx q ij = q ij := by
  rw [wrapIdx_apply]
  exact Cert.LibWrap.wrap_of_nonneg _ _ (by rw [toInt_of_range h]; omega)

/-- The start indices at `(i, j, z)` are the wrapped index at `(i, j)`. -/
theorem idx3_apply (q : IVec S16384x200 32) (i : Fin 16384) (j : Fin 200) (z : Fin 1) :
    idx3 q (ix3 i j z) = wrapIdx q (ix2 i j) :=
  broadcastInDim_apply _ _ _ _ _ (fun a => by
    match a with
    | ⟨0, _⟩ => rfl
    | ⟨1, _⟩ => rfl)

/-- A left fold by `and` from 1 over 1s is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    have e : IntOp.andi 1#1 (f a) = 1#1 := by rw [h a List.mem_cons_self]; decide
    rw [List.foldl_cons, e]
    exact foldl_andi_one f l fun n hn => h n (List.mem_cons_of_mem _ hn)

/-- With every index word in range the mask is 1 everywhere. -/
theorem mask_eq_one (q : IVec S16384x200 32) (hr : ∀ ij, (q ij).toNat < 1000000) (ij : S16384x200.Idx) :
    mask q ij = 1#1 := by
  unfold mask
  rw [Host.reduce_eq_foldl]
  refine foldl_andi_one _ _ (fun i3 _ => ?_)
  obtain ⟨i, j, z, rfl⟩ : ∃ (i : Fin 16384) (j : Fin 200) (z : Fin 1), i3 = ix3 i j z := ⟨i3 0, i3 1, i3 2, eq_ix3 i3⟩
  show IntOp.andi (IntOp.cmpi .sge (idx3 q (ix3 i j z)) 0#32) (IntOp.cmpi .sle (idx3 q (ix3 i j z)) 999999#32) = 1#1
  have h := hr (ix2 i j)
  rw [idx3_apply, wrapIdx_of_range q _ h, IntOp.andi_eq_one, IntOp.cmpi_sge, IntOp.cmpi_sle, toInt_of_range h]
  have e0 : (0#32 : BitVec 32).toInt = 0 := by decide
  have e1 : (999999#32 : BitVec 32).toInt = 999999 := by decide
  rw [e0, e1]
  omega

end Cert.Proof.Ref

end
-- ==== Proof.RefGather.lean ====
/-
  The look-up of rows read at an entry. The gather takes, for result entry `(i, j, k)`, the start index
  `idx[i, j, 0]` read as a signed number and clamped into `[0, 999999]` (the table has a million rows and the slice
  is one row), and reads the table at that row, column `k`: the row axis is the collapsed one (offset 0 there), the
  column axis carries the result's last coordinate as its offset, and there are no batching axes.
-/
import proofs.«206189_g37357625540624_cont_8to1_b_987_36_alg».proof.Proof.RefTerm
import Idealize.ShloMosaic.Lib.ValueIdx

noncomputable section

namespace Cert.Proof.Ref

open Cert.ReferenceIdeal Idealize.ShloMosaic Idealize.ShloMosaic.ValueIdx

/-- The gather of rows read at `(i, j, k)`. -/
theorem gather_rows_apply {α : Type} (x : S1000000x32.Idx → α) (idx : IVec S16384x200x1 32) (i : Fin 16384) (j : Fin 200) (k : Fin 32) :
    Host.gather gather_S1000000x32_S16384x200x1_S16384x200x32_2_0_n_n_0_2_132 x idx (ix3 i j k)
      = x (ix2 (⟨min (idx (ix3 i j (0 : Fin 1))).toInt.toNat 999999, by omega⟩ : Fin 1000000) k) := by
  unfold Host.gather
  refine congrArg x (funext fun a => Fin.ext ?_)
  match a with
  | ⟨0, _⟩ =>
    show gather_S1000000x32_S16384x200x1_S16384x200x32_2_0_n_n_0_2_132.start (ix3 i j k) idx 0
        + gather_S1000000x32_S16384x200x1_S16384x200x32_2_0_n_n_0_2_132.batchCoord (ix3 i j k) 0
        + gather_S1000000x32_S16384x200x1_S16384x200x32_2_0_n_n_0_2_132.offCoord (ix3 i j k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000000x32_S16384x200x1_S16384x200x32_2_0_n_n_0_2_132.startIndexMap from List.mem_singleton.mpr rfl)]
    have hsi : gather_S1000000x32_S16384x200x1_S16384x200x32_2_0_n_n_0_2_132.siIdx (ix3 i j k)
        ⟨List.idxOf (0 : Fin 2) gather_S1000000x32_S16384x200x1_S16384x200x32_2_0_n_n_0_2_132.startIndexMap,
          List.idxOf_lt_length_iff.2 (List.mem_singleton.mpr rfl)⟩ = ix3 i j (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S1000000x32_S16384x200x1_S16384x200x32_2_0_n_n_0_2_132.start (ix3 i j k) idx 1
        + gather_S1000000x32_S16384x200x1_S16384x200x32_2_0_n_n_0_2_132.batchCoord (ix3 i j k) 1
        + gather_S1000000x32_S16384x200x1_S16384x200x32_2_0_n_n_0_2_132.offCoord (ix3 i j k) 1 = k.val
    rw [GatherDims.batchCoord_eq_zero _ _ _ List.not_mem_nil]
    have hs : gather_S1000000x32_S16384x200x1_S16384x200x32_2_0_n_n_0_2_132.start (ix3 i j k) idx 1 = 0 := by
      unfold GatherDims.start
      rw [dif_neg (show (1 : Fin 2) ∉ gather_S1000000x32_S16384x200x1_S16384x200x32_2_0_n_n_0_2_132.startIndexMap by decide)]
    rw [hs]
    have ho : gather_S1000000x32_S16384x200x1_S16384x200x32_2_0_n_n_0_2_132.offCoord (ix3 i j k) 1 = k.val := by
      unfold GatherDims.offCoord
      rw [dif_pos (show (1 : Fin 2) ∈ gather_S1000000x32_S16384x200x1_S16384x200x32_2_0_n_n_0_2_132.sKept by decide)]
      rfl
    rw [ho]
    omega

end Cert.Proof.Ref

end
-- ==== Proof.RefValue.lean ====
/-
  The reference's result is the specification. With every index word below a million: the wrap leaves the word alone
  and the mask is on, so a taken entry `(i, j, k)` is the table's entry in the row the word `q[i,j]` names, column `k`;
  the contraction over the row axis against the weights' one column is `Σ_k table[q[i,j],k]·W[k,0]`; the bias,
  broadcast twice, reads `b[0]` everywhere; and the final reshape only drops the unit axis. Entry `(i, j)` of the
  result is therefore the projected row `q[i,j]` names, which is what the specification says.
-/
import proofs.«206189_g37357625540624_cont_8to1_b_987_36_alg».proof.Proof.Spec
import proofs.«206189_g37357625540624_cont_8to1_b_987_36_alg».proof.Proof.RefRun
import proofs.«206189_g37357625540624_cont_8to1_b_987_36_alg».proof.Proof.RefIndex
import proofs.«206189_g37357625540624_cont_8to1_b_987_36_alg».proof.Proof.RefGather
import Idealize.ShloMosaic.Lib.ValueIdx
import Idealize.ShloMosaic.Lib.Pipeline.Value
import Idealize.ShloMosaic.PureOps.Ideal.Laws

noncomputable section

namespace Cert.Proof.Ref

open Cert.ReferenceIdeal Idealize.ShloMosaic Idealize.ShloMosaic.TcCoe Idealize.SL.Sem Idealize.ShloMosaic.ValueIdx
open Cert.ReferenceIdeal.Facts₀
open scoped BigOperators

/-- An `[a, b, 1]` array cast to `[a, b]` reads, at `(i, j)`, the operand at `(i, j, 0)`. -/
theorem shapeCast_ab1_ab_apply {α : Type} {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    omega)

/-- The contraction read at `(i, j, z)`: the sum over the row axis of the products with the weights' column. -/
theorem dot_apply (A : FVec Ideal S16384x200x32 .f32) (W : FVec Ideal S32x1 .f32) (i : Fin 16384) (j : Fin 200) (z : Fin 1) :
    Host.dotGeneral dot_S16384x200x32_S32x1_S16384x200x1_2_0_01_1_n_n none A W (ix3 i j z)
      = ∑ k : Fin 32, A (ix3 i j k) * W (ix2 k z) := by
  show FloatOps.dotGeneral _ none _ A W (ix3 i j z) = _
  rw [Ideal.dotGeneral_apply,
    ← Equiv.sum_comp (contrEquiv1 dot_S16384x200x32_S32x1_S16384x200x1_2_0_01_1_n_n 32 rfl rfl).symm]
  refine Finset.sum_congr rfl fun c _ => ?_
  have c3 := contrEquiv1_symm_val dot_S16384x200x32_S32x1_S16384x200x1_2_0_01_1_n_n 32 rfl rfl c
  have l3 : dot_S16384x200x32_S32x1_S16384x200x1_2_0_01_1_n_n.lhsIdx (ix3 i j z)
      ((contrEquiv1 _ 32 rfl rfl).symm c) = ix3 i j c := by
    funext ax; apply Fin.ext
    match ax with
    | ⟨0, _⟩ => simp [DotDims.lhsIdx, dot_S16384x200x32_S32x1_S16384x200x1_2_0_01_1_n_n]; rfl
    | ⟨1, _⟩ => simp [DotDims.lhsIdx, dot_S16384x200x32_S32x1_S16384x200x1_2_0_01_1_n_n]; rfl
    | ⟨2, _⟩ => simp [DotDims.lhsIdx, dot_S16384x200x32_S32x1_S16384x200x1_2_0_01_1_n_n]; exact c3
  have r3 : dot_S16384x200x32_S32x1_S16384x200x1_2_0_01_1_n_n.rhsIdx (ix3 i j z)
      ((contrEquiv1 _ 32 rfl rfl).symm c) = ix2 c z := by
    funext ax; apply Fin.ext
    match ax with
    | ⟨0, _⟩ => simp [DotDims.rhsIdx, dot_S16384x200x32_S32x1_S16384x200x1_2_0_01_1_n_n]; exact c3
    | ⟨1, _⟩ => simp [DotDims.rhsIdx, dot_S16384x200x32_S32x1_S16384x200x1_2_0_01_1_n_n]
  rw [l3, r3]

/-- The bias broadcast twice reads the bias's one entry everywhere. -/
theorem bias_apply {α : Type} (b : S1.Idx → α) (i : Fin 16384) (j : Fin 200) (z : Fin 1) :
    broadcastInDim S16384x200x1 ![0, 1, 2] Facts₀.bcast_S1x1x1_S16384x200x1_0_1_2
        (broadcastInDim S1x1x1 ![2] Facts₀.bcast_S1_S1x1x1_2 b) (ix3 i j z) = b (ix1 (0 : Fin 1)) := by
  rw [broadcastInDim_apply _ _ _ _ (ix3 (0 : Fin 1) (0 : Fin 1) (0 : Fin 1)) (fun a => by
    match a with
    | ⟨0, _⟩ => rfl
    | ⟨1, _⟩ => rfl
    | ⟨2, _⟩ => rfl)]
  exact broadcastInDim_apply _ _ _ _ (ix1 (0 : Fin 1)) (fun a => by
    match a with
    | ⟨0, _⟩ => rfl)

/-- With every index word in range, a taken entry is the table's entry in the row the word names. -/
theorem taken_apply {F : FTy → Type} [FloatOps F] (q : IVec S16384x200 32) (t : FVec F S1000000x32 .f32)
    (hr : ∀ ij, (q ij).toNat < 1000000) (i : Fin 16384) (j : Fin 200) (k : Fin 32) :
    taken q t (ix3 i j k) = t (ix2 (Cert.Proof.Spec.row (q (ix2 i j))) k) := by
  have hm : broadcastInDim S16384x200x32 ![0, 1] bcast_S16384x200_S16384x200x32_0_1 (mask q) (ix3 i j k) = 1#1 := by
    rw [broadcastInDim_apply _ _ _ _ (ix2 i j) (fun a => by
      match a with
      | ⟨0, _⟩ => rfl
      | ⟨1, _⟩ => rfl)]
    exact mask_eq_one q hr _
  unfold taken
  rw [select_apply, hm, select_one]
  unfold rows
  rw [gather_rows_apply]
  refine congrArg (fun r => t (ix2 r k)) (Fin.ext ?_)
  show min (idx3 q (ix3 i j (0 : Fin 1))).toInt.toNat 999999 = min (q (ix2 i j)).toNat 999999
  rw [idx3_apply, wrapIdx_of_range q _ (hr _), toInt_of_range (hr _), Int.toNat_natCast]

/-- Entry `(i, j)` of the reference's result is the specification's. -/
theorem out_apply (q : IVec S16384x200 32) (t : FVec Ideal S1000000x32 .f32) (w : FVec Ideal S32x1 .f32)
    (b : FVec Ideal S1 .f32) (hr : ∀ ij, (q ij).toNat < 1000000) (i : Fin 16384) (j : Fin 200) :
    out q t w b (ix2 i j) = Cert.Proof.Spec.G q t w b (ix2 i j) := by
  show shapeCast S16384x200
      (addf (Host.dotGeneral dot_S16384x200x32_S32x1_S16384x200x1_2_0_01_1_n_n none (taken q t) w)
        (broadcastInDim S16384x200x1 ![0, 1, 2] bcast_S1x1x1_S16384x200x1_0_1_2
          (broadcastInDim S1x1x1 ![2] bcast_S1_S1x1x1_2 b)))
      shapeCasts_S16384x200x1_S16384x200 (ix2 i j) = _
  rw [shapeCast_ab1_ab_apply, addf_apply, dot_apply, bias_apply]
  show _ = Cert.Proof.Spec.proj t w b (Cert.Proof.Spec.row (q (ix2 i j)))
  unfold Cert.Proof.Spec.proj
  refine congrArg (· + b (ix1 (0 : Fin 1))) (Finset.sum_congr rfl fun k _ => ?_)
  rw [taken_apply q t hr]

/-- The reference's result, as a whole array, is the specification. -/
theorem out_eq_G (q : IVec S16384x200 32) (t : FVec Ideal S1000000x32 .f32) (w : FVec Ideal S32x1 .f32)
    (b : FVec Ideal S1 .f32) (hr : ∀ ij, (q ij).toNat < 1000000) : out q t w b = Cert.Proof.Spec.G q t w b := by
  funext ij
  obtain ⟨i, j, rfl⟩ : ∃ (i : Fin 16384) (j : Fin 200), ij = ix2 i j := ⟨ij 0, ij 1, eq_ix2 ij⟩
  exact out_apply q t w b hr i j

/-- THE REFERENCE'S RUN. From any memory whose index words are below a million, every weakly fair execution of the
    reference terminates with its result the specification of its arguments and its arguments unchanged. -/
theorem run (m' : (ℓ : Loc Cert.ReferenceIdeal.nD Cert.ReferenceIdeal.τ Cert.ReferenceIdeal.sig) → Buf (Elt Ideal) ℓ)
    (g' : Dev Cert.ReferenceIdeal.nD → PrngReg)
    (hr : ∀ (c : Dev Cert.ReferenceIdeal.nD) ij,
      (m' ((c.tc : Thread Cert.ReferenceIdeal.nD Cert.ReferenceIdeal.τ).loc Cert.ReferenceIdeal.main_arg0) ij).toNat < 1000000) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5)
            = Cert.Proof.Spec.G (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
                (m' ((c.tc : Thread Cert.ReferenceIdeal.nD Cert.ReferenceIdeal.τ).loc Cert.ReferenceIdeal.main_arg2))
                (m' ((c.tc : Thread Cert.ReferenceIdeal.nD Cert.ReferenceIdeal.τ).loc Cert.ReferenceIdeal.main_arg3))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run (Cert.ReferenceIdeal.defs (F := Ideal)) _ _).mono
    (fun _ h c => ⟨(h c).1.trans (out_eq_G _ _ _ _ (hr c)), (h c).2⟩) (run_out (F := Ideal) m' g')

end Cert.Proof.Ref

end
-- ==== Proof.IdealClaims.lean ====
/-
  The claims at the ideal instance. Under the precondition every index word of `q` names a row of the table, so
  every tile's gather finds its rows; the idealized kernel's run ends with the result at the gathered projected
  table, which is the specification's function of the arguments; the reference's run ends at the same function of
  arguments that agree; each frame is its program's run with the result dropped.
-/
import proofs.«206189_g37357625540624_cont_8to1_b_987_36_alg».proof.Defs
import proofs.«206189_g37357625540624_cont_8to1_b_987_36_alg».proof.Proof.KILaunch
import proofs.«206189_g37357625540624_cont_8to1_b_987_36_alg».proof.Proof.KITile
import proofs.«206189_g37357625540624_cont_8to1_b_987_36_alg».proof.Proof.TwLocal
import proofs.«206189_g37357625540624_cont_8to1_b_987_36_alg».proof.Proof.KIRange
import proofs.«206189_g37357625540624_cont_8to1_b_987_36_alg».proof.Proof.KIValue
import proofs.«206189_g37357625540624_cont_8to1_b_987_36_alg».proof.Proof.PreRange
import proofs.«206189_g37357625540624_cont_8to1_b_987_36_alg».proof.Proof.RefValue
import proofs.«206189_g37357625540624_cont_8to1_b_987_36_alg».proof.Proof.Gen.ReferenceIdeal
import proofs.«206189_g37357625540624_cont_8to1_b_987_36_alg».proof.Proof.Gen.Pre_input_domain

noncomputable section

namespace Cert.Proof.IdealClaims

open Cert.KernelIdeal Cert.KernelIdeal.Gen Cert.Proof.KI

open Idealize.ShloMosaic Idealize.ShloMosaic.TcCoe Idealize.SL.Sem

/-- Under the precondition every word of `q` is below a million. -/
theorem range_q (m : (ℓ : Loc nD τ sig) → Buf (Elt Ideal) ℓ) (hpre : Cert.Pre_KernelIdeal m) (c : Dev nD) (ij) :
    ((m (c, a0') : S16384x200.Idx → BitVec 32) ij).toNat < 1000000 :=
  Cert.Proof.PreRange.range_of_pre (F := Ideal) _ _ _ _ (hpre c) ij

/-- So is every word of the flattened index array: a recast only re-indexes. -/
theorem range_qf (m : (ℓ : Loc nD τ sig) → Buf (Elt Ideal) ℓ) (hpre : Cert.Pre_KernelIdeal m) (d : Dev nD) (p) :
    (qfIn (F := Ideal) m d p).toNat < 1000000 := by
  obtain ⟨ij, h⟩ := qfIn_mem m d p
  show ((qfIn m d : S3276800.Idx → BitVec 32) p).toNat < 1000000
  rw [h]; exact range_q m hpre d ij

/-- The idealized kernel's run. -/
theorem runI (m : (ℓ : Loc nD τ sig) → Buf (Elt Ideal) ℓ) (ρ : Dev nD → PrngReg) (hpre : Cert.Pre_KernelIdeal m) :
    θ_run (Cert.KernelIdeal.defs (F := Ideal)) (Cert.KernelIdeal.threads (F := Ideal)) ⟨m, fun _ => 0, ρ⟩ (QC m) :=
  run_main m ρ Cert.Proof.TwLocal.rowLocal_ideal (tileObl (twOut m) (qfIn m) facts (range_qf m hpre))

theorem frame_pi : Cert.frame_KernelIdeal := fun m ρ hpre =>
  (θ_run Cert.KernelIdeal.defs _ _).mono (fun _ h c => (h c).2) (runI m ρ hpre)

theorem frame_ri : Cert.frame_ReferenceIdeal := fun m ρ hpre =>
  (θ_run Cert.ReferenceIdeal.defs _ _).mono (fun _ h c => (h c).2)
    (Cert.Proof.Ref.run m ρ fun c ij => Cert.Proof.PreRange.range_of_pre (F := Ideal) _ _ _ _ (hpre c) ij)

theorem algebraic : Cert.algebraic_KernelIdeal_ReferenceIdeal := by
  intro m g m' g' hpre hagree
  refine ⟨fun c => Cert.Proof.Spec.G (m (c, a0')) (m (c, a1')) (m (c, a2')) (m (c, a3')), ?_, ?_⟩
  · exact (θ_run Cert.KernelIdeal.defs _ _).mono (fun _ h c => ⟨(h c).1.trans (resOut_eq m c), (h c).2⟩) (runI m g hpre)
  · have hr' : ∀ (c : Dev Cert.ReferenceIdeal.nD) ij,
        (m' ((c.tc : Thread Cert.ReferenceIdeal.nD Cert.ReferenceIdeal.τ).loc Cert.ReferenceIdeal.main_arg0) ij).toNat < 1000000 := fun c ij => by
      rw [(hagree c).1]; exact range_q m hpre c ij
    refine (θ_run Cert.ReferenceIdeal.defs _ _).mono (fun _ h c => ⟨(h c).1.trans ?_, (h c).2⟩) (Cert.Proof.Ref.run m' g' hr')
    rw [(hagree c).1, (hagree c).2.1, (hagree c).2.2.1, (hagree c).2.2.2]

end Cert.Proof.IdealClaims

end
-- ==== Proof.KBBase.lean ====
/-
  The kernel as printed, as the launch theorem of its second processor sees it: the program's table of
  SparseCore calls, its body table, and the ghost state the proof runs over — the launch handshakes' rounds,
  the rounds of the staging cells of the one pipelined call on the first processor, and the counters of the
  gather kernel's own copies.
-/
import proofs.«206189_g37357625540624_cont_8to1_b_987_36_alg».proof.Defs
import Idealize.ShloMosaic.Lib.SparseCore.Launch
import Idealize.ShloMosaic.Lib.StableHlo.Run
import Idealize.ShloMosaic.Lib.Pipeline.Kit
import Idealize.ShloMosaic.Lib.Tactic
import proofs.«206189_g37357625540624_cont_8to1_b_987_36_alg».proof.Proof.Gen.Kernel
import proofs.«206189_g37357625540624_cont_8to1_b_987_36_alg».proof.Proof.Gen.Kernel.Skeleton
import proofs.«206189_g37357625540624_cont_8to1_b_987_36_alg».proof.Proof.Gen.Kernel.Launch
import proofs.«206189_g37357625540624_cont_8to1_b_987_36_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the copies' counters -/

abbrev UH : Type := URounds (GSem nD τ sig) ℕ
abbrev UR : Type := URounds (GSem nD τ sig) Unit
abbrev UU : Type := UH × (UR × Counters)

/-- The handshakes' rounds: the left factor. -/
abbrev EH : Emb UH (MT nD τ sig (HIx 1) (Elt F) ℕ UU ℕ) := embL

/-- The staging cells' rounds: the left factor of the right factor; the counters beside them are found by instance. -/
def ER : Emb UR (MT nD τ sig (HIx 1) (Elt F) ℕ UU ℕ) :=
  (Emb.inl : Emb UR (UR × Counters)).trans (embR : Emb (UR × Counters) (MT nD τ sig (HIx 1) (Elt F) ℕ UU ℕ))

instance ER_landsIn : (ER : Emb UR (MT nD τ sig (HIx 1) (Elt F) ℕ UU ℕ)).LandsIn (upEmb : UEmb _ (MT nD τ sig (HIx 1) (Elt F) ℕ UU ℕ)) := by
  unfold ER; infer_instance

end Cert.Proof.KB

end
-- ==== Proof.KBRegionData.lean ====
/-
  The projection call on the first processor, as data for the pipeline rule: what each of its three input windows'
  staging buffers holds before and after the body at each of the 25 grid points. Window 0 is a 40960-row block
  of the table (the last block reaches past the table's end: only its first 16960 rows are the table's), windows
  1 and 2 the weight row and the bias (the same block at every point). Window 3, the 40960 projected rows the
  body writes, is FORGOTTEN: nothing is said of what the body leaves there, so nothing is said of what the
  write-backs leave in the fourth array. That is all a claim that never reads the projected table wants, and it
  is what holds at every float instance: at the word-level one a projected row is an opaque function of the whole
  table block, the words past the table's end included.
-/
import proofs.«206189_g37357625540624_cont_8to1_b_987_36_alg».proof.Proof.KBBase
import Idealize.ShloMosaic.Lib.Pipeline.FrameBody
import Idealize.ShloMosaic.Lib.ValueIdx

set_option maxRecDepth 16384

noncomputable section

namespace Cert.Proof.KB

open Cert.Kernel Cert.Kernel.Gen

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [∀ e, Nonempty (Elt F e)]

local notation "𝕄" => MT nD τ sig (HIx 1) (Elt F) ℕ UU ℕ

-- The first processor's arrays as the call finds them.
variable (Vr : (d : Dev nD) → (b : Ref sig .tc) → Buf (Elt F) ((d : Thread nD τ).loc b))

/-- The table's block at point `t`: its rows inside the table. -/
def b0 (d : Dev nD) (t : Fin cfg0.N) : (win0_0.xblock (grid0.coords t)).Idx → Elt F .f32 :=
  (win0_0.blk t).view.read (Elt F) (Vr d main_arg1)
/-- The weight row and the bias, the same at every point. -/
def b1 (d : Dev nD) (t : Fin cfg0.N) : (win0_1.xblock (grid0.coords t)).Idx → Elt F .f32 :=
  (win0_1.blk t).view.read (Elt F) (Vr d main_v0)
def b2 (d : Dev nD) (t : Fin cfg0.N) : (win0_2.xblock (grid0.coords t)).Idx → Elt F .f32 :=
  (win0_2.blk t).view.read (Elt F) (Vr d main_v1)

/-- The staging buffers after the body at point `t`, past the table's end filled with the zero word. -/
def x0 (d : Dev nD) (t : Fin cfg0.N) : S40960x32.Idx → Elt F .f32 :=
  win0_0.fill (grid0.coords t) (fun _ => Scalar.ofBits .f32 0#32) (b0 Vr d t)
def x1 (d : Dev nD) (t : Fin cfg0.N) : S1x32.Idx → Elt F .f32 :=
  win0_1.fill (grid0.coords t) (fun _ => Scalar.ofBits .f32 0#32) (b1 Vr d t)
def x2 (d : Dev nD) (t : Fin cfg0.N) : S1x1.Idx → Elt F .f32 :=
  win0_2.fill (grid0.coords t) (fun _ => Scalar.ofBits .f32 0#32) (b2 Vr d t)

/-- The windows the data forgets: the result's. -/
def fgt : Fin cfg0.W → Bool := fun w => match w with
  | ⟨0, _⟩ => false
  | ⟨1, _⟩ => false
  | ⟨2, _⟩ => false
  | ⟨3, _⟩ => true

/-- The pipeline's proof data on device `d`: the arrays as found; the inputs' buffers at their blocks; the result's
    named at nothing in particular (it is forgotten, and nothing reads the name); nothing of the body's own; what
    the first processor owes the launch of the second, unchanged through the call, its recorded waits all at the
    kernels' own index. -/
def dats (_ : Fin 1) (d : Dev nD) : Dat τ (Elt F) (HIx 1) ℕ UU ℕ cfg0 d where
  A w := Vr d (Pipeline.arrRef spec0 w)
  after w t := match w with
    | ⟨0, _⟩ => x0 Vr d t
    | ⟨1, _⟩ => x1 Vr d t
    | ⟨2, _⟩ => x2 Vr d t
    | ⟨3, _⟩ => fun _ => Classical.arbitrary _
  Φ _ := iprop(emp)
  q _ := fullShare
  owed _ := (K (F := F)).Otc d 0
  recorded _ := {p | p.2 = (none : HIx 1)}

theorem A_eq (d : Dev nD) (w : Fin cfg0.W) : (dats Vr 0 d).A w = Vr d (Pipeline.arrRef spec0 w) := by
  dsimp only [dats]

theorem after_0 (d : Dev nD) (t : Fin cfg0.N) : (dats Vr 0 d).after 0 t = x0 Vr d t := by dsimp only [dats]
theorem after_1 (d : Dev nD) (t : Fin cfg0.N) : (dats Vr 0 d).after 1 t = x1 Vr d t := by dsimp only [dats]
theorem after_2 (d : Dev nD) (t : Fin cfg0.N) : (dats Vr 0 d).after 2 t = x2 Vr d t := by dsimp only [dats]

/-- The table's window is fetched at every point: its buffer holds the block on the rows inside the table and
    `e`, anything, past them. -/
theorem before_0 (d : Dev nD) (t : Fin cfg0.N) (e) :
    (dats Vr 0 d).before (0 : Fin 4) t e = win0_0.fill (grid0.coords t) e (b0 Vr d t) := by
  unfold Dat.before; rw [if_pos (fetch0_0 t)]; rfl

end Cert.Proof.KB

end
-- ==== Proof.KBRegionBody.lean ====
/-
  The projection call's body on four whole staging buffers: it reads the table block, the weight row and the
  bias, and overwrites the result buffer with one store; the three inputs are left as found. Then what the weight
  row's and the bias's buffers hold when the body is handed them at a grid point: the row and the bias, at every
  point (the table's buffer is read in the data's own module; the result's is forgotten and handed over at anything).
-/
import proofs.«206189_g37357625540624_cont_8to1_b_987_36_alg».proof.Proof.KBRegionData
import Idealize.ShloMosaic.Lib.Pipeline.Value
import Idealize.ShloMosaic.Lib.Ring

set_option maxRecDepth 16384

noncomputable section

namespace Cert.Proof.KB

open Cert.Kernel Cert.Kernel.Gen

open Idealize.ShloMosaic Idealize.ShloMosaic.TcCoe Idealize.ShloMosaic.ValueIdx Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [∀ e, Nonempty (Elt F e)]

local notation "𝕄" => MT nD τ sig (HIx 1) (Elt F) ℕ UU ℕ

/-! ## The body's accesses: each buffer whole -/

abbrev r0 : Rect S40960x32 := Rect.unit (s := S40960x32) ![0, 0] S40960x32.size inb_S40960x32_S40960x32_0_0
abbrev r1 : Rect S1x32 := Rect.unit (s := S1x32) ![0, 0] S1x32.size inb_S1x32_S1x32_0_0
abbrev r2 : Rect S1x1 := Rect.unit (s := S1x1) ![0, 0] S1x1.size inb_S1x1_S1x1_0_0
abbrev r3 : Rect S40960 := Rect.unit (s := S40960) ![0] S40960.size inb_S40960_S40960_0

/-- What the result's buffer holds after the body: its one store, of the projected rows of what the three loads read. -/
def out3 (x0 : Vec F S40960x32 .f32) (x1 : Vec F S1x32 .f32) (x2 : Vec F S1x1 .f32) : Vec F S40960 .f32 :=
  View.canon [⟨r3, k0_pay1 (View.ld x0 r0) (View.ld x1 r1) (View.ld x2 r2)⟩]

/-- The one store covers the buffer. -/
theorem cover3 (p0 : Vec F S40960 .f32) (y : S40960.Idx) :
    ∃ pc ∈ ([⟨r3, p0⟩] : List (View.Piece (Elt F) S40960 .f32)), y ∈ pc.1.set :=
  View.cover_of_tiled [⟨r3, p0⟩] S40960.size (by rfl) y

set_option maxHeartbeats 1000000 in
/-- The body on whole staging memrefs, the inputs' at contents `x0`, `x1`, `x2` and the result's at anything, runs
    to the continuation holding the inputs' as they were and the result's at `out3` of them. -/
theorem sound_kernel (c : Dev nD) (E : Set ℕ) (i : grid0.Coords)
    (arg1 : Memref sig .tc .vmem S40960x32 .f32) (harg1 : arg1.IsWhole) (arg2 : Memref sig .tc .vmem S1x32 .f32) (harg2 : arg2.IsWhole)
    (arg3 : Memref sig .tc .vmem S1x1 .f32) (harg3 : arg3.IsWhole) (arg4 : Memref sig .tc .vmem S40960 .f32) (harg4 : arg4.IsWhole)
    (x0 : Vec F S40960x32 .f32) (x1 : Vec F S1x32 .f32) (x2 : Vec F S1x1 .f32) (Kk : PUnit → sProp 𝕄) :
    iprop(owns (c : Thread nD τ) arg1 fullShare x0 ∗ owns (c : Thread nD τ) arg2 fullShare x1 ∗ owns (c : Thread nD τ) arg3 fullShare x2
        ∗ (∃ e, owns (c : Thread nD τ) arg4 fullShare e)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ Kk ⟨⟩))
      ⊢ wp frame (wpE (defs₀ (F := F)) Variants.none c none) E (cc0__proj_body i arg1 harg1 arg2 harg2 arg3 harg3 arg4 harg4) Kk := by
  simp only [cc0__proj_body_eq_skeleton]; unfold cc0__proj_body_skel
  unfold owns
  iintro ⟨⟨%f0, %hf0, H0⟩, ⟨%f1, %hf1, H1⟩, ⟨%f2, %hf2, H2⟩, ⟨%e3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## What the body finds in each window's buffer -/

variable (Vr : (d : Dev nD) → (b : Ref sig .tc) → Buf (Elt F) ((d : Thread nD τ).loc b))

/-- The body leaves the weight row's block in place, -/
theorem keep_1 (d : Dev nD) (t : Fin cfg0.N) :
    (cfg0.win 1).cut (cfg0.grid.coords t) ((dats Vr 0 d).after 1 t) = (dats Vr 0 d).blockOf 1 t := by
  rw [after_1]
  show win0_1.cut (grid0.coords t) (win0_1.fill (grid0.coords t) _ (b1 Vr d t)) = _
  rw [Window.cut_fill]
  unfold Dat.blockOf b1; rw [A_eq]
/-- and the bias's. -/
theorem keep_2 (d : Dev nD) (t : Fin cfg0.N) :
    (cfg0.win 2).cut (cfg0.grid.coords t) ((dats Vr 0 d).after 2 t) = (dats Vr 0 d).blockOf 2 t := by
  rw [after_2]
  show win0_2.cut (grid0.coords t) (win0_2.fill (grid0.coords t) _ (b2 Vr d t)) = _
  rw [Window.cut_fill]
  unfold Dat.blockOf b2; rw [A_eq]

/-- So the weight row's buffer holds the row at every point, fetched there or not (its block never moves), -/
theorem before_1 (d : Dev nD) (t : Fin cfg0.N) (e) : (dats Vr 0 d).before (1 : Fin 4) t e = x1 Vr d t :=
  ((dats Vr 0 d).before_in_eq_fetched 1 rfl (fun _ => rfl) (fun _ _ _ => rfl) (keep_1 Vr d) t e).trans
    (by unfold Dat.fetched Dat.blockOf x1 b1; rw [A_eq]; rfl)
/-- and the bias's the bias. -/
theorem before_2 (d : Dev nD) (t : Fin cfg0.N) (e) : (dats Vr 0 d).before (2 : Fin 4) t e = x2 Vr d t :=
  ((dats Vr 0 d).before_in_eq_fetched 2 rfl (fun _ => rfl) (fun _ _ _ => rfl) (keep_2 Vr d) t e).trans
    (by unfold Dat.fetched Dat.blockOf x2 b2; rw [A_eq]; rfl)

end Cert.Proof.KB

end
-- ==== Proof.KBRegionObl.lean ====
/-
  The projection call's body obligation at every grid point, the result's window forgotten. The table's window is
  stated on the rows inside the table only: the last block reaches past the table's end and its staging buffer
  holds there words nothing names. The result's buffer is handed to the body at contents nothing names and taken
  back at contents nothing names: the body overwrites it whole, and what it writes is not said.
-/
import proofs.«206189_g37357625540624_cont_8to1_b_987_36_alg».proof.Proof.KBRegionBody

set_option maxRecDepth 16384

noncomputable section

namespace Cert.Proof.KB

open Cert.Kernel Cert.Kernel.Gen

open Idealize.ShloMosaic Idealize.ShloMosaic.TcCoe Idealize.ShloMosaic.ValueIdx Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [∀ e, Nonempty (Elt F e)]

local notation "𝕄" => MT nD τ sig (HIx 1) (Elt F) ℕ UU ℕ

variable (Vr : (d : Dev nD) → (b : Ref sig .tc) → Buf (Elt F) ((d : Thread nD τ).loc b))

/-- What the body is called with at point `t`, -/
def bodyPre (d : Dev nD) (t : Fin cfg0.N) : sProp 𝕄 :=
  iprop((dats Vr 0 d).Φ t.castSucc ∗ (dats Vr 0 d).owesAt (none : HIx 1) t.castSucc
    ∗ (∃ e, owns (d : Thread nD τ) (st0_0 t) fullShare ((dats Vr 0 d).before 0 t e))
    ∗ (∃ e, owns (d : Thread nD τ) (st0_1 t) fullShare ((dats Vr 0 d).before 1 t e))
    ∗ (∃ e, owns (d : Thread nD τ) (st0_2 t) fullShare ((dats Vr 0 d).before 2 t e))
    ∗ (∃ X, owns (d : Thread nD τ) (st0_3 t) fullShare X))

/-- and what it returns: the table's buffer stated on the rows its fetch moves, the result's at anything. -/
def bodyPost (d : Dev nD) (t : Fin cfg0.N) : sProp 𝕄 :=
  iprop((dats Vr 0 d).Φ t.succ ∗ (dats Vr 0 d).owesAt (none : HIx 1) t.succ
    ∗ (∃ e, owns (d : Thread nD τ) (st0_0 t) fullShare (win0_0.fill (grid0.coords t) e (win0_0.cut (grid0.coords t) ((dats Vr 0 d).after 0 t))))
    ∗ owns (d : Thread nD τ) (st0_1 t) fullShare ((dats Vr 0 d).after 1 t)
    ∗ owns (d : Thread nD τ) (st0_2 t) fullShare ((dats Vr 0 d).after 2 t)
    ∗ (∃ X, owns (d : Thread nD τ) (st0_3 t) fullShare X))

/-- The body at any point. -/
theorem sound_body (d : Dev nD) (t : Fin cfg0.N) :
    bodyPre Vr d t ⊢ wp frame (wpE (defs₀ (F := F)) Variants.none d none) Set.univ (bodyAt0 t) (fun _ => bodyPost Vr d t) := by
  unfold bodyPre bodyPost bodyAt0
  rw [show (dats Vr 0 d).Φ t.succ = (dats Vr 0 d).Φ t.castSucc from rfl,
    show (dats Vr 0 d).owesAt (none : HIx 1) t.succ = (dats Vr 0 d).owesAt (none : HIx 1) t.castSucc from rfl,
    after_0, after_1, after_2]
  iintro ⟨HΦ, Ho, ⟨%e0, H0⟩, ⟨%e1, H1⟩, ⟨%e2, H2⟩, ⟨%e3, H3⟩⟩
  rw [before_0 Vr d t e0, before_1 Vr d t e1, before_2 Vr d t e2]
  iapply (sound_kernel d Set.univ (grid0.coords t) _ _ _ _ _ _ _ _ (win0_0.fill (grid0.coords t) e0 (b0 Vr d t)) (x1 Vr d t) (x2 Vr d t) _)
  isplitl [H0]; · iexact H0
  isplitl [H1]; · iexact H1
  isplitl [H2]; · iexact H2
  isplitl [H3]; · iexists e3; iexact H3
  iintro ⟨H0, H1, H2, H3⟩
  isplitl [HΦ]; · iexact HΦ
  isplitl [Ho]; · iexact Ho
  isplitl [H0]
  · iexists e0
    rw [show win0_0.cut (grid0.coords t) (x0 Vr d t) = b0 Vr d t from win0_0.cut_fill _ _ _]
    iexact H0
  isplitl [H1]; · iexact H1
  isplitl [H2]; · iexact H2
  iexists _
  iexact H3

/-- The pipeline rule's body obligation with the result's window forgotten, at every point. -/
theorem body_obligation (d : Dev nD) :
    BodyObligationLoose (dats Vr 0 d) (defs₀ (F := F)) 𝒱₀ (none : HIx 1) Set.univ fgt := fun t => by
  rw [bigSep_W0, bigSep_W0]
  exact sound_body Vr d t

end Cert.Proof.KB

end
-- ==== Proof.KBRegionSeg.lean ====
/-
  The projection call as one step of the first processor's program, over data that forgets the result's window:
  entered holding its four arrays and what the processor owes the launch of the second, it ends holding the three
  input arrays as they were (an input array is never written), the fourth array at contents nothing names, and the
  same debt. The call's own waits sit below everything owed, which is all at a later call's index.
-/
import proofs.«206189_g37357625540624_cont_8to1_b_987_36_alg».proof.Proof.KBRegionObl
import Idealize.ShloMosaic.Lib.Pipeline.Regions

set_option maxRecDepth 16384

noncomputable section

namespace Cert.Proof.KB

open Cert.Kernel Cert.Kernel.Gen

open Idealize.ShloMosaic Idealize.ShloMosaic.TcCoe Idealize.ShloMosaic.ValueIdx Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [∀ e, Nonempty (Elt F e)]

local notation "𝕄" => MT nD τ sig (HIx 1) (Elt F) ℕ UU ℕ

variable (Vr : (d : Dev nD) → (b : Ref sig .tc) → Buf (Elt F) ((d : Thread nD τ).loc b))

/-- The prefetched tables' admissible contents: the call has no table. -/
abbrev adm : (p : Fin 1) → (pcfgs (F := F) p).Adm := fun p => (cfgs p).toPCfg_adm

/-- The one pipeline's proof data, read as relations between what the body is handed and what it leaves, the
    result's window forgotten. -/
def rdats : (p : Fin 1) → (d : Dev nD) → Pipeline.RDat τ (Elt F) (HIx 1) ℕ UU ℕ (Pipeline.pin (pcfgs (F := F)) adm p) d :=
  fun _ d => (dats Vr 0 d).toRForget fgt

/-- Everything the first processor owes is owed at a later call's index. -/
theorem Otc_none (d : Dev nD) (n : ℕ) (g : GSem nD τ sig) : (K (F := F)).Otc d n g none = 0 := by
  by_contra h
  have := (K (F := F)).lev_of_Otc_pos (Nat.pos_of_ne_zero h); rw [SparseCore.Cfg.lev_none] at this; omega

/-- What the first processor owes through the call, its recorded waits all at the kernels' own index. -/
abbrev owesTc (d : Dev nD) : sProp 𝕄 :=
  iprop(∃ W, ⌜(K (F := F)).WBelow (T d) W 0⌝ ∗ owes (T d) ((K (F := F)).Otc d 0) W)

theorem owesAt_intro (d : Dev nD) (t : Fin (cfg0.N + 1)) : owesTc (F := F) d ⊢ ((dats Vr 0 d).owesAt (none : HIx 1) t : sProp 𝕄) := by
  unfold Pipeline.Dat.owesAt Pipeline.owesWithin Pipeline.Dat.bound
  iintro ⟨%W, %hW, HO⟩; iexists W; isplitr
  · ipureintro; intro p hp; left
    show p.2 = none
    cases h : p.2 with
    | none => rfl
    | some q =>
      have := hW p hp; rw [h] at this
      exact absurd this (Nat.not_le.mpr ((K (F := F)).lev_some_pos _ q))
  · iexact HO

theorem owesAt_elim (d : Dev nD) (t : Fin (cfg0.N + 1)) : ((dats Vr 0 d).owesAt (none : HIx 1) t : sProp 𝕄) ⊢ owesTc (F := F) d := by
  unfold Pipeline.Dat.owesAt Pipeline.owesWithin Pipeline.Dat.bound
  iintro ⟨%W, %hW, HO⟩; iexists W; isplitr
  · ipureintro; intro p hp
    rcases hW hp with h | ⟨w, s, rfl⟩
    · have h' : p.2 = none := h
      show (K (F := F)).lev _ p.2 ≤ 0; rw [h']; exact le_of_eq ((K (F := F)).lev_none _)
    · exact le_of_eq ((K (F := F)).lev_none _)
  · iexact HO

/-- The call's waits on its staging cells are admissible under that debt. -/
theorem hwaits (d : Dev nD) :
    (levAts (K (F := F)).L (K (F := F)).lev : sProp 𝕄) ⊢ Pipeline.RDat.cellsWaits (Pipeline.pin (pcfgs (F := F)) adm) (rdats Vr) (none : HIx 1) 0 d :=
  Pipeline.RDat.cellsWaits_intro _ _ _ 0 d fun w s t => (K (F := F)).mayWait_none _ (fun g => Otc_none d 0 g)

/-- The call has no prefetched table to hold. -/
theorem prefHeld_none (d : Dev nD) :
    (Pipeline.prefHeld (Ix := HIx 1) (Name := ℕ) (U := UU) (Lvl := ℕ) (Val := Elt F) (pcfgs (F := F) 0).pre d (fun _ => fullShare) (adm (F := F) 0).1 : sProp 𝕄) = BI.emp := by
  unfold Pipeline.prefHeld; exact bigSep_empty

/-- One window's array, held whole and outright, as a plain fact about the buffer behind it. -/
theorem arr_pts (d : Dev nD) (w : Fin cfg0.W) (Fw : Buf (Elt F) ((cfg0.win w).arr.view.loc (d.tc : Thread nD τ))) :
    ((cfg0.win w).arr.view.loc (d.tc : Thread nD τ) ↦[(cfg0.win w).arr.view.set]{((dats Vr 0 d).toRForget fgt).share w} Fw : sProp 𝕄)
      = (((d.tc : Thread nD τ).loc (Pipeline.arrRef spec0 w)) ↦{fullShare} Fw) := by
  rw [(arr_whole0 w).set_eq_univ, Pipeline.Dat.toRForget_share, (dats Vr 0 d).share_full (fun _ => rfl) w]

/-- The same, window by window, the buffer behind each named. -/
theorem arr_pts0 (d : Dev nD) (Fw : Buf (Elt F) ((cfg0.win 0).arr.view.loc (d.tc : Thread nD τ))) :
    ((cfg0.win 0).arr.view.loc (d.tc : Thread nD τ) ↦[(cfg0.win 0).arr.view.set]{((dats Vr 0 d).toRForget fgt).share 0} Fw : sProp 𝕄)
      = (((d : Thread nD τ).loc main_arg1) ↦{fullShare} Fw) := arr_pts Vr d 0 Fw
theorem arr_pts1 (d : Dev nD) (Fw : Buf (Elt F) ((cfg0.win 1).arr.view.loc (d.tc : Thread nD τ))) :
    ((cfg0.win 1).arr.view.loc (d.tc : Thread nD τ) ↦[(cfg0.win 1).arr.view.set]{((dats Vr 0 d).toRForget fgt).share 1} Fw : sProp 𝕄)
      = (((d : Thread nD τ).loc main_v0) ↦{fullShare} Fw) := arr_pts Vr d 1 Fw
theorem arr_pts2 (d : Dev nD) (Fw : Buf (Elt F) ((cfg0.win 2).arr.view.loc (d.tc : Thread nD τ))) :
    ((cfg0.win 2).arr.view.loc (d.tc : Thread nD τ) ↦[(cfg0.win 2).arr.view.set]{((dats Vr 0 d).toRForget fgt).share 2} Fw : sProp 𝕄)
      = (((d : Thread nD τ).loc main_v1) ↦{fullShare} Fw) := arr_pts Vr d 2 Fw
theorem arr_pts3 (d : Dev nD) (Fw : Buf (Elt F) ((cfg0.win 3).arr.view.loc (d.tc : Thread nD τ))) :
    ((cfg0.win 3).arr.view.loc (d.tc : Thread nD τ) ↦[(cfg0.win 3).arr.view.set]{((dats Vr 0 d).toRForget fgt).share 3} Fw : sProp 𝕄)
      = (((d : Thread nD τ).loc main_v2) ↦{fullShare} Fw) := arr_pts Vr d 3 Fw

/-- The pipeline's four arrays at contents `Fa`, one by one, each held whole and outright. -/
theorem arrays_pts (d : Dev nD) (Fa : (w : Fin cfg0.W) → Buf (Elt F) ((cfg0.win w).arr.view.loc (d.tc : Thread nD τ))) :
    ((dats Vr 0 d).arrays Fa : sProp 𝕄)
      = iprop((((d : Thread nD τ).loc main_arg1) ↦{fullShare} Fa 0) ∗ (((d : Thread nD τ).loc main_v0) ↦{fullShare} Fa 1)
          ∗ (((d : Thread nD τ).loc main_v1) ↦{fullShare} Fa 2) ∗ (((d : Thread nD τ).loc main_v2) ↦{fullShare} Fa 3)) := by
  rw [Pipeline.arrays_eq cfgs (fun _ => dats Vr 0) 0 d arr_whole0 (fun w => (dats Vr 0 d).share_full (fun _ => rfl) w) Fa, bigSep_W0]

/-- An input array is never written. -/
theorem arrAt_0 (d : Dev nD) (t : Nat) : (dats Vr 0 d).arrAt 0 t = Vr d main_arg1 :=
  ((dats Vr 0 d).arrAt_in 0 rfl t).trans (A_eq Vr d 0)
theorem arrAt_1 (d : Dev nD) (t : Nat) : (dats Vr 0 d).arrAt 1 t = Vr d main_v0 :=
  ((dats Vr 0 d).arrAt_in 1 rfl t).trans (A_eq Vr d 1)
theorem arrAt_2 (d : Dev nD) (t : Nat) : (dats Vr 0 d).arrAt 2 t = Vr d main_v1 :=
  ((dats Vr 0 d).arrAt_in 2 rfl t).trans (A_eq Vr d 2)

/-- What the call is entered from: the four arrays at what the first processor holds, and what it owes. -/
def segPre (d : Dev nD) : sProp 𝕄 :=
  iprop((((d : Thread nD τ).loc main_arg1) ↦{fullShare} Vr d main_arg1) ∗ (((d : Thread nD τ).loc main_v0) ↦{fullShare} Vr d main_v0)
    ∗ (((d : Thread nD τ).loc main_v1) ↦{fullShare} Vr d main_v1) ∗ (((d : Thread nD τ).loc main_v2) ↦{fullShare} Vr d main_v2)
    ∗ owesTc (F := F) d)

/-- What it leaves: the inputs as they were, the fourth array at contents nothing names, the same debt. -/
def segPost (d : Dev nD) : sProp 𝕄 :=
  iprop((((d : Thread nD τ).loc main_arg1) ↦{fullShare} Vr d main_arg1) ∗ (((d : Thread nD τ).loc main_v0) ↦{fullShare} Vr d main_v0)
    ∗ (((d : Thread nD τ).loc main_v1) ↦{fullShare} Vr d main_v1) ∗ (∃ f, ((d : Thread nD τ).loc main_v2) ↦{fullShare} f)
    ∗ owesTc (F := F) d)

/-- After every write-back: each input array at its entry contents, the fourth at some contents. -/
theorem arraysAt_elim (d : Dev nD) :
    ((rdats Vr 0 d).arraysAt cfg0.N : sProp 𝕄)
      ⊢ iprop((((d : Thread nD τ).loc main_arg1) ↦{fullShare} Vr d main_arg1) ∗ (((d : Thread nD τ).loc main_v0) ↦{fullShare} Vr d main_v0)
        ∗ (((d : Thread nD τ).loc main_v1) ↦{fullShare} Vr d main_v1) ∗ (∃ f, ((d : Thread nD τ).loc main_v2) ↦{fullShare} f)) := by
  unfold Pipeline.RDat.arraysAt rdats
  rw [bigSep_W0]
  simp only [arr_pts0 Vr d, arr_pts1 Vr d, arr_pts2 Vr d, arr_pts3 Vr d]
  iintro ⟨⟨%F0, %h0, H0⟩, ⟨%F1, %h1, H1⟩, ⟨%F2, %h2, H2⟩, ⟨%F3, -, H3⟩⟩
  have e0 := ((dats Vr 0 d).toRForget_arrAt_iff (fgt := fgt) (w := 0) rfl cfg0.N F0).mp h0
  have e1 := ((dats Vr 0 d).toRForget_arrAt_iff (fgt := fgt) (w := 1) rfl cfg0.N F1).mp h1
  have e2 := ((dats Vr 0 d).toRForget_arrAt_iff (fgt := fgt) (w := 2) rfl cfg0.N F2).mp h2
  rw [e0, e1, e2, arrAt_0, arrAt_1, arrAt_2]
  isplitl [H0]; · iexact H0
  isplitl [H1]; · iexact H1
  isplitl [H2]; · iexact H2
  iexists F3; iexact H3

/-- The call as a segment. -/
def regSeg :
    Pipeline.RDat.RegionSeg (pcfgs (F := F)) adm (rdats Vr) (none : HIx 1) defs₀ 𝒱₀ (K (F := F)).L (K (F := F)).lev (0 : Fin 1) where
  win := launch0.win.to₀
  block_pos := block_pos0
  stage_whole := stage_whole0
  K := PEmpty
  osem k := k.elim
  ho := Pipeline.OwnSemFacts.none _
  hbody d := (body_obligation Vr d).toRForget
  hwaits d := hwaits Vr d
  pre d := segPre Vr d
  post d := segPost Vr d
  X _ := iprop(emp)
  Y _ := iprop(emp)
  Z _ := iprop(emp)
  hentry d := by
    rw [Pipeline.ownSems0_none, prefHeld_none]
    show _ ⊢ |={Set.univ}=> iprop((dats Vr 0 d).arrays (dats Vr 0 d).A ∗ BI.emp ∗ (dats Vr 0 d).owesAt (none : HIx 1) 0 ∗ iprop(emp) ∗ iprop(emp))
    rw [arrays_pts, A_eq, A_eq, A_eq, A_eq]
    unfold segPre
    iintro ⟨⟨H0, H1, H2, H3, HO⟩, -, -⟩
    imodintro
    isplitl [H0 H1 H2 H3]
    · isplitl [H0]; · iexact H0
      isplitl [H1]; · iexact H1
      isplitl [H2]; · iexact H2
      iexact H3
    isplitr; · iempintro
    isplitl [HO]; · iapply (owesAt_intro Vr d 0); iexact HO
    isplitr <;> iempintro
  hin d := by
    iintro -; iempintro
  hout d := by
    rw [Pipeline.ownSems0_none, scopedRest0_eq]
    iintro -
    isplitr; · iempintro
    isplitr <;> iempintro
  hexit d := by
    show iprop((rdats Vr 0 d).arraysAt cfg0.N ∗ (dats Vr 0 d).owesAt (none : HIx 1) (Fin.last cfg0.N) ∗ iprop(emp) ∗ iprop(emp)) ⊢ _
    unfold segPost
    iintro ⟨Ha, HO, -, -⟩
    imodintro
    ihave Ha' := (arraysAt_elim Vr d) $$ Ha
    icases Ha' with ⟨H0, H1, H2, H3⟩
    isplitl [H0]; · iexact H0
    isplitl [H1]; · iexact H1
    isplitl [H2]; · iexact H2
    isplitl [H3]; · iexact H3
    iapply (owesAt_elim Vr d (Fin.last _)); iexact HO

end Cert.Proof.KB

end
-- ==== Proof.KBRegionStep.lean ====
/-
  The projection call met inside the program of both processors: the first processor's program reaches it as one
  instruction of the larger body table; a proof about it under the first processor's own table is a proof under
  the larger one, and under its own table the call is the pipeline rule's step from its segment. Stated last over
  plain facts about the four arrays: the fourth array goes in at whatever it holds and comes back at whatever the
  write-backs leave, and the three inputs come back as they went in.
-/
import proofs.«206189_g37357625540624_cont_8to1_b_987_36_alg».proof.Proof.KBRegionSeg

set_option maxRecDepth 16384

noncomputable section

namespace Cert.Proof.KB

open Cert.Kernel Cert.Kernel.Gen

open Idealize.ShloMosaic Idealize.ShloMosaic.TcCoe Idealize.ShloMosaic.ValueIdx Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [∀ e, Nonempty (Elt F e)]

local notation "𝕄" => MT nD τ sig (HIx 1) (Elt F) ℕ UU ℕ

variable (Vr : (d : Dev nD) → (b : Ref sig .tc) → Buf (Elt F) ((d : Thread nD τ).loc b))

/-- The staging cells of the one pipeline are pairwise distinct. -/
theorem phinj : Function.Injective (Pipeline.cellOf (nD := nD) (τ := τ) (Pipeline.pin (pcfgs (F := F)) adm)) := cellOf_inj

-- the rule's implicit arguments are found by unifying its conclusion with the goal, which takes unfolding plain
-- definitions in a metavariable's type
set_option backward.isDefEq.respectTransparency.types false in
/-- The call under the first processor's own body table: the pipeline rule's step from the segment. -/
theorem region_step_own (d : Dev nD) (Φ : PUnit → sProp 𝕄) :
    iprop(boundary (T d) ∗ (regSeg Vr).pre d ∗ levAts (K (F := F)).L (K (F := F)).lev
        ∗ Pipeline.cellsGhost (Pipeline.pin (pcfgs (F := F)) adm) ER 0 d ∗ Pipeline.toksInit (Pipeline.pin (pcfgs (F := F)) adm) ER 0 d
        ∗ (iprop(boundary (T d) ∗ (regSeg Vr).post d) -∗ Φ ⟨⟩))
      ⊢ wp frame (wpE (D (F := F)) 𝒱 (T d) none) Set.univ (Prog.lift (.customCall (Pipeline.entry (0 : Fin 1)) ())) Φ := by
  iintro ⟨Hb, Hpre, #Hlv, Hg, Ht, Hk⟩
  iapply (Pipeline.RDat.RegionSeg.wp (pcfgs (F := F)) adm (rdats Vr) (none : HIx 1) phinj ER defs₀ 𝒱₀ (K (F := F)).L (K (F := F)).lev
    (regSeg Vr) d none (fun u hu => nomatch hu) (fun r => .ret r) Φ) $$ [Hb Hpre Hg Ht Hk]
  isplitl [Hk]
  · iintro H
    rw [wp_ret]; imodintro
    iapply Hk; iexact H
  isplitl [Hb]; · iexact Hb
  isplitl [Hpre]; · iexact Hpre
  isplitr; · iexact Hlv
  isplitl [Hg]; · iexact Hg
  iexact Ht

/-- The call as the program of both processors meets it: from the boundary, the segment's entry state, the level
    facts and the pipeline's ghost state, it runs to the boundary and the segment's exit state. -/
theorem region_step (d : Dev nD) (Φ : PUnit → sProp 𝕄) :
    iprop(boundary (T d) ∗ segPre Vr d ∗ levAts (K (F := F)).L (K (F := F)).lev
        ∗ Pipeline.cellsGhost (Pipeline.pin (pcfgs (F := F)) adm) ER 0 d ∗ Pipeline.toksInit (Pipeline.pin (pcfgs (F := F)) adm) ER 0 d
        ∗ (iprop(boundary (T d) ∗ segPost Vr d) -∗ Φ ⟨⟩))
      ⊢ wp frame (wpE ((K (F := F)).defs (D (F := F))) 𝒱 (T d) none) Set.univ
          (Prog.lift (.customCall (SparseCore.inner (Pipeline.entry (0 : Fin 1))) ())) Φ :=
  (region_step_own Vr d Φ).trans ((K (F := F)).wp_liftProg (D (F := F)) 𝒱 (T d) Set.univ none
    (Prog.lift (.customCall (Pipeline.entry (0 : Fin 1)) ())) Φ)

/-! ## The fourth array at whatever it holds -/

/-- The first processor's arrays with the fourth, on device `d`, at `f`. -/
def withV2 (d : Dev nD) (f : Buf (Elt F) ((d : Thread nD τ).loc main_v2)) :
    (d' : Dev nD) → (b : Ref sig .tc) → Buf (Elt F) ((d' : Thread nD τ).loc b) :=
  fun d' => Function.update (Vr d') main_v2 (if h : d' = d then h ▸ f else Vr d' main_v2)

theorem withV2_ne (d : Dev nD) (f : Buf (Elt F) ((d : Thread nD τ).loc main_v2)) (b : Ref sig .tc) (hb : b ≠ main_v2) :
    withV2 Vr d f d b = Vr d b := Function.update_of_ne hb _ _

theorem withV2_v2 (d : Dev nD) (f : Buf (Elt F) ((d : Thread nD τ).loc main_v2)) : withV2 Vr d f d main_v2 = f := by
  unfold withV2
  rw [Function.update_self, dif_pos rfl]

/-- THE CALL, over plain facts about its four arrays: from the boundary, the three input arrays at what the first
    processor holds, the fourth at anything, what the processor owes, the level facts and the pipeline's ghost
    state, the call runs to the boundary, the inputs as they were, the fourth array at anything, and the same debt. -/
theorem region_step' (d : Dev nD) (Φ : PUnit → sProp 𝕄) :
    iprop(boundary (SparseCore.T d) ∗ ((d : Thread nD τ).loc main_arg1 ↦{fullShare} Vr d main_arg1)
        ∗ ((d : Thread nD τ).loc main_v0 ↦{fullShare} Vr d main_v0) ∗ ((d : Thread nD τ).loc main_v1 ↦{fullShare} Vr d main_v1)
        ∗ (∃ f, (d : Thread nD τ).loc main_v2 ↦{fullShare} f) ∗ owesTc (F := F) d
        ∗ levAts (K (F := F)).L (K (F := F)).lev
        ∗ Pipeline.cellsGhost (Pipeline.pin (pcfgs (F := F)) adm) ER 0 d ∗ Pipeline.toksInit (Pipeline.pin (pcfgs (F := F)) adm) ER 0 d
        ∗ (iprop(boundary (SparseCore.T d) ∗ ((d : Thread nD τ).loc main_arg1 ↦{fullShare} Vr d main_arg1)
            ∗ ((d : Thread nD τ).loc main_v0 ↦{fullShare} Vr d main_v0) ∗ ((d : Thread nD τ).loc main_v1 ↦{fullShare} Vr d main_v1)
            ∗ (∃ f, (d : Thread nD τ).loc main_v2 ↦{fullShare} f) ∗ owesTc (F := F) d) -∗ Φ ⟨⟩))
      ⊢ wp frame (wpE ((K (F := F)).defs (D (F := F))) 𝒱 (SparseCore.T d) none) Set.univ
          (Prog.lift (.customCall (SparseCore.inner (Pipeline.entry (0 : Fin 1))) ())) Φ := by
  iintro ⟨Hb, H0, H1, H2, ⟨%f, H3⟩, HO, #Hlv, Hg, Ht, Hk⟩
  iapply (region_step (withV2 Vr d f) d Φ) $$ [Hb H0 H1 H2 H3 HO Hg Ht Hk]
  unfold segPre segPost
  rw [withV2_ne Vr d f main_arg1 (by decide), withV2_ne Vr d f main_v0 (by decide), withV2_ne Vr d f main_v1 (by decide),
    withV2_v2 Vr d f]
  isplitl [Hb]; · iexact Hb
  isplitl [H0 H1 H2 H3 HO]
  · isplitl [H0]; · iexact H0
    isplitl [H1]; · iexact H1
    isplitl [H2]; · iexact H2
    isplitl [H3]; · iexact H3
    iexact HO
  isplitr; · iexact Hlv
  isplitl [Hg]; · iexact Hg
  isplitl [Ht]; · iexact Ht
  iintro ⟨Hb, H0, H1, H2, H3, HO⟩
  iapply Hk
  isplitl [Hb]; · iexact Hb
  isplitl [H0]; · iexact H0
  isplitl [H1]; · iexact H1
  isplitl [H2]; · iexact H2
  isplitl [H3]; · iexact H3
  iexact HO

end Cert.Proof.KB

end
-- ==== Proof.KBPay.lean ====
/-
  The gather call's handshakes for the frame of the printed kernel. Each of the 32 tiles is handed its four chunks of the
  flattened index array, its four chunks of the output array at whatever they hold, and a read share of the projected
  table at whatever IT holds: the frame needs no value of the table, only that every tile may read it. Back come the
  index chunks and the output chunks, again at whatever they hold; the table's read shares are not asked back. The
  3276800 words are cut into 128 disjoint chunks that cover them (SparseCore, tile, chunk), and chunks held at
  chunk-wise contents join into one array held whole.
-/
import proofs.«206189_g37357625540624_cont_8to1_b_987_36_alg».proof.Proof.KBBase
import Idealize.ShloMosaic.Lib.SparseCore.Stream

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tile, its arrays, its scratch and its semaphores, spelt as the body slices them -/

abbrev cV (i : grid1.Coords) : Fin τ.nSC := (i 0).castLE hcore1
abbrev sV (i : grid1.Coords) : Fin τ.nSub := (i 1).castLE hsub1

abbrev twM : Memref sig .scVector .hbm S1000000 .f32 := Memref.whole main_v2_scv
abbrev qfM : Memref sig .scVector .hbm S3276800 .i32 := Memref.whole main_v3_scv
abbrev outM : Memref sig .scVector .hbm S3276800 .f32 := Memref.whole main_v4_scv
abbrev ix0 : Memref sig .scVector .vmem S25600 .i32 := Memref.whole cc1_scratch0
abbrev ix1 : Memref sig .scVector .vmem S25600 .i32 := Memref.whole cc1_scratch1
abbrev vl0 : Memref sig .scVector .vmem S25600 .f32 := Memref.whole cc1_scratch2
abbrev vl1 : Memref sig .scVector .vmem S25600 .f32 := Memref.whole cc1_scratch3

/-- The whole table as the gather's source slices it. -/
abbrev twAll : Memref sig .scVector .hbm S1000000 .f32 := twM.slice (Rect.unit (s := S1000000) ![0] S1000000.size inb_S1000000_S1000000_0) (fun _ => rfl)

/-- Chunk `r` of the tile's words: 25600 words from `k1_off1 i (25600 r)`. -/
abbrev ch0 (i : grid1.Coords) : Rect S3276800 := Rect.unit (s := S3276800) (k1_off1 i 0#32) S25600.size (k1_off1_inb i 0)
abbrev ch1 (i : grid1.Coords) : Rect S3276800 := Rect.unit (s := S3276800) (k1_off1 i 25600#32) S25600.size (k1_off1_inb i 1)
abbrev ch2 (i : grid1.Coords) : Rect S3276800 := Rect.unit (s := S3276800) (k1_off1 i 51200#32) S25600.size (k1_off1_inb i 2)
abbrev ch3 (i : grid1.Coords) : Rect S3276800 := Rect.unit (s := S3276800) (k1_off1 i 76800#32) S25600.size (k1_off1_inb i 3)
abbrev qfC0 (i : grid1.Coords) : Memref sig .scVector .hbm S25600 .i32 := qfM.slice (ch0 i) (fun _ => rfl)
abbrev qfC1 (i : grid1.Coords) : Memref sig .scVector .hbm S25600 .i32 := qfM.slice (ch1 i) (fun _ => rfl)
abbrev qfC2 (i : grid1.Coords) : Memref sig .scVector .hbm S25600 .i32 := qfM.slice (ch2 i) (fun _ => rfl)
abbrev qfC3 (i : grid1.Coords) : Memref sig .scVector .hbm S25600 .i32 := qfM.slice (ch3 i) (fun _ => rfl)
abbrev outC0 (i : grid1.Coords) : Memref sig .scVector .hbm S25600 .f32 := outM.slice (ch0 i) (fun _ => rfl)
abbrev outC1 (i : grid1.Coords) : Memref sig .scVector .hbm S25600 .f32 := outM.slice (ch1 i) (fun _ => rfl)
abbrev outC2 (i : grid1.Coords) : Memref sig .scVector .hbm S25600 .f32 := outM.slice (ch2 i) (fun _ => rfl)
abbrev outC3 (i : grid1.Coords) : Memref sig .scVector .hbm S25600 .f32 := outM.slice (ch3 i) (fun _ => rfl)

abbrev isem0 : DmaSem sig := ((cc1_scratch4.slice (Rect.unit (s := S2) ![0] S1.size inb_S2_S1_0)).squeeze S_ squeezes_S1_S_).sem
abbrev isem1 : DmaSem sig := ((cc1_scratch4.slice (Rect.unit (s := S2) ![1] S1.size inb_S2_S1_1)).squeeze S_ squeezes_S1_S_).sem
abbrev gsem0 : DmaSem sig := ((cc1_scratch5.slice (Rect.unit (s := S2) ![0] S1.size inb_S2_S1_0)).squeeze S_ squeezes_S1_S_).sem
abbrev gsem1 : DmaSem sig := ((cc1_scratch5.slice (Rect.unit (s := S2) ![1] S1.size inb_S2_S1_1)).squeeze S_ squeezes_S1_S_).sem
abbrev ssem0 : DmaSem sig := ((cc1_scratch6.slice (Rect.unit (s := S2) ![0] S1.size inb_S2_S1_0)).squeeze S_ squeezes_S1_S_).sem
abbrev ssem1 : DmaSem sig := ((cc1_scratch6.slice (Rect.unit (s := S2) ![1] S1.size inb_S2_S1_1)).squeeze S_ squeezes_S1_S_).sem

/-! ## The arrays of the call and what each word of the result is -/

abbrev twLoc (d : Dev nD) : Loc nD τ sig := (SparseCore.T d).loc main_v2
abbrev qfLoc (d : Dev nD) : Loc nD τ sig := (SparseCore.T d).loc main_v3
abbrev outLoc (d : Dev nD) : Loc nD τ sig := (SparseCore.T d).loc main_v4

variable (qf : (d : Dev nD) → Buf (Elt F) (qfLoc d))

/-! ## The tiles' pieces: tile `(c, s)` owns four chunks of 25600 words, chunk `r` from word `204800 s + 102400 c + 25600 r` -/

def coordsV (c : Fin (grid1.bound 0)) (s : Fin (grid1.bound 1)) : grid1.Coords :=
  fun | 0 => c | 1 => s | ⟨_ + 2, h⟩ => absurd h (Nat.not_lt.2 (Nat.le_add_left _ _))

abbrev chR (L : grid1.Coords) (r : Fin 4) : Rect S3276800 :=
  Rect.unit (s := S3276800) (k1_off1 L (BitVec.ofNat 32 (25600 * r.val))) S25600.size (k1_off1_inb L r)

/-- The words of chunk `r` of tile `L`. -/
def pieceSet (L : grid1.Coords) (r : Fin 4) : Finset S3276800.Idx := (chR L r).set

theorem mem_pieceSet (L : grid1.Coords) (r : Fin 4) (p : S3276800.Idx) :
    p ∈ pieceSet L r ↔ 204800 * (L 1).val + 102400 * (L 0).val + 25600 * r.val ≤ (p 0).val
      ∧ (p 0).val < 204800 * (L 1).val + 102400 * (L 0).val + 25600 * r.val + 25600 := by
  unfold pieceSet chR
  rw [Rect.mem_set_unit, Fin.forall_fin_one, k1_off1_eq]
  exact Iff.rfl

/-- The pieces, indexed by (SparseCore, tile, chunk). -/
abbrev pieceAt (x : Fin 2 × Fin 16 × Fin 4) : Finset S3276800.Idx := pieceSet (coordsV x.1 x.2.1) x.2.2

theorem mem_pieceAt (x : Fin 2 × Fin 16 × Fin 4) (p : S3276800.Idx) :
    p ∈ pieceAt x ↔ 204800 * x.2.1.val + 102400 * x.1.val + 25600 * x.2.2.val ≤ (p 0).val
      ∧ (p 0).val < 204800 * x.2.1.val + 102400 * x.1.val + 25600 * x.2.2.val + 25600 :=
  mem_pieceSet (coordsV x.1 x.2.1) x.2.2 p

theorem pieces_disjoint : ∀ x ∈ (Finset.univ : Finset (Fin 2 × Fin 16 × Fin 4)), ∀ y ∈ (Finset.univ : Finset (Fin 2 × Fin 16 × Fin 4)),
    x ≠ y → Disjoint (pieceAt x) (pieceAt y) := by
  intro x _ y _ hxy
  refine Finset.disjoint_left.mpr fun p hx hy => hxy ?_
  have hx' := (mem_pieceAt x p).mp hx
  have hy' := (mem_pieceAt y p).mp hy
  obtain ⟨c, s, r⟩ := x
  obtain ⟨c', s', r'⟩ := y
  have hc := c.isLt; have hc' := c'.isLt; have hr := r.isLt; have hr' := r'.isLt
  simp only at hx' hy'
  have e1 : s.val = s'.val := by omega
  have e2 : c.val = c'.val := by omega
  have e3 : r.val = r'.val := by omega
  exact Prod.ext (Fin.ext e2) (Prod.ext (Fin.ext e1) (Fin.ext e3))

theorem pieces_cover : (Finset.univ : Finset (Fin 2 × Fin 16 × Fin 4)).biUnion pieceAt = Finset.univ := by
  ext p
  simp only [Finset.mem_biUnion, Finset.mem_univ, true_and, iff_true]
  have hp : (p 0).val < 3276800 := (p 0).isLt
  refine ⟨(⟨((p 0).val / 102400) % 2, by omega⟩, ⟨(p 0).val / 204800, by omega⟩, ⟨((p 0).val / 25600) % 4, by omega⟩), ?_⟩
  rw [mem_pieceAt]
  simp only
  omega

/-! ## The table's read shares: one per tile, the whole share halved between the SparseCores, each half cut in sixteen -/

def coreShare (c : Fin 2) : PosShare TreeShare := pieceOf fullShare 2 (by decide) c
def twShare (L : grid1.Coords) : PosShare TreeShare :=
  pieceOf (coreShare ⟨(L 0).val, (L 0).isLt⟩) 16 (by decide) ⟨(L 1).val, (L 1).isLt⟩

/-! ## What the handshakes carry -/

/-- Tile `L`'s share of the call: its four chunks of the index array, its four chunks of the output at `f`, and its read
    share of the table at whatever the table holds. -/
def tileRes' (d : Dev nD) (L : grid1.Coords) (f : Buf (Elt F) (outLoc d)) : sProp 𝕄 :=
  iprop((bigSep Finset.univ fun r : Fin 4 => qfLoc d ↦[pieceSet L r]{fullShare} qf d)
      ∗ (bigSep Finset.univ fun r : Fin 4 => outLoc d ↦[pieceSet L r]{fullShare} f)
      ∗ ∃ tw : Buf (Elt F) (twLoc d), twLoc d ↦{twShare L} tw)

/-- What tile `L` hands back: its four chunks of the index array, and its four chunks of the output at whatever they hold. -/
def tileBack' (d : Dev nD) (L : grid1.Coords) : sProp 𝕄 :=
  iprop((bigSep Finset.univ fun r : Fin 4 => qfLoc d ↦[pieceSet L r]{fullShare} qf d)
      ∗ ∃ f : Buf (Elt F) (outLoc d), bigSep Finset.univ fun r : Fin 4 => outLoc d ↦[pieceSet L r]{fullShare} f)

/-- The call hands each SparseCore its sixteen tiles' shares, the output's pieces at whatever they hold; back come the
    index chunks and the output's pieces at whatever they hold. -/
def P' : (K (F := F)).Pay (nD := nD) (Val := Elt F) (Name := ℕ) (U := UU) where
  st := fun q d c => match q with
    | 0 => bigSep Finset.univ fun i : Fin ((K (F := F)).nSub 0) => iprop(∃ f, tileRes' qf d (coordsV ⟨c.val, c.isLt⟩ ⟨i.val, i.isLt⟩) f)
  dn := fun q d c => match q with
    | 0 => bigSep Finset.univ fun i : Fin ((K (F := F)).nSub 0) => tileBack' qf d (coordsV ⟨c.val, c.isLt⟩ ⟨i.val, i.isLt⟩)
  go := fun q d c i => match q with
    | 0 => iprop(∃ f, tileRes' qf d (coordsV ⟨c.val, c.isLt⟩ ⟨i.val, i.isLt⟩) f)
  td := fun q d c i => match q with
    | 0 => tileBack' qf d (coordsV ⟨c.val, c.isLt⟩ ⟨i.val, i.isLt⟩)
  x := fun _ _ => iprop(emp)

instance tileRes'_storable (d : Dev nD) (L : grid1.Coords) (f : Buf (Elt F) (outLoc d)) : BI.Storable (upEmb : UEmb _ 𝕄) (tileRes' qf d L f) := by
  unfold tileRes'; infer_instance

instance tileBack'_storable (d : Dev nD) (L : grid1.Coords) : BI.Storable (upEmb : UEmb _ 𝕄) (tileBack' qf d L) := by
  unfold tileBack'; infer_instance

instance P'_storable : (P' (F := F) qf).IsStorable where
  st q d c := match q with
    | 0 => (inferInstance : BI.Storable (upEmb : UEmb _ 𝕄)
        (bigSep Finset.univ fun i : Fin ((K (F := F)).nSub 0) => iprop(∃ f, tileRes' qf d (coordsV ⟨c.val, c.isLt⟩ ⟨i.val, i.isLt⟩) f)))
  dn q d c := match q with
    | 0 => (inferInstance : BI.Storable (upEmb : UEmb _ 𝕄)
        (bigSep Finset.univ fun i : Fin ((K (F := F)).nSub 0) => tileBack' qf d (coordsV ⟨c.val, c.isLt⟩ ⟨i.val, i.isLt⟩)))
  go q d c i := match q with
    | 0 => (inferInstance : BI.Storable (upEmb : UEmb _ 𝕄) iprop(∃ f, tileRes' qf d (coordsV ⟨c.val, c.isLt⟩ ⟨i.val, i.isLt⟩) f))
  td q d c i := match q with
    | 0 => (inferInstance : BI.Storable (upEmb : UEmb _ 𝕄) (tileBack' qf d (coordsV ⟨c.val, c.isLt⟩ ⟨i.val, i.isLt⟩)))

/-- A SparseCore's operands are its tiles' shares and its results theirs: nothing to cut or join. -/
theorem vecSplit' : (K (F := F)).VecSplit' (P' qf) 0 := by
  intro d c
  show (bigSep Finset.univ fun i : Fin ((K (F := F)).nSub 0) => (P' qf).go 0 d c i)
    ⊢ |={Set.univ}=> iprop((bigSep Finset.univ fun i : Fin ((K (F := F)).nSub 0) => (P' qf).go 0 d c i)
        ∗ ((bigSep Finset.univ fun i : Fin ((K (F := F)).nSub 0) => (P' qf).td 0 d c i)
            -∗ bigSep Finset.univ fun i : Fin ((K (F := F)).nSub 0) => (P' qf).td 0 d c i))
  iintro H; imodintro
  isplitl [H]; · iexact H
  iintro H; iexact H

/-! ## The arrays cut into the tiles' shares, and joined again -/

/-- An array of 3276800 words held whole is its 128 chunks held apart, by SparseCore, tile and chunk. -/
theorem qf_split (d : Dev nD) (g : Buf (Elt F) (qfLoc d)) :
    (qfLoc d ↦{fullShare} g : sProp 𝕄)
      = bigSep Finset.univ fun c : Fin 2 => bigSep Finset.univ fun s : Fin 16 => bigSep Finset.univ fun r : Fin 4 =>
          qfLoc d ↦[pieceSet (coordsV c s) r]{fullShare} g := by
  rw [show (qfLoc d ↦{fullShare} g : sProp 𝕄) = qfLoc d ↦[(Finset.univ : Finset (Fin 2 × Fin 16 × Fin 4)).biUnion pieceAt]{fullShare} g by rw [pieces_cover],
    pointsTo_biUnion Finset.univ (ℓ := qfLoc d) pieceAt pieces_disjoint, bigSep_univ_prod]
  exact bigSep_congr fun c _ => bigSep_univ_prod _
theorem out_split (d : Dev nD) (g : Buf (Elt F) (outLoc d)) :
    (outLoc d ↦{fullShare} g : sProp 𝕄)
      = bigSep Finset.univ fun c : Fin 2 => bigSep Finset.univ fun s : Fin 16 => bigSep Finset.univ fun r : Fin 4 =>
          outLoc d ↦[pieceSet (coordsV c s) r]{fullShare} g := by
  rw [show (outLoc d ↦{fullShare} g : sProp 𝕄) = outLoc d ↦[(Finset.univ : Finset (Fin 2 × Fin 16 × Fin 4)).biUnion pieceAt]{fullShare} g by rw [pieces_cover],
    pointsTo_biUnion Finset.univ (ℓ := outLoc d) pieceAt pieces_disjoint, bigSep_univ_prod]
  exact bigSep_congr fun c _ => bigSep_univ_prod _
/-- The table held whole is its thirty-two read shares. -/
theorem tw_split (d : Dev nD) (g : Buf (Elt F) (twLoc d)) :
    (twLoc d ↦{fullShare} g : sProp 𝕄)
      = bigSep Finset.univ fun c : Fin 2 => bigSep Finset.univ fun s : Fin 16 => twLoc d ↦{twShare (coordsV c s)} g := by
  rw [pointsTo_piecesOf (Finset.univ) g (o := 2) (by decide) fullShare]
  exact bigSep_congr fun c _ => pointsTo_piecesOf (Finset.univ) g (o := 16) (by decide) (coreShare c)

/-! ## The call's operands from the three arrays held whole -/

/-- A tile's share with the table's contents named. -/
def tileAt (d : Dev nD) (L : grid1.Coords) (tw0 : Buf (Elt F) (twLoc d)) (f : Buf (Elt F) (outLoc d)) : sProp 𝕄 :=
  iprop((bigSep Finset.univ fun r : Fin 4 => qfLoc d ↦[pieceSet L r]{fullShare} qf d)
      ∗ (bigSep Finset.univ fun r : Fin 4 => outLoc d ↦[pieceSet L r]{fullShare} f)
      ∗ twLoc d ↦{twShare L} tw0)

theorem tileAt_ex (d : Dev nD) (L : grid1.Coords) (tw0 : Buf (Elt F) (twLoc d)) (f : Buf (Elt F) (outLoc d)) :
    tileAt qf d L tw0 f ⊢ iprop(∃ f, tileRes' qf d L f) := by
  unfold tileAt tileRes'
  iintro ⟨H1, H2, H3⟩
  iexists f
  isplitl [H1]; · iexact H1
  isplitl [H2]; · iexact H2
  iexists tw0; iexact H3

theorem tiles_intro' (d : Dev nD) (tw0 : Buf (Elt F) (twLoc d)) (f : Buf (Elt F) (outLoc d)) :
    iprop((twLoc d ↦{fullShare} tw0) ∗ (qfLoc d ↦{fullShare} qf d) ∗ outLoc d ↦{fullShare} f)
      ⊢ bigSep Finset.univ fun c : Fin 2 => bigSep Finset.univ fun s : Fin 16 => tileAt qf d (coordsV c s) tw0 f := by
  unfold tileAt
  rw [tw_split, qf_split, out_split]
  simp only [bigSep_sep']
  iintro ⟨H3, H1, H2⟩
  isplitl [H1]; · iexact H1
  isplitl [H2]; · iexact H2
  iexact H3

/-- The three arrays held whole, the table at whatever it holds, are the call's operands: every tile's share, the
    output's pieces at what they hold. -/
theorem st0_intro' (d : Dev nD) (tw0 : Buf (Elt F) (twLoc d)) (f : Buf (Elt F) (outLoc d)) :
    iprop((twLoc d ↦{fullShare} tw0) ∗ (qfLoc d ↦{fullShare} qf d) ∗ outLoc d ↦{fullShare} f)
      ⊢ bigSep Finset.univ fun c : Fin ((K (F := F)).nCore 0) => (P' qf).st 0 d c := by
  refine (tiles_intro' qf d tw0 f).trans ?_
  show (bigSep Finset.univ fun c : Fin 2 => bigSep Finset.univ fun s : Fin 16 => tileAt qf d (coordsV c s) tw0 f)
    ⊢ bigSep Finset.univ fun c : Fin 2 => bigSep Finset.univ fun s : Fin 16 => iprop(∃ f, tileRes' qf d (coordsV c s) f)
  exact bigSep_mono fun c _ => bigSep_mono fun s _ => tileAt_ex qf d (coordsV c s) tw0 f

/-! ## The call's results joined: the index array whole, the output whole at some contents -/

/-- Pieces held at piece-wise contents are the whole output held at some contents. -/
theorem out_join [∀ e, Nonempty (Elt F e)] (d : Dev nD) :
    (bigSep Finset.univ fun x : Fin 2 × Fin 16 × Fin 4 =>
        iprop(∃ f : Buf (Elt F) (outLoc d), outLoc d ↦[pieceAt x]{fullShare} f))
      ⊢ (iprop(∃ f, outLoc d ↦{fullShare} f) : sProp 𝕄) := by
  refine (bigSep_exists_pi Finset.univ
    (fun x (f : Buf (Elt F) (outLoc d)) => (outLoc d ↦[pieceAt x]{fullShare} f : sProp 𝕄))).trans ?_
  iintro ⟨%fs, H⟩
  ihave H' := (pointsTo_biUnion_join Finset.univ pieceAt fs (fs (0, 0, 0)) pieces_disjoint) $$ H
  icases H' with ⟨%g, -, Hg⟩
  rw [pieces_cover]
  iexists g; iexact Hg

/-- A chunk held at some named contents is held at some contents. -/
theorem chunk_ex (d : Dev nD) (L : grid1.Coords) (r : Fin 4) (f : Buf (Elt F) (outLoc d)) :
    (outLoc d ↦[pieceSet L r]{fullShare} f : sProp 𝕄)
      ⊢ iprop(∃ f : Buf (Elt F) (outLoc d), outLoc d ↦[pieceSet L r]{fullShare} f) := by
  iintro H; iexists f; iexact H

/-- A tile's four output chunks at one contents are four chunks each at some contents. -/
theorem chunks_ex (d : Dev nD) (L : grid1.Coords) :
    (iprop(∃ f : Buf (Elt F) (outLoc d), bigSep Finset.univ fun r : Fin 4 => outLoc d ↦[pieceSet L r]{fullShare} f) : sProp 𝕄)
      ⊢ bigSep Finset.univ fun r : Fin 4 => iprop(∃ f : Buf (Elt F) (outLoc d), outLoc d ↦[pieceSet L r]{fullShare} f) := by
  exact exists_elim fun f => bigSep_mono fun r _ => chunk_ex d L r f

/-- Every tile's output chunks, each tile's at some contents, are the whole output held at some contents. -/
theorem out_tiles_join [∀ e, Nonempty (Elt F e)] (d : Dev nD) :
    (bigSep Finset.univ fun c : Fin 2 => bigSep Finset.univ fun s : Fin 16 =>
        iprop(∃ f : Buf (Elt F) (outLoc d), bigSep Finset.univ fun r : Fin 4 => outLoc d ↦[pieceSet (coordsV c s) r]{fullShare} f))
      ⊢ (iprop(∃ f, outLoc d ↦{fullShare} f) : sProp 𝕄) := by
  refine (bigSep_mono fun c _ => bigSep_mono fun s _ => chunks_ex d (coordsV c s)).trans ?_
  have e : (bigSep Finset.univ fun x : Fin 2 × Fin 16 × Fin 4 =>
        iprop(∃ f : Buf (Elt F) (outLoc d), outLoc d ↦[pieceAt x]{fullShare} f) : sProp 𝕄)
      = bigSep Finset.univ fun c : Fin 2 => bigSep Finset.univ fun s : Fin 16 => bigSep Finset.univ fun r : Fin 4 =>
          iprop(∃ f : Buf (Elt F) (outLoc d), outLoc d ↦[pieceSet (coordsV c s) r]{fullShare} f) := by
    rw [bigSep_univ_prod]
    exact bigSep_congr fun c _ => bigSep_univ_prod _
  exact (Entails.of_eq e.symm).trans (out_join d)

/-- The call's results are the index array held whole and the output held whole at some contents. -/
theorem dn0_elim' [∀ e, Nonempty (Elt F e)] (d : Dev nD) :
    (bigSep Finset.univ fun c : Fin ((K (F := F)).nCore 0) => (P' qf).dn 0 d c)
      ⊢ iprop((qfLoc d ↦{fullShare} qf d) ∗ ∃ f, outLoc d ↦{fullShare} f) := by
  show (bigSep Finset.univ fun c : Fin 2 => bigSep Finset.univ fun s : Fin 16 => tileBack' qf d (coordsV c s)) ⊢ _
  unfold tileBack'
  rw [qf_split]
  simp only [bigSep_sep']
  iintro ⟨H1, H2⟩
  isplitl [H1]; · iexact H1
  iapply (out_tiles_join d); iexact H2

end Cert.Proof.KB

end
-- ==== Proof.KBMainVals.lean ====
/-
  The printed kernel's first-processor program, step by step, as what its arrays hold, as far as the frame reads
  them: the weight column recast as a row, the bias as a 1×1 array, the index array flattened. What the projected
  table and the gathered array hold is not named: the frame claim reads neither.
-/
import proofs.«206189_g37357625540624_cont_8to1_b_987_36_alg».proof.Proof.KBRegionStep
import proofs.«206189_g37357625540624_cont_8to1_b_987_36_alg».proof.Proof.KBPay

set_option maxRecDepth 16384

noncomputable section

namespace Cert.Proof.KB

open Cert.Kernel Cert.Kernel.Gen

open Idealize.ShloMosaic Idealize.ShloMosaic.TcCoe Idealize.ShloMosaic.ValueIdx Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Pipeline (Dat Cfg Window cellOf)

variable {F : FTy → Type} [FloatOps F] [∀ e, Nonempty (Elt F e)]

local notation "𝕄" => MT nD τ sig (HIx 1) (Elt F) ℕ UU ℕ

variable (m : (ℓ : Loc nD τ sig) → Buf (Elt F) ℓ)

/-! ## The arrays and the four recasts -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

abbrev op1 : HloOp τ sig (Elt F) := StableHlo.reshape main_arg2 main_v0 rfl shapeCasts_S32x1_S1x32
abbrev op2 : HloOp τ sig (Elt F) := StableHlo.reshape main_arg3 main_v1 rfl shapeCasts_S1_S1x1
abbrev op3 : HloOp τ sig (Elt F) := StableHlo.reshape main_arg0 main_v3 rfl shapeCasts_S16384x200_S3276800
abbrev op4 : HloOp τ sig (Elt F) := StableHlo.reshape main_v4 main_v5 rfl shapeCasts_S3276800_S16384x200

/-- The launch contents. -/
def V0 (d : Dev nD) : Valuation τ sig (Elt F) := fun b => m (d, b)
/-- After the weight column is recast, -/
def W1 (d : Dev nD) : Valuation τ sig (Elt F) := (op1 (F := F)).result (V0 m d)
/-- and the bias. -/
def W2 (d : Dev nD) : Valuation τ sig (Elt F) := (op2 (F := F)).result (W1 m d)

/-- The first processor's arrays as the projection call finds them. -/
def Vr (d : Dev nD) (b : Ref sig .tc) : Buf (Elt F) ((d : Thread nD τ).loc b) := W2 m d (Proc.devRef .tc b)

/-- The index array flattened. -/
def W3 (d : Dev nD) : Valuation τ sig (Elt F) := (op3 (F := F)).result (V0 m d)
def qfIn (d : Dev nD) : Buf (Elt F) (qfLoc d) := W3 m d v3'

/-! ## What each step leaves where -/

theorem W1_a2 (d : Dev nD) : W1 m d a2' = m (d, a2') := StableHlo.reshape_result_ne' _ _ _ _ _ (by decide)
theorem W1_a3 (d : Dev nD) : W1 m d a3' = m (d, a3') := StableHlo.reshape_result_ne' _ _ _ _ _ (by decide)
theorem W1_v1 (d : Dev nD) : W1 m d v1' = m (d, v1') := StableHlo.reshape_result_ne' _ _ _ _ _ (by decide)
theorem W2_a3 (d : Dev nD) : W2 m d a3' = m (d, a3') := (StableHlo.reshape_result_ne' _ _ _ _ _ (by decide)).trans (W1_a3 m d)
theorem W2_a1 (d : Dev nD) : W2 m d a1' = m (d, a1') :=
  (StableHlo.reshape_result_ne' _ _ _ _ _ (by decide)).trans (StableHlo.reshape_result_ne' _ _ _ _ _ (by decide))
theorem W2_v0 (d : Dev nD) : W2 m d v0' = W1 m d v0' := StableHlo.reshape_result_ne' _ _ _ _ _ (by decide)
theorem W2_v2 (d : Dev nD) : W2 m d v2' = m (d, v2') :=
  (StableHlo.reshape_result_ne' _ _ _ _ _ (by decide)).trans (StableHlo.reshape_result_ne' _ _ _ _ _ (by decide))
theorem W3_a0 (d : Dev nD) : W3 m d a0' = m (d, a0') := StableHlo.reshape_result_ne' _ _ _ _ _ (by decide)

/-- A recast's two arrays, held. -/
theorem held_pair (d : Dev nD) (x y : DevRef τ sig) (h : x ≠ y) (W : Valuation τ sig (Elt F)) :
    (held (SparseCore.T d) {x, y} W : sProp 𝕄) = iprop(((d, x) ↦{fullShare} W x) ∗ ((d, y) ↦{fullShare} W y)) := by
  unfold held
  rw [SparseCore.bigSep_insert' (by rwa [Finset.mem_singleton]), bigSep_singleton]

end Cert.Proof.KB

end
-- ==== Proof.KBLaunch.lean ====
/-
  The printed kernel's launch, for its frame: the ghost state dealt once (the handshakes' rounds to the launch
  theorem, the staging cells' rounds to the pipelined call, the copies' counters let go), and the first processor's
  program step by step. What the projected table and the gathered array hold is not named; the four argument
  arrays are read back unchanged.
-/
import proofs.«206189_g37357625540624_cont_8to1_b_987_36_alg».proof.Proof.KBMainVals

set_option maxRecDepth 16384

noncomputable section

namespace Cert.Proof.KB

open Cert.Kernel Cert.Kernel.Gen

open Idealize.ShloMosaic Idealize.ShloMosaic.TcCoe Idealize.ShloMosaic.ValueIdx Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Pipeline (Dat Cfg Window cellOf)

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-- The gather call's payloads, at the flattened index array the program computes before it. -/
abbrev PP : (K (F := F)).Pay (nD := nD) (Val := Elt F) (Name := ℕ) (U := UU) := P' (qfIn m)

/-! ## The launch element -/

/-- The three factors of the ghost state, owned apart; the counters are let go. -/
theorem own_split (a : UH) (b : UR) (c : Counters) :
    (ownU (a, (b, c)) : sProp 𝕄) ⊢ iprop(BI.own (EH a) ∗ BI.own ((ER : Emb UR 𝕄) b)) := by
  iintro Hu
  ihave H := (ownU_pair _ _) $$ Hu
  icases H with ⟨HH, HR⟩
  ihave H2 := (own_pair_emb (embR : Emb (UR × Counters) 𝕄) b c) $$ HR
  icases H2 with ⟨HP, -⟩
  isplitl [HH]; · iexact HH
  unfold ER; iexact HP

def u₀ : UU := (initOf (K (F := F)).hsCells (K (F := F)).hsToks,
  (initOf (Pipeline.cells (Pipeline.pin (pcfgs (F := F)) adm) phinj) (Pipeline.launchToks (Pipeline.pin (pcfgs (F := F)) adm) phinj), 1))

/-- What the first processor's proof starts from on device `d`: the pipelined call's staging cells and duty tokens. -/
def G (d : Dev nD) : sProp 𝕄 :=
  iprop((bigSep Finset.univ fun p : Fin 1 => Pipeline.cellsGhost (Pipeline.pin (pcfgs (F := F)) adm) ER p d)
    ∗ (bigSep Finset.univ fun p : Fin 1 => Pipeline.toksInit (Pipeline.pin (pcfgs (F := F)) adm) ER p d))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PP m).x q thr) := by
  unfold u₀
  iintro Hu
  ihave H := (own_split _ _ _) $$ Hu
  icases H with ⟨HH, HP⟩
  imod (Pipeline.fund_ghost (Pipeline.pin (pcfgs (F := F)) adm) ER phinj) $$ HP with ⟨Hg, Ht⟩
  imodintro
  isplitl [HH]; · iexact HH
  isplitl [Hg Ht]
  · unfold G; rw [bigSep_sep']
    isplitl [Hg]; · iexact Hg
    iexact Ht
  rw [show (bigSep Finset.univ fun thr : Thread nD τ => bigSep Finset.univ fun q : Fin 1 => (PP m).x q thr) = (iprop(emp) : sProp 𝕄) from by
    show (bigSep Finset.univ fun _ : Thread nD τ => bigSep Finset.univ fun _ : Fin 1 => (iprop(emp) : sProp 𝕄)) = _
    rw [bigSep_congr fun _ _ => bigSep_emp' _, bigSep_emp']]
  iempintro

/-! ## The first processor's program -/

omit [FloatOps F] in
theorem unscopedBufs_eq (d : Dev nD) (W : (b : Ref sig .tc) → Buf (Elt F) ((d.tc : Thread nD τ).loc b)) :
    (unscopedBufs d W : sProp 𝕄)
      = iprop(((d, a0') ↦{fullShare} W main_arg0) ∗ ((d, a1') ↦{fullShare} W main_arg1) ∗ ((d, a2') ↦{fullShare} W main_arg2)
          ∗ ((d, a3') ↦{fullShare} W main_arg3) ∗ ((d, v0') ↦{fullShare} W main_v0) ∗ ((d, v1') ↦{fullShare} W main_v1)
          ∗ ((d, v2') ↦{fullShare} W main_v2) ∗ ((d, v3') ↦{fullShare} W main_v3) ∗ ((d, v4') ↦{fullShare} W main_v4)
          ∗ ((d, v5') ↦{fullShare} W main_v5)) := by
  unfold unscopedBufs
  rw [show (Finset.univ.filter fun b : Ref sig .tc => ¬ b.isScoped)
      = {main_arg0, main_arg1, main_arg2, main_arg3, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- What the first processor owes the launch of the second, taken out of its handshake state and put back. -/
theorem tcSt_owes (d : Dev nD) :
    (K (F := F)).tcSt EH d 0 ⊢ (iprop(owesTc (F := F) d ∗ (owesTc (F := F) d -∗ (K (F := F)).tcSt EH d 0)) : sProp 𝕄) := by
  unfold SparseCore.Cfg.tcSt
  iintro ⟨Ho, Hr⟩
  isplitl [Ho]; · iexact Ho
  iintro Ho
  isplitl [Ho]; · iexact Ho
  iexact Hr

/-- The level facts every thread consults. -/
theorem ctx_lev (κ : GSem nD τ sig → ℕ) :
    (K (F := F)).ctx EH (PP m) κ ⊢ (levAts (K (F := F)).L (K (F := F)).lev : sProp 𝕄) := by
  unfold SparseCore.Cfg.ctx
  iintro ⟨H, -⟩; iexact H

/-- What the program leaves the claim: the four arguments at their launch contents. -/
abbrev FIN (d : Dev nD) : sProp 𝕄 :=
  iprop(((d, a0') ↦{fullShare} m (d, a0')) ∗ ((d, a1') ↦{fullShare} m (d, a1')) ∗ ((d, a2') ↦{fullShare} m (d, a2'))
    ∗ ((d, a3') ↦{fullShare} m (d, a3')))

/-! ### The projection call at the contents the program reaches it with -/

theorem Vr_a1 (d : Dev nD) : Vr m d main_arg1 = m (d, a1') := W2_a1 m d
theorem Vr_v0 (d : Dev nD) : Vr m d main_v0 = W1 m d v0' := W2_v0 m d
theorem Vr_v1 (d : Dev nD) : Vr m d main_v1 = W2 m d v1' := rfl

theorem region_main (d : Dev nD) (Φ : PUnit → sProp 𝕄) :
    iprop(boundary (SparseCore.T d) ∗ ((d, a1') ↦{fullShare} m (d, a1')) ∗ ((d, v0') ↦{fullShare} W1 m d v0') ∗ ((d, v1') ↦{fullShare} W2 m d v1')
        ∗ (∃ f, (d, v2') ↦{fullShare} f) ∗ owesTc (F := F) d ∗ levAts (K (F := F)).L (K (F := F)).lev ∗ G (F := F) d
        ∗ (iprop(boundary (SparseCore.T d) ∗ ((d, a1') ↦{fullShare} m (d, a1')) ∗ ((d, v0') ↦{fullShare} W1 m d v0') ∗ ((d, v1') ↦{fullShare} W2 m d v1')
            ∗ (∃ f, (d, v2') ↦{fullShare} f) ∗ owesTc (F := F) d) -∗ Φ ⟨⟩))
      ⊢ wp frame (wpE ((K (F := F)).defs (D (F := F))) 𝒱 (SparseCore.T d) none) Set.univ
          (Prog.lift (.customCall (SparseCore.inner (Pipeline.entry (0 : Fin 1))) ())) Φ := by
  have h := region_step' (Vr m) d Φ
  rw [Vr_a1, Vr_v0, Vr_v1] at h
  rw [show G (F := F) d = iprop(Pipeline.cellsGhost (Pipeline.pin (pcfgs (F := F)) adm) ER 0 d ∗ Pipeline.toksInit (Pipeline.pin (pcfgs (F := F)) adm) ER 0 d) from by
    unfold G; rw [bigSep_univ_of_subsingleton (0 : Fin 1), bigSep_univ_of_subsingleton (0 : Fin 1)]]
  iintro ⟨Hb, H1, H2, H3, H4, HO, Hlv, ⟨Hg, Ht⟩, Hk⟩
  iapply h $$ [Hb H1 H2 H3 H4 HO Hlv Hg Ht Hk]
  isplitl [Hb]; · iexact Hb
  isplitl [H1]; · iexact H1
  isplitl [H2]; · iexact H2
  isplitl [H3]; · iexact H3
  isplitl [H4]; · iexact H4
  isplitl [HO]; · iexact HO
  isplitl [Hlv]; · iexact Hlv
  isplitl [Hg]; · iexact Hg
  isplitl [Ht]; · iexact Ht
  iexact Hk

/-! ### The whole program -/

theorem hmain (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ha2, Ha3, Hv0, Hv1, Hv2, Hv3, Hv4, Hv5⟩, -, -⟩, HG⟩
  ihave Hlv := (ctx_lev m κ) $$ Hctx
  ihave Hs := (tcSt_owes d) $$ Hst
  icases Hs with ⟨Howes, Hback⟩
  -- the weight column recast as a row
  iapply (wp_hlo_within 𝒱 (SparseCore.T d) none Set.univ (op := op1 (F := F)) (S := {a2', v0'}) (Finset.Subset.refl _) (V := V0 m d)) $$ [Hb Ha2 Hv0]
  · isplitl [Hb]; · iexact Hb
    rw [held_pair d a2' v0' (by decide)]
    isplitl [Ha2]; · iexact Ha2
    iexact Hv0
  iintro ⟨Hb, Hh⟩
  ihave Hh' := (Entails.of_eq (held_pair d a2' v0' (by decide) ((op1 (F := F)).result (V0 m d)))) $$ Hh
  icases Hh' with ⟨Ha2, Hv0⟩
  rw [wp_ret]; imodintro
  -- the bias recast as a 1×1 array
  iapply (wp_hlo_within 𝒱 (SparseCore.T d) none Set.univ (op := op2 (F := F)) (S := {a3', v1'}) (Finset.Subset.refl _) (V := W1 m d)) $$ [Hb Ha3 Hv1]
  · isplitl [Hb]; · iexact Hb
    rw [held_pair d a3' v1' (by decide), W1_a3, W1_v1]
    isplitl [Ha3]; · iexact Ha3
    iexact Hv1
  iintro ⟨Hb, Hh⟩
  ihave Hh' := (Entails.of_eq (held_pair d a3' v1' (by decide) ((op2 (F := F)).result (W1 m d)))) $$ Hh
  icases Hh' with ⟨Ha3, Hv1⟩
  rw [wp_ret]; imodintro
  -- the projection call: the fourth array goes in and comes back at contents not named
  iapply (region_main m d _) $$ [Hb Ha1 Hv0 Hv1 Hv2 Howes Hlv HG Ha0 Ha2 Ha3 Hv3 Hv4 Hv5 Hback]
  isplitl [Hb]; · iexact Hb
  isplitl [Ha1]; · iexact Ha1
  isplitl [Hv0]; · iexact Hv0
  isplitl [Hv1]; · iexact Hv1
  isplitl [Hv2]; · iexists _; iexact Hv2
  isplitl [Howes]; · iexact Howes
  isplitl [Hlv]; · iexact Hlv
  isplitl [HG]; · iexact HG
  iintro ⟨Hb, Ha1, Hv0, Hv1, ⟨%f2, Hv2⟩, Howes⟩
  ihave Hst := Hback $$ Howes
  -- the index array flattened
  iapply (wp_hlo_within 𝒱 (SparseCore.T d) none Set.univ (op := op3 (F := F)) (S := {a0', v3'}) (Finset.Subset.refl _) (V := V0 m d)) $$ [Hb Ha0 Hv3]
  · isplitl [Hb]; · iexact Hb
    rw [held_pair d a0' v3' (by decide)]
    isplitl [Ha0]; · iexact Ha0
    iexact Hv3
  iintro ⟨Hb, Hh⟩
  ihave Hh' := (Entails.of_eq (held_pair d a0' v3' (by decide) ((op3 (F := F)).result (V0 m d)))) $$ Hh
  icases Hh' with ⟨Ha0, Hv3⟩
  rw [wp_ret]; imodintro
  -- the gather on the second processor
  iapply ((K (F := F)).wp_run (D (F := F)) 𝒱 (EH := EH) (P := PP m) κ d 0) $$ [Hst Hv2 Hv3 Hv4 Hb Ha0 Ha1 Ha2 Ha3 Hv0 Hv1 Hv5]
  isplitr; · iexact Hctx
  isplitl [Hst]; · iexact Hst
  isplitl [Hv2 Hv3 Hv4]
  · iapply (st0_intro' (qfIn m) d f2 _)
    isplitl [Hv2]; · iexact Hv2
    isplitl [Hv3]; · iexact Hv3
    iexact Hv4
  iintro ⟨Hst, Hdn⟩
  ihave Hdn' := (dn0_elim' (qfIn m) d) $$ Hdn
  icases Hdn' with ⟨Hv3, ⟨%f4, Hv4⟩⟩
  -- the gathered array recast to the result
  iapply (wp_hlo_within 𝒱 (SparseCore.T d) none Set.univ (op := op4 (F := F)) (S := {v4', v5'}) (Finset.Subset.refl _)
    (V := Function.update (V0 m d) v4' f4)) $$ [Hb Hv4 Hv5]
  · isplitl [Hb]; · iexact Hb
    rw [held_pair d v4' v5' (by decide), Function.update_self, Function.update_of_ne (show v5' ≠ v4' by decide)]
    isplitl [Hv4]; · iexact Hv4
    iexact Hv5
  iintro ⟨Hb, Hh⟩
  rw [wp_ret]; imodintro; imodintro
  isplitl [Hst]; · iexact Hst
  isplitl [Ha0]; · rw [← W3_a0 m d]; iexact Ha0
  isplitl [Ha1]; · iexact Ha1
  isplitl [Ha2]; · rw [← W1_a2 m d]; iexact Ha2
  rw [← W2_a3 m d]; iexact Ha3

/-! ## The final memory and the run -/

/-- What the final memory of device `d` holds: the four arguments as launched. -/
def fq (d : Dev nD) (s' : Phys nD τ sig (Elt F)) : Prop :=
  s'.mem.mem (d, a0') = m (d, a0') ∧ s'.mem.mem (d, a1') = m (d, a1') ∧ s'.mem.mem (d, a2') = m (d, a2') ∧ s'.mem.mem (d, a3') = m (d, a3')

theorem hfin (d : Dev nD) (s' : Phys nD τ sig (Elt F)) : iprop(FIN m d ∗ SI s') ⊢ (⌜fq m d s'⌝ : sProp 𝕄) := by
  iintro ⟨⟨H0, H1, H2, H3⟩, HSI⟩
  ihave H := (persistent_entails_right (SI_pointsTo_agree (st := s') (ℓ := (d, a0')) (I := Finset.univ) (q := fullShare) (f := m (d, a0')))) $$ [HSI H0]
  · isplitl [HSI] <;> iassumption
  icases H with ⟨%h0, HSI, -⟩
  ihave H := (persistent_entails_right (SI_pointsTo_agree (st := s') (ℓ := (d, a1')) (I := Finset.univ) (q := fullShare) (f := m (d, a1')))) $$ [HSI H1]
  · isplitl [HSI] <;> iassumption
  icases H with ⟨%h1, HSI, -⟩
  ihave H := (persistent_entails_right (SI_pointsTo_agree (st := s') (ℓ := (d, a2')) (I := Finset.univ) (q := fullShare) (f := m (d, a2')))) $$ [HSI H2]
  · isplitl [HSI] <;> iassumption
  icases H with ⟨%h2, HSI, -⟩
  ihave H := (SI_pointsTo_agree (st := s') (ℓ := (d, a3')) (I := Finset.univ) (q := fullShare) (f := m (d, a3'))) $$ [HSI H3]
  · isplitl [HSI] <;> iassumption
  icases H with %h3
  ipureintro
  exact ⟨funext fun i => h0 i (Finset.mem_univ i), funext fun i => h1 i (Finset.mem_univ i), funext fun i => h2 i (Finset.mem_univ i),
    funext fun i => h3 i (Finset.mem_univ i)⟩

/-- The run's post: on every device the four arguments unchanged. -/
def QC : PUnit × MemSt nD τ sig (Elt F) → Prop := fun r => ∀ c : Dev nD,
  r.2.mem (c, a0') = m (c, a0') ∧ r.2.mem (c, a1') = m (c, a1') ∧ r.2.mem (c, a2') = m (c, a2') ∧ r.2.mem (c, a3') = m (c, a3')

/-- From any memory with zero counters, given one tile's task: every weakly fair execution of all the device's threads
    terminates, nothing faulting, the arguments unchanged. -/
theorem run_main (htile : (K (F := F)).TileObl (D (F := F)) 𝒱 (PP m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => htile)
    (fun q _ => match q with | 0 => SparseCore.Cfg.VecSplit.of_plain (vecSplit' (qfIn m)))
    m ρ main (fun d => G (F := F) d) (FIN m) (u₀ (F := F)) (sep_elim_left.trans (hu₀ m)) (hmain m ρ) (fq m) (hfin m) (QC m)
    (fun _ h c => h c)

end Cert.Proof.KB

end
-- ==== Proof.KBTile.lean ====
import proofs.«206189_g37357625540624_cont_8to1_b_987_36_alg».proof.Proof.KBPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (qf : (d : Dev nD) → Buf (Elt F) (qfLoc d))

section Tile

variable (d : Dev nD) (L : grid1.Coords)

/-! ## The tile's pieces as its own memrefs address them -/

omit [FloatOps F] in
theorem chR_zero : chR L 0 = ch0 L := rfl
omit [FloatOps F] in
theorem chR_one : chR L 1 = ch1 L := rfl
omit [FloatOps F] in
theorem chR_two : chR L 2 = ch2 L := rfl
omit [FloatOps F] in
theorem chR_three : chR L 3 = ch3 L := rfl

omit [FloatOps F] in
theorem set_q (R : Rect S3276800) : ((View.whole (main_v3_scv : Ref sig .scVector)).slice R).set = R.set := by
  rw [View.set_slice]; exact Finset.map_refl
omit [FloatOps F] in
theorem set_o (R : Rect S3276800) : ((View.whole (main_v4_scv : Ref sig .scVector)).slice R).set = R.set := by
  rw [View.set_slice]; exact Finset.map_refl

omit [FloatOps F] in
theorem pts_q0 (f : Buf (Elt F) (qfLoc d)) :
    ((qfC0 L).view.loc (V d (cV L) (sV L)) ↦[(qfC0 L).view.set]{fullShare} f : sProp 𝕄) = qfLoc d ↦[pieceSet L 0]{fullShare} f := by
  show (qfLoc d ↦[((View.whole (main_v3_scv : Ref sig .scVector)).slice (ch0 L)).set]{fullShare} f : sProp 𝕄) = _
  rw [set_q]; rfl
omit [FloatOps F] in
theorem pts_q1 (f : Buf (Elt F) (qfLoc d)) :
    ((qfC1 L).view.loc (V d (cV L) (sV L)) ↦[(qfC1 L).view.set]{fullShare} f : sProp 𝕄) = qfLoc d ↦[pieceSet L 1]{fullShare} f := by
  show (qfLoc d ↦[((View.whole (main_v3_scv : Ref sig .scVector)).slice (ch1 L)).set]{fullShare} f : sProp 𝕄) = _
  rw [set_q]; rfl
omit [FloatOps F] in
theorem pts_q2 (f : Buf (Elt F) (qfLoc d)) :
    ((qfC2 L).view.loc (V d (cV L) (sV L)) ↦[(qfC2 L).view.set]{fullShare} f : sProp 𝕄) = qfLoc d ↦[pieceSet L 2]{fullShare} f := by
  show (qfLoc d ↦[((View.whole (main_v3_scv : Ref sig .scVector)).slice (ch2 L)).set]{fullShare} f : sProp 𝕄) = _
  rw [set_q]; rfl
omit [FloatOps F] in
theorem pts_q3 (f : Buf (Elt F) (qfLoc d)) :
    ((qfC3 L).view.loc (V d (cV L) (sV L)) ↦[(qfC3 L).view.set]{fullShare} f : sProp 𝕄) = qfLoc d ↦[pieceSet L 3]{fullShare} f := by
  show (qfLoc d ↦[((View.whole (main_v3_scv : Ref sig .scVector)).slice (ch3 L)).set]{fullShare} f : sProp 𝕄) = _
  rw [set_q]; rfl
omit [FloatOps F] in
theorem pts_o0 (f : Buf (Elt F) (outLoc d)) :
    ((outC0 L).view.loc (V d (cV L) (sV L)) ↦[(outC0 L).view.set]{fullShare} f : sProp 𝕄) = outLoc d ↦[pieceSet L 0]{fullShare} f := by
  show (outLoc d ↦[((View.whole (main_v4_scv : Ref sig .scVector)).slice (ch0 L)).set]{fullShare} f : sProp 𝕄) = _
  rw [set_o]; rfl
omit [FloatOps F] in
theorem pts_o1 (f : Buf (Elt F) (outLoc d)) :
    ((outC1 L).view.loc (V d (cV L) (sV L)) ↦[(outC1 L).view.set]{fullShare} f : sProp 𝕄) = outLoc d ↦[pieceSet L 1]{fullShare} f := by
  show (outLoc d ↦[((View.whole (main_v4_scv : Ref sig .scVector)).slice (ch1 L)).set]{fullShare} f : sProp 𝕄) = _
  rw [set_o]; rfl
omit [FloatOps F] in
theorem pts_o2 (f : Buf (Elt F) (outLoc d)) :
    ((outC2 L).view.loc (V d (cV L) (sV L)) ↦[(outC2 L).view.set]{fullShare} f : sProp 𝕄) = outLoc d ↦[pieceSet L 2]{fullShare} f := by
  show (outLoc d ↦[((View.whole (main_v4_scv : Ref sig .scVector)).slice (ch2 L)).set]{fullShare} f : sProp 𝕄) = _
  rw [set_o]; rfl
omit [FloatOps F] in
theorem pts_o3 (f : Buf (Elt F) (outLoc d)) :
    ((outC3 L).view.loc (V d (cV L) (sV L)) ↦[(outC3 L).view.set]{fullShare} f : sProp 𝕄) = outLoc d ↦[pieceSet L 3]{fullShare} f := by
  show (outLoc d ↦[((View.whole (main_v4_scv : Ref sig .scVector)).slice (ch3 L)).set]{fullShare} f : sProp 𝕄) = _
  rw [set_o]; rfl
omit [FloatOps F] in
theorem pts_tw (q : PosShare TreeShare) (f : Buf (Elt F) (twLoc d)) :
    (twM.view.loc (V d (cV L) (sV L)) ↦{q} f : sProp 𝕄) = twLoc d ↦{q} f := rfl
omit [FloatOps F] in
theorem pts_ix0 (f : Buf (Elt F) ((V d (cV L) (sV L)).loc cc1_scratch0)) :
    (ix0.view.loc (V d (cV L) (sV L)) ↦{fullShare} f : sProp 𝕄) = (V d (cV L) (sV L)).loc cc1_scratch0 ↦{fullShare} f := rfl
omit [FloatOps F] in
theorem pts_ix1 (f : Buf (Elt F) ((V d (cV L) (sV L)).loc cc1_scratch1)) :
    (ix1.view.loc (V d (cV L) (sV L)) ↦{fullShare} f : sProp 𝕄) = (V d (cV L) (sV L)).loc cc1_scratch1 ↦{fullShare} f := rfl
omit [FloatOps F] in
theorem pts_vl0 (f : Buf (Elt F) ((V d (cV L) (sV L)).loc cc1_scratch2)) :
    (vl0.view.loc (V d (cV L) (sV L)) ↦{fullShare} f : sProp 𝕄) = (V d (cV L) (sV L)).loc cc1_scratch2 ↦{fullShare} f := rfl
omit [FloatOps F] in
theorem pts_vl1 (f : Buf (Elt F) ((V d (cV L) (sV L)).loc cc1_scratch3)) :
    (vl1.view.loc (V d (cV L) (sV L)) ↦{fullShare} f : sProp 𝕄) = (V d (cV L) (sV L)).loc cc1_scratch3 ↦{fullShare} f := rfl

omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-! ## The tile's own semaphores and scratch -/

abbrev cell (sm : DmaSem sig) : GSem nD τ sig := (V d (cV L) (sV L), .dma sm)

omit [FloatOps F] in
theorem cell_ne {a b : DmaSem sig} (h : a ≠ b) : cell d L a ≠ cell d L b :=
  fun e => h (SemLoc.dma.inj (Prod.mk.inj e).2)

omit [FloatOps F] in
/-- The six semaphores of the kernel are among the tile's own: they are them, at zero, and the rest. -/
theorem ownSems0_V :
    (ownSems0 (V d (cV L) (sV L)) : sProp 𝕄)
      = iprop(semVal (cell d L isem0) 0 ∗ semVal (cell d L isem1) 0 ∗ semVal (cell d L gsem0) 0 ∗ semVal (cell d L gsem1) 0 ∗ semVal (cell d L ssem0) 0 ∗ semVal (cell d L ssem1) 0
          ∗ bigSep (((((((ownCells (V d (cV L) (sV L))).erase (cell d L isem0)).erase (cell d L isem1)).erase (cell d L gsem0)).erase (cell d L gsem1)).erase (cell d L ssem0)).erase (cell d L ssem1)) fun g => semVal g 0) := by
  unfold SparseCore.Cfg.ownSems0
  rw [SparseCore.bigSep_erase' ((mem_ownCells (g := cell d L isem0)).mpr ⟨rfl, by show (SemLoc.dma isem0 : SemLoc sig).isScoped .scVector = true; decide⟩),
    SparseCore.bigSep_erase' (Finset.mem_erase.mpr ⟨cell_ne d L (show (isem1 : DmaSem sig) ≠ isem0 by decide), (mem_ownCells (g := cell d L isem1)).mpr ⟨rfl, by show (SemLoc.dma isem1 : SemLoc sig).isScoped .scVector = true; decide⟩⟩),
    SparseCore.bigSep_erase' (Finset.mem_erase.mpr ⟨cell_ne d L (show (gsem0 : DmaSem sig) ≠ isem1 by decide), Finset.mem_erase.mpr ⟨cell_ne d L (show (gsem0 : DmaSem sig) ≠ isem0 by decide), (mem_ownCells (g := cell d L gsem0)).mpr ⟨rfl, by show (SemLoc.dma gsem0 : SemLoc sig).isScoped .scVector = true; decide⟩⟩⟩),
    SparseCore.bigSep_erase' (Finset.mem_erase.mpr ⟨cell_ne d L (show (gsem1 : DmaSem sig) ≠ gsem0 by decide), Finset.mem_erase.mpr ⟨cell_ne d L (show (gsem1 : DmaSem sig) ≠ isem1 by decide), Finset.mem_erase.mpr ⟨cell_ne d L (show (gsem1 : DmaSem sig) ≠ isem0 by decide), (mem_ownCells (g := cell d L gsem1)).mpr ⟨rfl, by show (SemLoc.dma gsem1 : SemLoc sig).isScoped .scVector = true; decide⟩⟩⟩⟩),
    SparseCore.bigSep_erase' (Finset.mem_erase.mpr ⟨cell_ne d L (show (ssem0 : DmaSem sig) ≠ gsem1 by decide), Finset.mem_erase.mpr ⟨cell_ne d L (show (ssem0 : DmaSem sig) ≠ gsem0 by decide), Finset.mem_erase.mpr ⟨cell_ne d L (show (ssem0 : DmaSem sig) ≠ isem1 by decide), Finset.mem_erase.mpr ⟨cell_ne d L (show (ssem0 : DmaSem sig) ≠ isem0 by decide), (mem_ownCells (g := cell d L ssem0)).mpr ⟨rfl, by show (SemLoc.dma ssem0 : SemLoc sig).isScoped .scVector = true; decide⟩⟩⟩⟩⟩),
    SparseCore.bigSep_erase' (Finset.mem_erase.mpr ⟨cell_ne d L (show (ssem1 : DmaSem sig) ≠ ssem0 by decide), Finset.mem_erase.mpr ⟨cell_ne d L (show (ssem1 : DmaSem sig) ≠ gsem1 by decide), Finset.mem_erase.mpr ⟨cell_ne d L (show (ssem1 : DmaSem sig) ≠ gsem0 by decide), Finset.mem_erase.mpr ⟨cell_ne d L (show (ssem1 : DmaSem sig) ≠ isem1 by decide), Finset.mem_erase.mpr ⟨cell_ne d L (show (ssem1 : DmaSem sig) ≠ isem0 by decide), (mem_ownCells (g := cell d L ssem1)).mpr ⟨rfl, by show (SemLoc.dma ssem1 : SemLoc sig).isScoped .scVector = true; decide⟩⟩⟩⟩⟩⟩)]

omit [FloatOps F] in
/-- The four scratch buffers are among the tile's own: they are them, at some contents, and the rest. -/
theorem ownBufs_V :
    (ownBufs (V d (cV L) (sV L)) : sProp 𝕄)
      = iprop((∃ f, (V d (cV L) (sV L)).loc cc1_scratch0 ↦{fullShare} f) ∗ (∃ f, (V d (cV L) (sV L)).loc cc1_scratch1 ↦{fullShare} f) ∗ (∃ f, (V d (cV L) (sV L)).loc cc1_scratch2 ↦{fullShare} f) ∗ (∃ f, (V d (cV L) (sV L)).loc cc1_scratch3 ↦{fullShare} f)
          ∗ bigSep (((((ownRefs (τ := τ) (.scVector (cV L) (sV L))).erase ((Proc.scVector (cV L) (sV L)).devRef cc1_scratch0)).erase ((Proc.scVector (cV L) (sV L)).devRef cc1_scratch1)).erase ((Proc.scVector (cV L) (sV L)).devRef cc1_scratch2)).erase ((Proc.scVector (cV L) (sV L)).devRef cc1_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (sV L)) (b := ((Proc.scVector (cV L) (sV L)).devRef cc1_scratch0)) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV L) (sV L)) (b := ((Proc.scVector (cV L) (sV L)).devRef cc1_scratch1)) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV L) (sV L)) (b := ((Proc.scVector (cV L) (sV L)).devRef cc1_scratch2)) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector (cV L) (sV L)) (b := ((Proc.scVector (cV L) (sV L)).devRef cc1_scratch3)) rfl⟩⟩⟩)]

/-! ## The index words a gather reads are rows of the table -/

omit [FloatOps F] in
/-- A scratch held whole, read after a copy over all of it, holds the copy's payload. -/
theorem whole_rw (b : Ref sig .scVector) (a w : BufTy.Contents (Elt F) b.ty) :
    View.read (Elt F) (Memref.whole b).view (View.write (Elt F) (Memref.whole b).view a w Finset.univ) = w :=
  (View.read_whole _ _).trans (View.write_whole_univ _ _ _)

omit [FloatOps F] in
/-- What a copy of any 25600 words of the index array leaves in the first index scratch names rows of the table. -/
theorem ix0_inb (hr : ∀ d p, (qf d p).toNat < 1000000) (a : Buf (Elt F) ((V d (cV L) (sV L)).loc cc1_scratch0))
    (off : Fin 1 → ℕ) (inb : ∀ a, off a + S25600.size a ≤ S3276800.size a) :
    ∀ x : S25600.Idx, (View.read (Elt F) ix0.view (View.write (Elt F) ix0.view a
      (ReadAs.same.apply (View.read (Elt F) (qfM.slice (Rect.unit (s := S3276800) off S25600.size inb) (fun _ => rfl)).view (qf d))) Finset.univ) x).toNat < 1000000 := by
  intro x
  have h1 := whole_rw (F := F) (cc1_scratch0 : Ref sig .scVector) a
    (ReadAs.same.apply (View.read (Elt F) (qfM.slice (Rect.unit (s := S3276800) off S25600.size inb) (fun _ => rfl)).view (qf d)))
  exact lt_of_eq_of_lt (congrArg BitVec.toNat ((congrFun h1 x).trans ((View.read_apply _ _).trans (cast_eq _ _)))) (hr d _)
omit [FloatOps F] in
/-- The same for the second index scratch. -/
theorem ix1_inb (hr : ∀ d p, (qf d p).toNat < 1000000) (a : Buf (Elt F) ((V d (cV L) (sV L)).loc cc1_scratch1))
    (off : Fin 1 → ℕ) (inb : ∀ a, off a + S25600.size a ≤ S3276800.size a) :
    ∀ x : S25600.Idx, (View.read (Elt F) ix1.view (View.write (Elt F) ix1.view a
      (ReadAs.same.apply (View.read (Elt F) (qfM.slice (Rect.unit (s := S3276800) off S25600.size inb) (fun _ => rfl)).view (qf d))) Finset.univ) x).toNat < 1000000 := by
  intro x
  have h1 := whole_rw (F := F) (cc1_scratch1 : Ref sig .scVector) a
    (ReadAs.same.apply (View.read (Elt F) (qfM.slice (Rect.unit (s := S3276800) off S25600.size inb) (fun _ => rfl)).view (qf d)))
  exact lt_of_eq_of_lt (congrArg BitVec.toNat ((congrFun h1 x).trans ((View.read_apply _ _).trans (cast_eq _ _)))) (hr d _)

/-! ## One indexed copy and its wait -/

/-- The gather of the table's rows named by an index scratch into a value scratch, then its wait: from a read share of the
    table, the two scratches whole, the semaphore at zero and index words that name rows, to the value scratch written with
    the rows the words name, everything else back and the wait recorded. The rows' credits sum to the value scratch's own. -/
theorem gather_step {α : Type} (ix : Memref sig .scVector .vmem S25600 .i32) (vl : Memref sig .scVector .vmem S25600 .f32)
    (hix : ix.view.set = Finset.univ) (hvl : vl.view.set = Finset.univ)
    (hcr : ∀ s' : Shape, sig.dmaCredit .scVector (Kind.scVector.table .vmem) vl.view.buf s' .f32 = s'.numel * EltTy.f32.bits)
    {hp : (V d (cV L) (sV L)).2.kind = Kind.scVector} {hg : S1000000.Gathers 0 S25600} {hn : S25600.numel = S25600.size hg.axis'} {sem : DmaSem sig}
    {hsrc : twAll.view.WordExact} {he : EltTy.f32.bits = 32} {hsp : Space.hbm = .hbm ∨ Space.hbm = .shared} {hr' : S1000000.StreamRows 0}
    {hsrc' : twAll.view.WordExact} {hdst' : vl.view.WordExact}
    (q : PosShare TreeShare) (g : Buf (Elt F) (twLoc d)) (fi : Buf (Elt F) (ix.view.loc (V d (cV L) (sV L)))) (fv : Buf (Elt F) (vl.view.loc (V d (cV L) (sV L))))
    (hin : ∀ x, (ix.view.read (Elt F) fi x).toNat < S1000000.size hg.axis)
    (O : CellTallies nD τ sig (HIx 1)) (W : Waits sig (HIx 1))
    (k : PUnit → Prog (TpuEff nD τ sig (Elt F) Λ₀ (V d (cV L) (sV L)).2) α) (Q : α → sProp 𝕄) :
    iprop((Transfers.MayWaits (V d (cV L) (sV L)) (default : HIx 1) O : sProp 𝕄) ∗ (twLoc d ↦{q} g)
        ∗ (vl.view.loc (V d (cV L) (sV L)) ↦{fullShare} fv) ∗ (ix.view.loc (V d (cV L) (sV L)) ↦{fullShare} fi)
        ∗ semVal (V d (cV L) (sV L), SemLoc.dma sem) 0 ∗ owes (V d (cV L) (sV L)) O W)
      ⊢ iprop((iprop((twLoc d ↦{q} g)
              ∗ (vl.view.loc (V d (cV L) (sV L)) ↦{fullShare}
                  vl.view.write (Elt F) fv (SparseCore.gatherPayload hg (twAll.view.read (Elt F) (g)) (SparseCore.rows (ix.view.read (Elt F) fi) hn hin)) Finset.univ)
              ∗ (ix.view.loc (V d (cV L) (sV L)) ↦{fullShare} fi)
              ∗ semVal (V d (cV L) (sV L), SemLoc.dma sem) 0 ∗ owes (V d (cV L) (sV L)) O (insert (SemLoc.dma sem, (default : HIx 1)) W))
            -∗ wp frame (wpE (defs₀ (F := F)) 𝒱₀ (V d (cV L) (sV L)) none) Set.univ (k ⟨⟩) Q)
          -∗ wp frame (wpE (defs₀ (F := F)) 𝒱₀ (V d (cV L) (sV L)) none) Set.univ
              (SparseCore.enqueueIndirectGather hp twAll vl hg ix hn sem hsrc he hsp hr' >>= fun _ =>
                SparseCore.waitIndirectGather sem twAll vl hsrc' hdst' >>= k) Q) := by
  iintro ⟨#Hmw, Htw, Hv, Hi, Hsem, HO⟩ Hk
  ihave Htw' := (Entails.of_eq (pts_tw (F := F) d L q (g)).symm) $$ Htw
  ihave Hsp := (pointsTo_split_subset (q := q) (f := g) (S := Finset.univ) (Finset.subset_univ twAll.view.set)).1 $$ Htw'
  icases Hsp with ⟨Hts, Htr⟩
  ihave Hv' := (Entails.of_eq (show (vl.view.loc (V d (cV L) (sV L)) ↦{fullShare} fv : sProp 𝕄)
      = vl.view.loc (V d (cV L) (sV L)) ↦[vl.view.set]{fullShare} fv by rw [hvl])) $$ Hv
  ihave Hi' := (Entails.of_eq (show (ix.view.loc (V d (cV L) (sV L)) ↦{fullShare} fi : sProp 𝕄)
      = ix.view.loc (V d (cV L) (sV L)) ↦[ix.view.set]{fullShare} fi by rw [hix])) $$ Hi
  iapply (SparseCore.wp_indirectGatherLocal countersEmb 𝒱₀ (V d (cV L) (sV L)) none (hg := hg) (default : HIx 1) vl.view.dmaCredit
      (SparseCore.sum_rowCredit_eq_dmaCredit vl hg.axis' hcr) (by decide) hin) $$ [Hts Hv' Hi' Hsem]
  · isplitl [Hts]; · iexact Hts
    isplitl [Hv']; · iexact Hv'
    isplitl [Hi']; · iexact Hi'
    iexact Hsem
  iintro Hfl
  iapply (Transfers.wp_waitLocalO countersEmb 𝒱₀ (V d (cV L) (sV L)) none (default : HIx 1) (rfl : vl.view.dmaCredit = _)) $$ [Hfl HO]
  · isplitl [Hfl]; · iexact Hfl
    isplitl [HO]; · iexact HO
    iapply (Transfers.MayWaits.elim (SemLoc.dma sem)) $$ Hmw
  iintro ⟨⟨Hv', Hts, Hi'⟩, Hsem, HO⟩
  iapply Hk
  ihave Htw' := (pointsTo_split_subset (q := q) (f := g) (S := Finset.univ) (Finset.subset_univ twAll.view.set)).2 $$ [Hts Htr]
  · isplitl [Hts] <;> iassumption
  isplitl [Htw']; · iapply (Entails.of_eq (pts_tw (F := F) d L q (g))); iexact Htw'
  isplitl [Hv']
  · iapply (Entails.of_eq (show (vl.view.loc (V d (cV L) (sV L)) ↦[vl.view.set]{fullShare} _ : sProp 𝕄)
      = vl.view.loc (V d (cV L) (sV L)) ↦{fullShare} _ by rw [hvl])); iexact Hv'
  isplitl [Hi']
  · iapply (Entails.of_eq (show (ix.view.loc (V d (cV L) (sV L)) ↦[ix.view.set]{fullShare} fi : sProp 𝕄)
      = ix.view.loc (V d (cV L) (sV L)) ↦{fullShare} fi by rw [hix])); iexact Hi'
  isplitl [Hsem]; · iexact Hsem
  iexact HO

/-! ## A tile's four chunks of the result, each at what its store left, are four chunks of one array -/

omit [FloatOps F] in
theorem chunks_disjoint : ∀ r ∈ (Finset.univ : Finset (Fin 4)), ∀ r' ∈ (Finset.univ : Finset (Fin 4)), r ≠ r' → Disjoint (pieceSet L r) (pieceSet L r') := by
  intro r _ r' _ h
  refine Finset.disjoint_left.mpr fun p hp hp' => h ?_
  have h1 := (mem_pieceSet L r p).mp hp
  have h2 := (mem_pieceSet L r' p).mp hp'
  exact Fin.ext (by omega)

omit [FloatOps F] in
theorem chunks_join (f0 f1 f2 f3 : Buf (Elt F) (outLoc d)) :
    iprop((outLoc d ↦[pieceSet L 0]{fullShare} f0) ∗ (outLoc d ↦[pieceSet L 1]{fullShare} f1)
        ∗ (outLoc d ↦[pieceSet L 2]{fullShare} f2) ∗ (outLoc d ↦[pieceSet L 3]{fullShare} f3))
      ⊢ (iprop(∃ f : Buf (Elt F) (outLoc d), (outLoc d ↦[pieceSet L 0]{fullShare} f) ∗ (outLoc d ↦[pieceSet L 1]{fullShare} f)
          ∗ (outLoc d ↦[pieceSet L 2]{fullShare} f) ∗ (outLoc d ↦[pieceSet L 3]{fullShare} f)) : sProp 𝕄) := by
  have e := bigSep_fin4 (F := F) (fun r : Fin 4 => (outLoc d ↦[pieceSet L r]{fullShare}
    (match r with | 0 => f0 | 1 => f1 | 2 => f2 | 3 => f3 : Buf (Elt F) (outLoc d)) : sProp 𝕄))
  refine (Entails.of_eq e.symm).trans ?_
  iintro H
  ihave H' := (pointsTo_biUnion_join Finset.univ (pieceSet L)
    (fun r : Fin 4 => (match r with | 0 => f0 | 1 => f1 | 2 => f2 | 3 => f3 : Buf (Elt F) (outLoc d))) f0 (chunks_disjoint L)) $$ H
  icases H' with ⟨%g, -, Hg⟩
  ihave Hg' := (Entails.of_eq (pointsTo_biUnion Finset.univ (ℓ := outLoc d) (f := g) (q := fullShare) (pieceSet L) (chunks_disjoint L))) $$ Hg
  iexists g
  iapply (Entails.of_eq (bigSep_fin4 (F := F) (fun r : Fin 4 => (outLoc d ↦[pieceSet L r]{fullShare} g : sProp 𝕄))))
  iexact Hg'

set_option maxHeartbeats 8000000 in
/-- The task on tile `L`: four chunks, each loaded into an index scratch, gathered through it into a value scratch, stored out;
    the index chunks come back, the result's chunks at what the stores left, the table's share is dropped. -/
theorem tile_body' (hF : (K (F := F)).Facts) (hr : ∀ d p, (qf d p).toNat < 1000000) (O : CellTallies nD τ sig (HIx 1)) (W : Waits sig (HIx 1)) (hO : ∀ g, O g none = 0) :
    iprop(levAts (K (F := F)).L (K (F := F)).lev ∗ emp ∗ (∃ f, tileRes' qf d L f)
        ∗ scopedBufs (V d (cV L) (sV L)) ∗ scopedSems0 (V d (cV L) (sV L)) ∗ owes (V d (cV L) (sV L)) O W)
      ⊢ wp frame (wpE (defs₀ (F := F)) 𝒱₀ (V d (cV L) (sV L)) none) Set.univ
          (cc1_gather_k L twM (Memref.isWhole_whole _) qfM (Memref.isWhole_whole _) outM (Memref.isWhole_whole _)
            ix0 (Memref.isWhole_whole _) ix1 (Memref.isWhole_whole _) vl0 (Memref.isWhole_whole _) vl1 (Memref.isWhole_whole _) cc1_scratch4 cc1_scratch5 cc1_scratch6)
          fun _ => iprop(tileBack' qf d L ∗ scopedBufs (V d (cV L) (sV L)) ∗ scopedSems0 (V d (cV L) (sV L))
            ∗ ∃ W', ⌜∀ p ∈ W', p ∈ W ∨ p.2 = none⌝ ∗ owes (V d (cV L) (sV L)) O W') := by
  simp only [cc1_gather_k_eq_skeleton]; unfold cc1_gather_k_skel
  rw [(K (F := F)).scopedBufs_V hF d (cV L) (sV L), SparseCore.Cfg.scopedSems0_V (Val := Elt F) d (cV L) (sV L), ownSems0_V, ownBufs_V]
  unfold tileRes' tileBack'
  simp only [bigSep_fin4]
  iintro ⟨#Hlv, -, ⟨%fo, ⟨Hq0, Hq1, Hq2, Hq3⟩, ⟨Ho0, Ho1, Ho2, Ho3⟩, ⟨%tw0, Htw⟩⟩, ⟨⟨%a0, Hi0⟩, ⟨%a1, Hi1⟩, ⟨%b0, Hv0⟩, ⟨%b1, Hv1⟩, Hbufs⟩, ⟨Hs0, Hs1, Hg0, Hg1, Ht0, Ht1, Hsems⟩, HO⟩
  ihave Hmw := (show levAts (K (F := F)).L (K (F := F)).lev ⊢ Transfers.MayWaits (V d (cV L) (sV L)) (default : HIx 1) O from
    (K (F := F)).mayWaits_none (thr := V d (cV L) (sV L)) hO) $$ Hlv
  ihave Hq0' := (Entails.of_eq (pts_q0 (F := F) d L _).symm) $$ Hq0
  ihave Hq1' := (Entails.of_eq (pts_q1 (F := F) d L _).symm) $$ Hq1
  ihave Hq2' := (Entails.of_eq (pts_q2 (F := F) d L _).symm) $$ Hq2
  ihave Hq3' := (Entails.of_eq (pts_q3 (F := F) d L _).symm) $$ Hq3
  ihave Ho0' := (Entails.of_eq (pts_o0 (F := F) d L _).symm) $$ Ho0
  ihave Ho1' := (Entails.of_eq (pts_o1 (F := F) d L _).symm) $$ Ho1
  ihave Ho2' := (Entails.of_eq (pts_o2 (F := F) d L _).symm) $$ Ho2
  ihave Ho3' := (Entails.of_eq (pts_o3 (F := F) d L _).symm) $$ Ho3
  ihave Hi0' := (Entails.of_eq (pts_ix0 (F := F) d L _).symm) $$ Hi0
  ihave Hi1' := (Entails.of_eq (pts_ix1 (F := F) d L _).symm) $$ Hi1
  ihave Hv0' := (Entails.of_eq (pts_vl0 (F := F) d L _).symm) $$ Hv0
  ihave Hv1' := (Entails.of_eq (pts_vl1 (F := F) d L _).symm) $$ Hv1
  have hin0 := ix0_inb qf d L hr
  have hin1 := ix1_inb qf d L hr
  sl_exec
  iapply (gather_step d L ix0 vl0 (View.set_whole _) (View.set_whole _) (fun _ => rfl) _ tw0 _ _ (hin0 _ _ _) O _ _ _) $$ [Htw Hv0' Hi0' Hg0 HO]
  · isplitr; · iexact Hmw
    isplitl [Htw]; · iexact Htw
    isplitl [Hv0']; · iexact Hv0'
    isplitl [Hi0']; · iexact Hi0'
    isplitl [Hg0]; · iexact Hg0
    iexact HO
  iintro ⟨Htw, Hv0', Hi0', Hg0, HO⟩
  sl_exec
  iapply (gather_step d L ix1 vl1 (View.set_whole _) (View.set_whole _) (fun _ => rfl) _ tw0 _ _ (hin1 _ _ _) O _ _ _) $$ [Htw Hv1' Hi1' Hg1 HO]
  · isplitr; · iexact Hmw
    isplitl [Htw]; · iexact Htw
    isplitl [Hv1']; · iexact Hv1'
    isplitl [Hi1']; · iexact Hi1'
    isplitl [Hg1]; · iexact Hg1
    iexact HO
  iintro ⟨Htw, Hv1', Hi1', Hg1, HO⟩
  sl_exec
  iapply (gather_step d L ix0 vl0 (View.set_whole _) (View.set_whole _) (fun _ => rfl) _ tw0 _ _ (hin0 _ _ _) O _ _ _) $$ [Htw Hv0' Hi0' Hg0 HO]
  · isplitr; · iexact Hmw
    isplitl [Htw]; · iexact Htw
    isplitl [Hv0']; · iexact Hv0'
    isplitl [Hi0']; · iexact Hi0'
    isplitl [Hg0]; · iexact Hg0
    iexact HO
  iintro ⟨Htw, Hv0', Hi0', Hg0, HO⟩
  sl_exec
  iapply (gather_step d L ix1 vl1 (View.set_whole _) (View.set_whole _) (fun _ => rfl) _ tw0 _ _ (hin1 _ _ _) O _ _ _) $$ [Htw Hv1' Hi1' Hg1 HO]
  · isplitr; · iexact Hmw
    isplitl [Htw]; · iexact Htw
    isplitl [Hv1']; · iexact Hv1'
    isplitl [Hi1']; · iexact Hi1'
    isplitl [Hg1]; · iexact Hg1
    iexact HO
  iintro ⟨-, Hv1', Hi1', Hg1, HO⟩
  sl_exec
  sl_step
  ihave Ho0 := (Entails.of_eq (pts_o0 (F := F) d L _)) $$ Ho0'
  ihave Ho1 := (Entails.of_eq (pts_o1 (F := F) d L _)) $$ Ho1'
  ihave Ho2 := (Entails.of_eq (pts_o2 (F := F) d L _)) $$ Ho2'
  ihave Ho3 := (Entails.of_eq (pts_o3 (F := F) d L _)) $$ Ho3'
  isplitl [Hq0' Hq1' Hq2' Hq3' Ho0 Ho1 Ho2 Ho3]
  · isplitl [Hq0' Hq1' Hq2' Hq3']
    · isplitl [Hq0']; · iapply (Entails.of_eq (pts_q0 (F := F) d L _)); iexact Hq0'
      isplitl [Hq1']; · iapply (Entails.of_eq (pts_q1 (F := F) d L _)); iexact Hq1'
      isplitl [Hq2']; · iapply (Entails.of_eq (pts_q2 (F := F) d L _)); iexact Hq2'
      iapply (Entails.of_eq (pts_q3 (F := F) d L _)); iexact Hq3'
    iapply (chunks_join (F := F) d L _ _ _ _)
    isplitl [Ho0]; · iexact Ho0
    isplitl [Ho1]; · iexact Ho1
    isplitl [Ho2]; · iexact Ho2
    iexact Ho3
  isplitl [Hi0' Hi1' Hv0' Hv1' Hbufs]
  · isplitl [Hi0']; · iexists _; iapply (Entails.of_eq (pts_ix0 (F := F) d L _)); iexact Hi0'
    isplitl [Hi1']; · iexists _; iapply (Entails.of_eq (pts_ix1 (F := F) d L _)); iexact Hi1'
    isplitl [Hv0']; · iexists _; iapply (Entails.of_eq (pts_vl0 (F := F) d L _)); iexact Hv0'
    isplitl [Hv1']; · iexists _; iapply (Entails.of_eq (pts_vl1 (F := F) d L _)); iexact Hv1'
    iexact Hbufs
  isplitl [Hs0 Hs1 Hg0 Hg1 Ht0 Ht1 Hsems]
  · isplitl [Hs0]; · iexact Hs0
    isplitl [Hs1]; · iexact Hs1
    isplitl [Hg0]; · iexact Hg0
    isplitl [Hg1]; · iexact Hg1
    isplitl [Ht0]; · iexact Ht0
    isplitl [Ht1]; · iexact Ht1
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-! ## The launch theorem's obligation -/

theorem defs₀_vector (c : Fin τ.nSC) (s : Fin τ.nSub) :
    defs₀ (F := F) (.scVector c s) 1 ⟨⟩
      = SparseCore.onTile hcore1 hsub1 (fun c s => cc1_gather_k (coordsV c s)
          twM (Memref.isWhole_whole _) qfM (Memref.isWhole_whole _) outM (Memref.isWhole_whole _)
          ix0 (Memref.isWhole_whole _) ix1 (Memref.isWhole_whole _) vl0 (Memref.isWhole_whole _) vl1 (Memref.isWhole_whole _)
          cc1_scratch4 cc1_scratch5 cc1_scratch6) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl' (hF : (K (F := F)).Facts) (hr : ∀ d p, (qf d p).toNat < 1000000) : (K (F := F)).TileObl (D (F := F)) 𝒱 (P' qf) v₀ 0 := by
  intro d c i O W hO _ _
  -- this kernel owes nothing for a protocol of its own
  simp only [show (P' qf).ox = fun _ _ => 0 from rfl, add_zero]
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body' qf d (coordsV ⟨_, hc.1⟩ ⟨_, hc.2⟩) hF hr O W hO).trans (wp_mono frame _ _ fun _ => obl_post)

end Cert.Proof.KB

end
-- ==== Proof.KBRange.lean ====
/-
  A recast only re-indexes: every word of the flattened index array is a word of the index array itself. So whatever
  range the index words are known to lie in, the words the gather reads lie in it too.
-/
import proofs.«206189_g37357625540624_cont_8to1_b_987_36_alg».proof.Proof.KBMainVals

set_option maxRecDepth 16384

noncomputable section

namespace Cert.Proof.KB

open Cert.Kernel Cert.Kernel.Gen Idealize.ShloMosaic Idealize.ShloMosaic.TcCoe Idealize.ShloMosaic.ValueIdx

/-- Every word of the flattened index array is a word of the index array. -/
theorem qfIn_mem {F : FTy → Type} [FloatOps F] [∀ e, Nonempty (Elt F e)] (m : (ℓ : Loc nD τ sig) → Buf (Elt F) ℓ) (d : Dev nD)
    (p : S3276800.Idx) :
    ∃ ij : S16384x200.Idx, (qfIn m d : S3276800.Idx → BitVec 32) p = (m (d, a0') : S16384x200.Idx → BitVec 32) ij := by
  have h : (qfIn m d : S3276800.Idx → BitVec 32)
      = fun p => shapeCast S3276800 (m (d, a0') : S16384x200.Idx → BitVec 32) shapeCasts_S16384x200_S3276800 p := by
    unfold qfIn W3
    exact StableHlo.reshape_result' _ _ _ _ _
  rw [h]
  unfold shapeCast
  exact ⟨_, rfl⟩

end Cert.Proof.KB

end
-- ==== Proof.BitsClaims.lean ====
/-
  The printed kernel's frame at the bit-exact instance. Under the precondition every index word of `q` names a row
  of the table, so every tile's gather finds its rows and every thread runs to its end; the four argument arrays
  are never written.
-/
import proofs.«206189_g37357625540624_cont_8to1_b_987_36_alg».proof.Defs
import proofs.«206189_g37357625540624_cont_8to1_b_987_36_alg».proof.Proof.KBLaunch
import proofs.«206189_g37357625540624_cont_8to1_b_987_36_alg».proof.Proof.KBTile
import proofs.«206189_g37357625540624_cont_8to1_b_987_36_alg».proof.Proof.KBRange
import proofs.«206189_g37357625540624_cont_8to1_b_987_36_alg».proof.Proof.PreRange
import proofs.«206189_g37357625540624_cont_8to1_b_987_36_alg».proof.Proof.Gen.Pre_input_domain

noncomputable section

namespace Cert.Proof.BitsClaims

open Cert.Kernel Cert.Kernel.Gen Cert.Proof.KB

open Idealize.ShloMosaic Idealize.ShloMosaic.TcCoe Idealize.SL.Sem

/-- Under the precondition every word of `q` is below a million. -/
theorem range_q (m : (ℓ : Loc nD τ sig) → Buf (Elt Bits) ℓ) (hpre : Cert.Pre_Kernel m) (c : Dev nD) (ij) :
    ((m (c, a0') : S16384x200.Idx → BitVec 32) ij).toNat < 1000000 :=
  Cert.Proof.PreRange.range_of_pre (F := Bits) _ _ _ _ (hpre c) ij

/-- So is every word of the flattened index array: a recast only re-indexes. -/
theorem range_qf (m : (ℓ : Loc nD τ sig) → Buf (Elt Bits) ℓ) (hpre : Cert.Pre_Kernel m) (d : Dev nD) (p) :
    (qfIn (F := Bits) m d p).toNat < 1000000 := by
  obtain ⟨ij, h⟩ := qfIn_mem m d p
  show ((qfIn m d : S3276800.Idx → BitVec 32) p).toNat < 1000000
  rw [h]; exact range_q m hpre d ij

theorem frame_p : Cert.frame_Kernel := fun m ρ hpre =>
  (θ_run Cert.Kernel.defs _ _).mono (fun _ h c => h c)
    (run_main (F := Bits) m ρ (tileObl' (qfIn m) facts (range_qf m hpre)))

end Cert.Proof.BitsClaims

end
-- ==== Proof.lean ====
/-
  Two programs compute, for every entry of a 16384×200 array of index words, the same number: the row of a
  million-row table that the word names, projected onto a weight vector, plus a bias. The kernel first projects the
  whole table on one processor, block by block, and then has thirty-two tiles of a second processor gather the
  projected entries the words name, each tile moving its own quarter-million words in four chunks through two slots.
  The reference gathers the rows first and projects them afterwards. Under the precondition every word names a row,
  so both are the one function `Spec.G` of the arguments; each program runs to its end from any memory with zero
  counters and leaves its arguments as they were; the idealized kernel is the printed one read at exact arithmetic,
  no operation rewritten.
-/
import proofs.«206189_g37357625540624_cont_8to1_b_987_36_alg».proof.Defs
import proofs.«206189_g37357625540624_cont_8to1_b_987_36_alg».proof.Proof.Gen.Kernel
import proofs.«206189_g37357625540624_cont_8to1_b_987_36_alg».proof.Proof.Gen.Kernel.Skeleton
import proofs.«206189_g37357625540624_cont_8to1_b_987_36_alg».proof.Proof.Gen.Kernel.Launch
import proofs.«206189_g37357625540624_cont_8to1_b_987_36_alg».proof.Proof.Gen.Kernel.Points
import proofs.«206189_g37357625540624_cont_8to1_b_987_36_alg».proof.Proof.Gen.KernelIdeal
import proofs.«206189_g37357625540624_cont_8to1_b_987_36_alg».proof.Proof.Gen.KernelIdeal.Skeleton
import proofs.«206189_g37357625540624_cont_8to1_b_987_36_alg».proof.Proof.Gen.KernelIdeal.Launch
import proofs.«206189_g37357625540624_cont_8to1_b_987_36_alg».proof.Proof.Gen.KernelIdeal.Points
import proofs.«206189_g37357625540624_cont_8to1_b_987_36_alg».proof.Proof.Gen.ReferenceIdeal
import proofs.«206189_g37357625540624_cont_8to1_b_987_36_alg».proof.Proof.Gen.Pre_input_domain
import proofs.«206189_g37357625540624_cont_8to1_b_987_36_alg».proof.Proof.IdealClaims
import proofs.«206189_g37357625540624_cont_8to1_b_987_36_alg».proof.Proof.BitsClaims
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_input_domain.Gen.facts,
  Cert.Proof.BitsClaims.frame_p, Cert.Proof.IdealClaims.frame_pi, Cert.Proof.IdealClaims.frame_ri, trivial, Cert.Proof.IdealClaims.algebraic⟩

end Cert.Proof

end
